-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg9 : FVec F S128 .f32) (main_arg10 : FVec F S128 .f32) (main_arg11 : FVec F S128x64 .f32) (main_arg12 : FVec F S64 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg11
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg6 : FVec F S128 .f32) (main_arg7 : FVec F S128x128 .f32) (main_arg8 : FVec F S128 .f32) (main_arg9 : FVec F S128 .f32) (main_arg10 : FVec F S128 .f32) (main_arg11 : FVec F S128x64 .f32) (main_arg12 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128x64 .f32) (main_arg12 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x128 : Shape := ⟨2, ![1, 128]⟩
abbrev S1x64 : Shape := ⟨2, ![1, 64]⟩
abbrev S1600000x128 : Shape := ⟨2, ![1600000, 128]⟩
abbrev S5000x128 : Shape := ⟨2, ![5000, 128]⟩
abbrev S5000x1 : Shape := ⟨2, ![5000, 1]⟩
abbrev S100000x64 : Shape := ⟨2, ![100000, 64]⟩
abbrev S5000x64 : Shape := ⟨2, ![5000, 64]⟩

abbrev nBuf : Space → Nat
  | .hbm => 106
  | .vmem => 48
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128x64, .f32⟩
  | .hbm, ⟨12, _⟩ => ⟨S64, .f32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x1, .f32⟩
  | .hbm, ⟨33, _⟩ => ⟨S1x128, .f32⟩
  | .hbm, ⟨34, _⟩ => ⟨S1x128, .f32⟩
  | .hbm, ⟨35, _⟩ => ⟨S1x64, .f32⟩
  | .hbm, ⟨36, _⟩ => ⟨S1x128, .f32⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S100000x128, .f32⟩
  | .hbm, ⟨56, _⟩ => ⟨S1x128, .f32⟩
  | .hbm, ⟨57, _⟩ => ⟨S1x128, .f32⟩
  | .hbm, ⟨58, _⟩ => ⟨S_, .f32⟩
  | .hbm, ⟨59, _⟩ => ⟨S1x128, .f32⟩
  | .hbm, ⟨60, _⟩ => ⟨S1x128, .f32⟩
  | .hbm, ⟨61, _⟩ => ⟨S_, .f32⟩
  | .hbm, ⟨62, _⟩ => ⟨S1x128, .f32⟩
  | .hbm, ⟨63, _⟩ => ⟨S1x128, .f32⟩
  | .hbm, ⟨64, _⟩ => ⟨S1x128, .f32⟩
  | .hbm, ⟨65, _⟩ => ⟨S1x128, .f32⟩
  | .hbm, ⟨66, _⟩ => ⟨S100000x128, .f32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x128, .f32⟩
  | .hbm, ⟨76, _⟩ => ⟨S_, .f32⟩
  | .hbm, ⟨77, _⟩ => ⟨S100000x128, .f32⟩
  | .hbm, ⟨78, _⟩ => ⟨S1600000x1, .i32⟩
  | .hbm, ⟨79, _⟩ => ⟨S100000x128, .f32⟩
  | .hbm, ⟨80, _⟩ => ⟨S100000x128, .f32⟩
  | .hbm, ⟨81, _⟩ => ⟨S1x128, .f32⟩
  | .hbm, ⟨82, _⟩ => ⟨S1x128, .f32⟩
  | .hbm, ⟨83, _⟩ => ⟨S_, .f32⟩
  | .hbm, ⟨84, _⟩ => ⟨S1x128, .f32⟩
  | .hbm, ⟨85, _⟩ => ⟨S1x128, .f32⟩
  | .hbm, ⟨86, _⟩ => ⟨S_, .f32⟩
  | .hbm, ⟨87, _⟩ => ⟨S1x128, .f32⟩
  | .hbm, ⟨88, _⟩ => ⟨S1x128, .f32⟩
  | .hbm, ⟨89, _⟩ => ⟨S1x128, .f32⟩
  | .hbm, ⟨90, _⟩ => ⟨S1x128, .f32⟩
  | .hbm, ⟨91, _⟩ => ⟨S100000x128, .f32⟩
  | .hbm, ⟨92, _⟩ => ⟨S_, .i32⟩
  | .hbm, ⟨93, _⟩ => ⟨S1600000, .i32⟩
  | .hbm, ⟨94, _⟩ => ⟨S1600000, .i1⟩
  | .hbm, ⟨95, _⟩ => ⟨S_, .i32⟩
  | .hbm, ⟨96, _⟩ => ⟨S1600000, .i32⟩
  | .hbm, ⟨97, _⟩ => ⟨S1600000, .i32⟩
  | .hbm, ⟨98, _⟩ => ⟨S1600000, .i32⟩
  | .hbm, ⟨99, _⟩ => ⟨S1600000x1, .i32⟩
  | .hbm, ⟨100, _⟩ => ⟨S1600000x128, .f32⟩
  | .hbm, ⟨101, _⟩ => ⟨S_, .f32⟩
  | .hbm, ⟨102, _⟩ => ⟨S100000x128, .f32⟩
  | .hbm, ⟨103, _⟩ => ⟨S1600000x1, .i32⟩
  | .hbm, ⟨104, _⟩ => ⟨S100000x128, .f32⟩
  | .hbm, ⟨105, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S1x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S5000x1, .f32⟩
  | .local _ .vmem, ⟨17, _⟩ => ⟨S5000x1, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x1, .f32⟩
  | .local _ .vmem, ⟨23, _⟩ => ⟨S5000x1, .f32⟩
  | .local _ .vmem, ⟨24, _⟩ => ⟨S128x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S1x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S5000x1, .f32⟩
  | .local _ .vmem, ⟨37, _⟩ => ⟨S5000x1, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x1, .f32⟩
  | .local _ .vmem, ⟨43, _⟩ => ⟨S5000x1, .f32⟩
  | .local _ .vmem, ⟨44, _⟩ => ⟨S128x64, .f32⟩
  | .local _ .vmem, ⟨45, _⟩ => ⟨S1x64, .f32⟩
  | .local _ .vmem, ⟨46, _⟩ => ⟨S5000x64, .f32⟩
  | .local _ .vmem, ⟨47, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_2 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_3 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c : Ref sig .tc := ⟨.hbm, 42, rfl⟩
abbrev main_v24 : Ref sig .tc := ⟨.hbm, 43, rfl⟩
abbrev main_v25 : Ref sig .tc := ⟨.hbm, 44, rfl⟩
abbrev main_c_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34_0 : Ref sig .tc := ⟨.hbm, 55, rfl⟩
abbrev main_v34_1 : Ref sig .tc := ⟨.hbm, 56, rfl⟩
abbrev main_v34_2 : Ref sig .tc := ⟨.hbm, 57, rfl⟩
abbrev main_cst_6 : Ref sig .tc := ⟨.hbm, 58, rfl⟩
abbrev main_v35 : Ref sig .tc := ⟨.hbm, 59, rfl⟩
abbrev main_v36 : Ref sig .tc := ⟨.hbm, 60, rfl⟩
abbrev main_cst_7 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_c_8 : Ref sig .tc := ⟨.hbm, 67, rfl⟩
abbrev main_v42 : Ref sig .tc := ⟨.hbm, 68, rfl⟩
abbrev main_v43 : Ref sig .tc := ⟨.hbm, 69, rfl⟩
abbrev main_c_9 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_10 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52_0 : Ref sig .tc := ⟨.hbm, 80, rfl⟩
abbrev main_v52_1 : Ref sig .tc := ⟨.hbm, 81, rfl⟩
abbrev main_v52_2 : Ref sig .tc := ⟨.hbm, 82, rfl⟩
abbrev main_cst_11 : Ref sig .tc := ⟨.hbm, 83, rfl⟩
abbrev main_v53 : Ref sig .tc := ⟨.hbm, 84, rfl⟩
abbrev main_v54 : Ref sig .tc := ⟨.hbm, 85, rfl⟩
abbrev main_cst_12 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_c_13 : Ref sig .tc := ⟨.hbm, 92, rfl⟩
abbrev main_v60 : Ref sig .tc := ⟨.hbm, 93, rfl⟩
abbrev main_v61 : Ref sig .tc := ⟨.hbm, 94, rfl⟩
abbrev main_c_14 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_15 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg6_0 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg5_1 : Ref sig .tc := ⟨.vmem, 37, rfl⟩
abbrev cc3_stg6_0 : Ref sig .tc := ⟨.vmem, 38, rfl⟩
abbrev cc3_stg6_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg4_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem4_1 : DmaSem sig := 27
abbrev cc2_sem5_0 : DmaSem sig := 28
abbrev cc2_sem6_0 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem5_1 : DmaSem sig := 37
abbrev cc3_sem6_0 : DmaSem sig := 38
abbrev cc3_sem6_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem4_1 : DmaSem sig := 47

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S128_S1x128 : S128.ShapeCasts S1x128
  shapeCasts_S64_S1x64 : S64.ShapeCasts S1x64
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  inb_S1x128_S1x128_0_0 : ∀ a, (![0, 0] : Fin 2 → Nat) a + S1x128.size a ≤ S1x128.size a
  h_S1x128 : 0 < S1x128.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x1.size a ≤ S100000x1.size a
  hwx1_5 : ∀ i : grid1.Coords, EltTy.bits .f32 = 32 ∨ (Rect.block (s := S100000x1) S5000x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x1.size a ≤ S100000x1.size a
  hwx3_5 : ∀ i : grid3.Coords, EltTy.bits .f32 = 32 ∨ (Rect.block (s := S100000x1) S5000x1.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S100000x128.size a
  hwx3_6 : ∀ i : grid3.Coords, EltTy.bits .f32 = 32 ∨ (Rect.block (s := S100000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S100000x1.size a
  hwx4_1 : ∀ i : grid4.Coords, EltTy.bits .f32 = 32 ∨ (Rect.block (s := S100000x1) S5000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x64.size a ≤ S128x64.size a
  hwx4_2 : ∀ i : grid4.Coords, EltTy.bits .f32 = 32 ∨ (Rect.block (s := S128x64) S128x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x64.size a ≤ S100000x64.size a
  hwx4_4 : ∀ i : grid4.Coords, EltTy.bits .f32 = 32 ∨ (Rect.block (s := S100000x64) S5000x64.size (cc4_transform_4 i) (hinb4_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v33) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v34_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v34_1) S1x128.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v34_2) S1x128.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v34_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v40) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v13) S5000x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v41) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v51) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v16) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v52_0) S5000x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v52_1) S1x128.size cc2_transform_5 reads2_5 true true 1 stage2_5 sem2_5
    hrank2 hreads2_5 hinb2_5 nbuf2_5 (Memref.isWhole_whole _) hwx2_5 hstage2_5

abbrev win2_6 : Pipeline.Window sig grid2 :=
  Pipeline.Window.ofSpec (Memref.whole main_v52_2) S1x128.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v52_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v54) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v19) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v21) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v13) S5000x1.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v59) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v69) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v14) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg11) S128x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v17) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v70) S5000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x64 : Shape := ⟨2, ![100000, 64]⟩
abbrev S1x64 : Shape := ⟨2, ![1, 64]⟩

abbrev nBuf : Space → Nat
  | .hbm => 166
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x64, .f32⟩
  | 12 => ⟨S64, .f32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S1600000x1, .i32⟩
  | 22 => ⟨S100000, .f32⟩
  | 23 => ⟨S_, .f32⟩
  | 24 => ⟨S100000, .f32⟩
  | 25 => ⟨S100000, .f32⟩
  | 26 => ⟨S100000, .f32⟩
  | 27 => ⟨S_, .f32⟩
  | 28 => ⟨S100000, .f32⟩
  | 29 => ⟨S100000, .f32⟩
  | 30 => ⟨S100000, .f32⟩
  | 31 => ⟨S100000x1, .f32⟩
  | 32 => ⟨S100000x128, .f32⟩
  | 33 => ⟨S100000x128, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000x128, .f32⟩
  | 43 => ⟨S_, .f32⟩
  | 44 => ⟨S100000x128, .f32⟩
  | 45 => ⟨S1600000x1, .i32⟩
  | 46 => ⟨S100000x128, .f32⟩
  | 47 => ⟨S100000x1, .f32⟩
  | 48 => ⟨S100000x128, .f32⟩
  | 49 => ⟨S100000x128, .f32⟩
  | 50 => ⟨S100000x128, .f32⟩
  | 51 => ⟨S1x128, .f32⟩
  | 52 => ⟨S100000x128, .f32⟩
  | 53 => ⟨S100000x128, .f32⟩
  | 54 => ⟨S_, .f32⟩
  | 55 => ⟨S128, .f32⟩
  | 56 => ⟨S_, .f32⟩
  | 57 => ⟨S128, .f32⟩
  | 58 => ⟨S128, .f32⟩
  | 59 => ⟨S1x128, .f32⟩
  | 60 => ⟨S100000x128, .f32⟩
  | 61 => ⟨S100000x128, .f32⟩
  | 62 => ⟨S100000x128, .f32⟩
  | 63 => ⟨S_, .f32⟩
  | 64 => ⟨S128, .f32⟩
  | 65 => ⟨S_, .f32⟩
  | 66 => ⟨S128, .f32⟩
  | 67 => ⟨S128, .f32⟩
  | 68 => ⟨S1x128, .f32⟩
  | 69 => ⟨S100000x128, .f32⟩
  | 70 => ⟨S100000x128, .f32⟩
  | 71 => ⟨S_, .f32⟩
  | 72 => ⟨S128, .f32⟩
  | 73 => ⟨S128, .f32⟩
  | 74 => ⟨S128, .f32⟩
  | 75 => ⟨S1x128, .f32⟩
  | 76 => ⟨S100000x128, .f32⟩
  | 77 => ⟨S100000x128, .f32⟩
  | 78 => ⟨S1x128, .f32⟩
  | 79 => ⟨S100000x128, .f32⟩
  | 80 => ⟨S100000x128, .f32⟩
  | 81 => ⟨S1x128, .f32⟩
  | 82 => ⟨S100000x128, .f32⟩
  | 83 => ⟨S100000x128, .f32⟩
  | 84 => ⟨S_, .f32⟩
  | 85 => ⟨S100000x128, .f32⟩
  | 86 => ⟨S100000x128, .f32⟩
  | 87 => ⟨S100000x1, .f32⟩
  | 88 => ⟨S100000x128, .f32⟩
  | 89 => ⟨S100000x128, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000x128, .f32⟩
  | 99 => ⟨S_, .f32⟩
  | 100 => ⟨S100000x128, .f32⟩
  | 101 => ⟨S1600000x1, .i32⟩
  | 102 => ⟨S100000x128, .f32⟩
  | 103 => ⟨S100000x1, .f32⟩
  | 104 => ⟨S100000x128, .f32⟩
  | 105 => ⟨S100000x128, .f32⟩
  | 106 => ⟨S100000x128, .f32⟩
  | 107 => ⟨S1x128, .f32⟩
  | 108 => ⟨S100000x128, .f32⟩
  | 109 => ⟨S100000x128, .f32⟩
  | 110 => ⟨S_, .f32⟩
  | 111 => ⟨S128, .f32⟩
  | 112 => ⟨S_, .f32⟩
  | 113 => ⟨S128, .f32⟩
  | 114 => ⟨S128, .f32⟩
  | 115 => ⟨S1x128, .f32⟩
  | 116 => ⟨S100000x128, .f32⟩
  | 117 => ⟨S100000x128, .f32⟩
  | 118 => ⟨S100000x128, .f32⟩
  | 119 => ⟨S_, .f32⟩
  | 120 => ⟨S128, .f32⟩
  | 121 => ⟨S_, .f32⟩
  | 122 => ⟨S128, .f32⟩
  | 123 => ⟨S128, .f32⟩
  | 124 => ⟨S1x128, .f32⟩
  | 125 => ⟨S100000x128, .f32⟩
  | 126 => ⟨S100000x128, .f32⟩
  | 127 => ⟨S_, .f32⟩
  | _ => ⟨S100000x128, .f32⟩

abbrev hbmTy0_1 (i : Nat) : BufTy := match i % 128 with
  | 0 => ⟨S128, .f32⟩
  | 1 => ⟨S128, .f32⟩
  | 2 => ⟨S128, .f32⟩
  | 3 => ⟨S1x128, .f32⟩
  | 4 => ⟨S100000x128, .f32⟩
  | 5 => ⟨S100000x128, .f32⟩
  | 6 => ⟨S1x128, .f32⟩
  | 7 => ⟨S100000x128, .f32⟩
  | 8 => ⟨S100000x128, .f32⟩
  | 9 => ⟨S1x128, .f32⟩
  | 10 => ⟨S100000x128, .f32⟩
  | 11 => ⟨S100000x128, .f32⟩
  | 12 => ⟨S_, .f32⟩
  | 13 => ⟨S100000x128, .f32⟩
  | 14 => ⟨S100000x128, .f32⟩
  | 15 => ⟨S100000x1, .f32⟩
  | 16 => ⟨S100000x128, .f32⟩
  | 17 => ⟨S100000x128, .f32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S1600000x128, .f32⟩
  | 27 => ⟨S_, .f32⟩
  | 28 => ⟨S100000x128, .f32⟩
  | 29 => ⟨S1600000x1, .i32⟩
  | 30 => ⟨S100000x128, .f32⟩
  | 31 => ⟨S100000x1, .f32⟩
  | 32 => ⟨S100000x128, .f32⟩
  | 33 => ⟨S100000x128, .f32⟩
  | 34 => ⟨S100000x64, .f32⟩
  | 35 => ⟨S1x64, .f32⟩
  | 36 => ⟨S100000x64, .f32⟩
  | 37 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_2 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_3 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_6 : Ref sig .tc := ⟨.hbm, 54, rfl⟩
abbrev main_v33 : Ref sig .tc := ⟨.hbm, 55, rfl⟩
abbrev main_cst_7 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_8 : Ref sig .tc := ⟨.hbm, 63, rfl⟩
abbrev main_v40 : Ref sig .tc := ⟨.hbm, 64, rfl⟩
abbrev main_cst_9 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_10 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_call0_cst : Ref sig .tc := ⟨.hbm, 84, rfl⟩
abbrev main_call0_v0 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_c_11 : Ref sig .tc := ⟨.hbm, 90, rfl⟩
abbrev main_v62 : Ref sig .tc := ⟨.hbm, 91, rfl⟩
abbrev main_v63 : Ref sig .tc := ⟨.hbm, 92, rfl⟩
abbrev main_c_12 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_13 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_14 : Ref sig .tc := ⟨.hbm, 110, rfl⟩
abbrev main_v79 : Ref sig .tc := ⟨.hbm, 111, rfl⟩
abbrev main_cst_15 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_16 : Ref sig .tc := ⟨.hbm, 119, rfl⟩
abbrev main_v86 : Ref sig .tc := ⟨.hbm, 120, rfl⟩
abbrev main_cst_17 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_cst_18 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_call1_cst : Ref sig .tc := ⟨.hbm, 140, rfl⟩
abbrev main_call1_v0 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_c_19 : Ref sig .tc := ⟨.hbm, 146, rfl⟩
abbrev main_v108 : Ref sig .tc := ⟨.hbm, 147, rfl⟩
abbrev main_v109 : Ref sig .tc := ⟨.hbm, 148, rfl⟩
abbrev main_c_20 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_cst_21 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The idealized kernel's run with its result kept: every weakly fair execution terminates without a fault, the
  result array ends at the contents the last region's write-backs leave (the fold of the segments from the launch
  memory), and the argument arrays end as launched.
-/
import proofs.«167096_j27393301414235_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the ten segments (five stretches of host operations, five regions) from the launch memory; the last
    thread state is read against the final state, the result at the last boundary's contents, each argument back
    through the fold to its launch contents. -/
theorem run_result : θ_run defs (onTc (τ := τ) (main (F := F))) ⟨m, fun _ => 0, ρ⟩ (fun r => ∀ c : Dev nD,
      r.2.mem ((c.tc : Thread nD τ).loc main_v70) = W10 m ρ c (Proc.devRef .tc main_v70) ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v70 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c)⟩)

end Cert.KernelIdeal.Result

end
-- ==== Proof.Spec.lean ====
/-
  The layers of the network as functions of whole arrays over the extended reals, index by index.

  A node array has 100000 rows. One dense layer scales row `r` of the aggregated features by the in-degree factor
  `n r`, multiplies by the weight matrix and adds the bias row. Batch normalisation uses the column sums of a layer's
  output and of its squares over all rows; the normalised, rectified and rescaled layer is `bnReluScale`.
-/
import Idealize.ShloMosaic.Lib.ValueIdx
import Idealize.ShloMosaic.PureOps.Ideal

noncomputable section

namespace Cert.Spec

open Idealize.ShloMosaic Idealize.ShloMosaic.ValueIdx

/-- An `n0 × n1` array of extended reals. -/
abbrev Arr (n0 n1 : Nat) : Type := (⟨2, ![n0, n1]⟩ : Shape).Idx → EReal

/-- One dense layer: entry `(r, c)` is `∑ k, (a r k · n r) · W k c + b c`. -/
def linear {fo : Nat} (a : Arr 100000 128) (n : Arr 100000 1) (W : Arr 128 fo) (b : Arr 1 fo) : Arr 100000 fo :=
  fun i => (∑ k : Fin 128, (a (ix2 (i 0) k) * n (ix2 (i 0) (0 : Fin 1))) * W (ix2 k (i 1))) + b (ix2 (0 : Fin 1) (i 1))

/-- The sum of every column over all rows. -/
def colSum (h : Arr 100000 128) : Arr 1 128 := fun j => ∑ r : Fin 100000, h (ix2 r (j 1))

/-- The sum of the squares of every column over all rows. -/
def colSumSq (h : Arr 100000 128) : Arr 1 128 := fun j => ∑ r : Fin 100000, h (ix2 r (j 1)) * h (ix2 r (j 1))

/-- The variance's additive constant, the single-precision number nearest to 1e-5. -/
def eps : EReal := Ideal.ofBits .f32 0x3727C5AC#32

/-- Normalise column `c` by its mean and variance, scale and shift by `g c`, `be c`, rectify, and scale row `r` by
    the out-degree factor `n r`. -/
def bnReluScale (h : Arr 100000 128) (mean var g be : Arr 1 128) (n : Arr 100000 1) : Arr 100000 128 :=
  fun i => max (((h i - mean (ix2 (0 : Fin 1) (i 1))) * Ideal.rsqrt (var (ix2 (0 : Fin 1) (i 1)) + eps)) * g (ix2 (0 : Fin 1) (i 1))
      + be (ix2 (0 : Fin 1) (i 1))) 0 * n (ix2 (i 0) (0 : Fin 1))

end Cert.Spec

end
-- ==== Proof.Net.lean ====
/-
  The whole network as a function of its argument arrays, in two arrangements that differ only in how a layer's
  column variance is computed: from the column sums of the entries and of their squares (one pass,
  `E[y²] − E[y]²`), or from the mean and the squared deviations from it (two passes, `E[(y − E[y])²]`).
  The neighbourhood aggregation `Agg` (a gather along edges followed by a scatter-add) and the degree factors
  `nout`, `nin` are parameters: both arrangements apply the same ones.
-/
import proofs.«167096_j27393301414235_1_alg».proof.Proof.Spec

noncomputable section

namespace Cert.Net

open Idealize.ShloMosaic Idealize.ShloMosaic.ValueIdx Cert.Spec

/-- The number of rows, as the single-precision literal both programs divide by (it denotes 100000 exactly). -/
def rows : EReal := Ideal.ofBits .f32 0x47C35000#32

/-- Row `r` of `x` scaled by `n r`. -/
def scaleRows (x : Arr 100000 128) (n : Arr 100000 1) : Arr 100000 128 := fun i => x i * n (ix2 (i 0) (0 : Fin 1))

/-- Column means from the column sums. -/
def meanOne (h : Arr 100000 128) : Arr 1 128 := fun j => Ideal.div (colSum h j) rows

/-- Column variances in one pass: the mean of the squares minus the square of the mean. -/
def varOne (h : Arr 100000 128) : Arr 1 128 := fun j => Ideal.div (colSumSq h j) rows - meanOne h j * meanOne h j

/-- Column means, as a plain sum over the rows divided by their number. -/
def meanTwo (h : Arr 100000 128) : Arr 1 128 := fun j => Ideal.div (∑ r : Fin 100000, h (ix2 r (j 1))) rows

/-- Column variances in two passes: the mean of the squared deviations from the column mean. -/
def varTwo (h : Arr 100000 128) : Arr 1 128 :=
  fun j => Ideal.div (∑ r : Fin 100000, (h (ix2 r (j 1)) - meanTwo h j) * (h (ix2 r (j 1)) - meanTwo h j)) rows

section
variable (Agg : Arr 100000 128 → Arr 100000 128) (nout nin : Arr 100000 1)
variable (a0 : Arr 100000 128) (W1 : Arr 128 128) (b1 g1 be1 : Arr 1 128) (W2 : Arr 128 128) (b2 g2 be2 : Arr 1 128)
  (W3 : Arr 128 64) (b3 : Arr 1 64)

/-- The first layer before normalisation. -/
def hid1 : Arr 100000 128 := linear (Agg (scaleRows a0 nout)) nin W1 b1

/-- One-pass arrangement: the input of the second aggregation. -/
def actOne1 : Arr 100000 128 :=
  bnReluScale (hid1 Agg nout nin a0 W1 b1) (meanOne (hid1 Agg nout nin a0 W1 b1)) (varOne (hid1 Agg nout nin a0 W1 b1)) g1 be1 nout
/-- Two-pass arrangement: the input of the second aggregation. -/
def actTwo1 : Arr 100000 128 :=
  bnReluScale (hid1 Agg nout nin a0 W1 b1) (meanTwo (hid1 Agg nout nin a0 W1 b1)) (varTwo (hid1 Agg nout nin a0 W1 b1)) g1 be1 nout

/-- The second layer before normalisation, one-pass arrangement. -/
def hidOne2 : Arr 100000 128 := linear (Agg (actOne1 Agg nout nin a0 W1 b1 g1 be1)) nin W2 b2
/-- The second layer before normalisation, two-pass arrangement. -/
def hidTwo2 : Arr 100000 128 := linear (Agg (actTwo1 Agg nout nin a0 W1 b1 g1 be1)) nin W2 b2

/-- One-pass arrangement: the input of the third aggregation. -/
def actOne2 : Arr 100000 128 :=
  bnReluScale (hidOne2 Agg nout nin a0 W1 b1 g1 be1 W2 b2) (meanOne (hidOne2 Agg nout nin a0 W1 b1 g1 be1 W2 b2))
    (varOne (hidOne2 Agg nout nin a0 W1 b1 g1 be1 W2 b2)) g2 be2 nout
/-- Two-pass arrangement: the input of the third aggregation. -/
def actTwo2 : Arr 100000 128 :=
  bnReluScale (hidTwo2 Agg nout nin a0 W1 b1 g1 be1 W2 b2) (meanTwo (hidTwo2 Agg nout nin a0 W1 b1 g1 be1 W2 b2))
    (varTwo (hidTwo2 Agg nout nin a0 W1 b1 g1 be1 W2 b2)) g2 be2 nout

/-- The network's output, one-pass arrangement. -/
def outOne : Arr 100000 64 := linear (Agg (actOne2 Agg nout nin a0 W1 b1 g1 be1 W2 b2 g2 be2)) nin W3 b3
/-- The network's output, two-pass arrangement. -/
def outTwo : Arr 100000 64 := linear (Agg (actTwo2 Agg nout nin a0 W1 b1 g1 be1 W2 b2 g2 be2)) nin W3 b3
end

end Cert.Net

end
-- ==== Proof.KernelStages.lean ====
import proofs.«167096_j27393301414235_1_alg».proof.Proof.Gen.KernelIdeal.Frame
import proofs.«167096_j27393301414235_1_alg».proof.Proof.Spec
import proofs.«167096_j27393301414235_1_alg».proof.Proof.Net
import Idealize.ShloMosaic.Lib.StableHlo.Run

set_option maxRecDepth 16384

noncomputable section

namespace Cert.KernelIdeal.Stages

open Cert.KernelIdeal Cert.KernelIdeal.Gen
open Idealize.ShloMosaic Idealize.ShloMosaic.TcCoe Idealize.ShloMosaic.StableHlo Idealize.SL.Sem
open Idealize.ShloMosaic.ValueIdx

variable (m : (ℓ : Loc nD τ sig) → Buf (Elt Ideal) ℓ) (ρ : Dev nD → PrngReg) (c : Dev nD)

open Cert.Spec Cert.Net

/-- No operation of a stretch writes the buffer: every operation's written reference differs from it. -/
macro "skip_writes " ops:ident : tactic => `(tactic| (
  simp only [$ops:ident, List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## The host stretches' functions -/

/-- The degree factor of every node: `rsqrt (max (number of edges at the node) 1)`, the count taken by scatter-adding ones. -/
def degFactor (x : IVec S1600000 32) : FVec Ideal S100000 .f32 :=
  Host.rsqrt (maximumf
    (Host.scatterAdd scatter_S100000_S1600000x1_S1600000_n_0_0_1 (broadcastInDim S100000 ![] bcast_S_S100000 (constant S_ .f32 0x00000000#32))
      (broadcastInDim S1600000x1 ![0] bcast_S1600000_S1600000x1_0 x) (broadcastInDim S1600000 ![] bcast_S_S1600000 (constant S_ .f32 0x3F800000#32)))
    (broadcastInDim S100000 ![] bcast_S_S100000 (constant S_ .f32 0x3F800000#32)))

/-- A vector over the nodes as a one-column array. -/
def col (v : FVec Ideal S100000 .f32) : FVec Ideal S100000x1 .f32 := shapeCast S100000x1 v shapeCasts_S100000_S100000x1

/-- The neighbourhood aggregation: rows gathered along the edges' sources (negative indices wrapped), scatter-added into
    the edges' destinations, from zeros. -/
def aggK (x1 x2 : IVec S1600000 32) (x : FVec Ideal S100000x128 .f32) : FVec Ideal S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 x2)
    (Host.gather gather_S100000x128_S1600000x1_S1600000x128_1_0_n_n_0_1_1128 x
      (broadcastInDim S1600000x1 ![0] bcast_S1600000_S1600000x1_0
        (select (cmpi .slt x1 (broadcastInDim S1600000 ![] bcast_S_S1600000 (constantI S_ 32 0#32)))
          (addi x1 (broadcastInDim S1600000 ![] bcast_S_S1600000 (constantI S_ 32 100000#32))) x1)))

/-- A 128-vector as a one-row array. -/
def rowK (b : FVec Ideal S128 .f32) : FVec Ideal S1x128 .f32 := shapeCast S1x128 b shapeCasts_S128_S1x128
/-- A 64-vector as a one-row array. -/
def rowK64 (b : FVec Ideal S64 .f32) : FVec Ideal S1x64 .f32 := shapeCast S1x64 b shapeCasts_S64_S1x64

/-- The row count, spread over a row. -/
def rowsRow : FVec Ideal S1x128 .f32 := broadcastInDim S1x128 ![] bcast_S_S1x128 (constant S_ .f32 0x47C35000#32)

/-! ## The first stretch, from the launch memory -/

theorem w1_v33 : W1 m ρ c (Proc.devRef .tc main_v33) = aggK (m ((c : Thread nD τ).loc main_arg1)) (m ((c : Thread nD τ).loc main_arg2))
    (mulf (m ((c : Thread nD τ).loc main_arg0)) (broadcastInDim S100000x128 ![0, 1] bcast_S100000x1_S100000x128_0_1 (col (degFactor (m ((c : Thread nD τ).loc main_arg1)))))) := by
  show StableHlo.after hostOps0 (W0 m ρ c) (Proc.devRef .tc main_v33) = _
  after_results_simp; rfl
theorem w1_v13 : W1 m ρ c (Proc.devRef .tc main_v13) = col (degFactor (m ((c : Thread nD τ).loc main_arg1))) := by
  show StableHlo.after hostOps0 (W0 m ρ c) (Proc.devRef .tc main_v13) = _
  after_results_simp; rfl
theorem w1_v14 : W1 m ρ c (Proc.devRef .tc main_v14) = col (degFactor (m ((c : Thread nD τ).loc main_arg2))) := by
  show StableHlo.after hostOps0 (W0 m ρ c) (Proc.devRef .tc main_v14) = _
  after_results_simp; rfl
theorem w1_v15 : W1 m ρ c (Proc.devRef .tc main_v15) = rowK (m ((c : Thread nD τ).loc main_arg4)) := by
  show StableHlo.after hostOps0 (W0 m ρ c) (Proc.devRef .tc main_v15) = _
  after_results_simp; rfl
theorem w1_v16 : W1 m ρ c (Proc.devRef .tc main_v16) = rowK (m ((c : Thread nD τ).loc main_arg8)) := by
  show StableHlo.after hostOps0 (W0 m ρ c) (Proc.devRef .tc main_v16) = _
  after_results_simp; rfl
theorem w1_v17 : W1 m ρ c (Proc.devRef .tc main_v17) = rowK64 (m ((c : Thread nD τ).loc main_arg12)) := by
  show StableHlo.after hostOps0 (W0 m ρ c) (Proc.devRef .tc main_v17) = _
  after_results_simp; rfl
theorem w1_v18 : W1 m ρ c (Proc.devRef .tc main_v18) = rowK (m ((c : Thread nD τ).loc main_arg5)) := by
  show StableHlo.after hostOps0 (W0 m ρ c) (Proc.devRef .tc main_v18) = _
  after_results_simp; rfl
theorem w1_v19 : W1 m ρ c (Proc.devRef .tc main_v19) = rowK (m ((c : Thread nD τ).loc main_arg9)) := by
  show StableHlo.after hostOps0 (W0 m ρ c) (Proc.devRef .tc main_v19) = _
  after_results_simp; rfl
theorem w1_v20 : W1 m ρ c (Proc.devRef .tc main_v20) = rowK (m ((c : Thread nD τ).loc main_arg6)) := by
  show StableHlo.after hostOps0 (W0 m ρ c) (Proc.devRef .tc main_v20) = _
  after_results_simp; rfl
theorem w1_v21 : W1 m ρ c (Proc.devRef .tc main_v21) = rowK (m ((c : Thread nD τ).loc main_arg10)) := by
  show StableHlo.after hostOps0 (W0 m ρ c) (Proc.devRef .tc main_v21) = _
  after_results_simp; rfl

/-! ## Buffers no later stretch or region writes keep their contents (a region leaves its input arrays as entered) -/

theorem w1_arg3 : W1 m ρ c (Proc.devRef .tc main_arg3) = (m ((c : Thread nD τ).loc main_arg3)) :=
  calc W1 m ρ c (Proc.devRef .tc main_arg3)
    _ = W0 m ρ c (Proc.devRef .tc main_arg3) := StableHlo.after_of_forall_not_mem (b := Proc.devRef .tc main_arg3) _ _ (List.forall_iff_forall_mem.mp (by skip_writes hostOps0))
    _ = (m ((c : Thread nD τ).loc main_arg3)) := rfl
theorem w3_v13 : W3 m ρ c (Proc.devRef .tc main_v13) = W1 m ρ c (Proc.devRef .tc main_v13) :=
  calc W3 m ρ c (Proc.devRef .tc main_v13)
    _ = W2 m ρ c (Proc.devRef .tc main_v13) := StableHlo.after_of_forall_not_mem (b := Proc.devRef .tc main_v13) _ _ (List.forall_iff_forall_mem.mp (by skip_writes hostOps1))
    _ = W1 m ρ c (Proc.devRef .tc main_v13) := W2_of_ne m ρ c main_v13 (by decide)
theorem w3_v18 : W3 m ρ c (Proc.devRef .tc main_v18) = W1 m ρ c (Proc.devRef .tc main_v18) :=
  calc W3 m ρ c (Proc.devRef .tc main_v18)
    _ = W2 m ρ c (Proc.devRef .tc main_v18) := StableHlo.after_of_forall_not_mem (b := Proc.devRef .tc main_v18) _ _ (List.forall_iff_forall_mem.mp (by skip_writes hostOps1))
    _ = W1 m ρ c (Proc.devRef .tc main_v18) := W2_of_ne m ρ c main_v18 (by decide)
theorem w3_v20 : W3 m ρ c (Proc.devRef .tc main_v20) = W1 m ρ c (Proc.devRef .tc main_v20) :=
  calc W3 m ρ c (Proc.devRef .tc main_v20)
    _ = W2 m ρ c (Proc.devRef .tc main_v20) := StableHlo.after_of_forall_not_mem (b := Proc.devRef .tc main_v20) _ _ (List.forall_iff_forall_mem.mp (by skip_writes hostOps1))
    _ = W1 m ρ c (Proc.devRef .tc main_v20) := W2_of_ne m ρ c main_v20 (by decide)
theorem w3_v34_0 : W3 m ρ c (Proc.devRef .tc main_v34_0) = W2 m ρ c (Proc.devRef .tc main_v34_0) :=
  calc W3 m ρ c (Proc.devRef .tc main_v34_0)
    _ = W2 m ρ c (Proc.devRef .tc main_v34_0) := StableHlo.after_of_forall_not_mem (b := Proc.devRef .tc main_v34_0) _ _ (List.forall_iff_forall_mem.mp (by skip_writes hostOps1))
theorem w4_arg1 : W4 m ρ c (Proc.devRef .tc main_arg1) = (m ((c : Thread nD τ).loc main_arg1)) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by skip_writes hostOps1))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by skip_writes hostOps0))
    _ = (m ((c : Thread nD τ).loc main_arg1)) := rfl
theorem w4_arg2 : W4 m ρ c (Proc.devRef .tc main_arg2) = (m ((c : Thread nD τ).loc main_arg2)) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by skip_writes hostOps1))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by skip_writes hostOps0))
    _ = (m ((c : Thread nD τ).loc main_arg2)) := rfl
theorem w5_v14 : W5 m ρ c (Proc.devRef .tc main_v14) = W1 m ρ c (Proc.devRef .tc main_v14) :=
  calc W5 m ρ c (Proc.devRef .tc main_v14)
    _ = W4 m ρ c (Proc.devRef .tc main_v14) := StableHlo.after_of_forall_not_mem (b := Proc.devRef .tc main_v14) _ _ (List.forall_iff_forall_mem.mp (by skip_writes hostOps2))
    _ = W3 m ρ c (Proc.devRef .tc main_v14) := W4_of_ne m ρ c main_v14 (by decide)
    _ = W2 m ρ c (Proc.devRef .tc main_v14) := StableHlo.after_of_forall_not_mem (b := Proc.devRef .tc main_v14) _ _ (List.forall_iff_forall_mem.mp (by skip_writes hostOps1))
    _ = W1 m ρ c (Proc.devRef .tc main_v14) := (W2_arr m ρ c 1).trans (((dat0 (V1 m ρ) c).arrAt_in 1 rfl _).trans (A_eq0 (V1 m ρ) c 1))
theorem w5_v16 : W5 m ρ c (Proc.devRef .tc main_v16) = W1 m ρ c (Proc.devRef .tc main_v16) :=
  calc W5 m ρ c (Proc.devRef .tc main_v16)
    _ = W4 m ρ c (Proc.devRef .tc main_v16) := StableHlo.after_of_forall_not_mem (b := Proc.devRef .tc main_v16) _ _ (List.forall_iff_forall_mem.mp (by skip_writes hostOps2))
    _ = W3 m ρ c (Proc.devRef .tc main_v16) := W4_of_ne m ρ c main_v16 (by decide)
    _ = W2 m ρ c (Proc.devRef .tc main_v16) := StableHlo.after_of_forall_not_mem (b := Proc.devRef .tc main_v16) _ _ (List.forall_iff_forall_mem.mp (by skip_writes hostOps1))
    _ = W1 m ρ c (Proc.devRef .tc main_v16) := W2_of_ne m ρ c main_v16 (by decide)
theorem w5_arg7 : W5 m ρ c (Proc.devRef .tc main_arg7) = (m ((c : Thread nD τ).loc main_arg7)) :=
  calc W5 m ρ c (Proc.devRef .tc main_arg7)
    _ = W4 m ρ c (Proc.devRef .tc main_arg7) := StableHlo.after_of_forall_not_mem (b := Proc.devRef .tc main_arg7) _ _ (List.forall_iff_forall_mem.mp (by skip_writes hostOps2))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by skip_writes hostOps1))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by skip_writes hostOps0))
    _ = (m ((c : Thread nD τ).loc main_arg7)) := rfl
theorem w7_v52_0 : W7 m ρ c (Proc.devRef .tc main_v52_0) = W6 m ρ c (Proc.devRef .tc main_v52_0) :=
  calc W7 m ρ c (Proc.devRef .tc main_v52_0)
    _ = W6 m ρ c (Proc.devRef .tc main_v52_0) := StableHlo.after_of_forall_not_mem (b := Proc.devRef .tc main_v52_0) _ _ (List.forall_iff_forall_mem.mp (by skip_writes hostOps3))
theorem w7_v19 : W7 m ρ c (Proc.devRef .tc main_v19) = W1 m ρ c (Proc.devRef .tc main_v19) :=
  calc W7 m ρ c (Proc.devRef .tc main_v19)
    _ = W6 m ρ c (Proc.devRef .tc main_v19) := StableHlo.after_of_forall_not_mem (b := Proc.devRef .tc main_v19) _ _ (List.forall_iff_forall_mem.mp (by skip_writes hostOps3))
    _ = W5 m ρ c (Proc.devRef .tc main_v19) := W6_of_ne m ρ c main_v19 (by decide)
    _ = W4 m ρ c (Proc.devRef .tc main_v19) := StableHlo.after_of_forall_not_mem (b := Proc.devRef .tc main_v19) _ _ (List.forall_iff_forall_mem.mp (by skip_writes hostOps2))
    _ = W3 m ρ c (Proc.devRef .tc main_v19) := W4_of_ne m ρ c main_v19 (by decide)
    _ = W2 m ρ c (Proc.devRef .tc main_v19) := StableHlo.after_of_forall_not_mem (b := Proc.devRef .tc main_v19) _ _ (List.forall_iff_forall_mem.mp (by skip_writes hostOps1))
    _ = W1 m ρ c (Proc.devRef .tc main_v19) := W2_of_ne m ρ c main_v19 (by decide)
theorem w7_v21 : W7 m ρ c (Proc.devRef .tc main_v21) = W1 m ρ c (Proc.devRef .tc main_v21) :=
  calc W7 m ρ c (Proc.devRef .tc main_v21)
    _ = W6 m ρ c (Proc.devRef .tc main_v21) := StableHlo.after_of_forall_not_mem (b := Proc.devRef .tc main_v21) _ _ (List.forall_iff_forall_mem.mp (by skip_writes hostOps3))
    _ = W5 m ρ c (Proc.devRef .tc main_v21) := W6_of_ne m ρ c main_v21 (by decide)
    _ = W4 m ρ c (Proc.devRef .tc main_v21) := StableHlo.after_of_forall_not_mem (b := Proc.devRef .tc main_v21) _ _ (List.forall_iff_forall_mem.mp (by skip_writes hostOps2))
    _ = W3 m ρ c (Proc.devRef .tc main_v21) := W4_of_ne m ρ c main_v21 (by decide)
    _ = W2 m ρ c (Proc.devRef .tc main_v21) := StableHlo.after_of_forall_not_mem (b := Proc.devRef .tc main_v21) _ _ (List.forall_iff_forall_mem.mp (by skip_writes hostOps1))
    _ = W1 m ρ c (Proc.devRef .tc main_v21) := W2_of_ne m ρ c main_v21 (by decide)
theorem w7_v13 : W7 m ρ c (Proc.devRef .tc main_v13) = W1 m ρ c (Proc.devRef .tc main_v13) :=
  calc W7 m ρ c (Proc.devRef .tc main_v13)
    _ = W6 m ρ c (Proc.devRef .tc main_v13) := StableHlo.after_of_forall_not_mem (b := Proc.devRef .tc main_v13) _ _ (List.forall_iff_forall_mem.mp (by skip_writes hostOps3))
    _ = W5 m ρ c (Proc.devRef .tc main_v13) := W6_of_ne m ρ c main_v13 (by decide)
    _ = W4 m ρ c (Proc.devRef .tc main_v13) := StableHlo.after_of_forall_not_mem (b := Proc.devRef .tc main_v13) _ _ (List.forall_iff_forall_mem.mp (by skip_writes hostOps2))
    _ = W3 m ρ c (Proc.devRef .tc main_v13) := (W4_arr m ρ c 5).trans (((dat1 (V3 m ρ) c).arrAt_in 5 rfl _).trans (A_eq1 (V3 m ρ) c 5))
    _ = W2 m ρ c (Proc.devRef .tc main_v13) := StableHlo.after_of_forall_not_mem (b := Proc.devRef .tc main_v13) _ _ (List.forall_iff_forall_mem.mp (by skip_writes hostOps1))
    _ = W1 m ρ c (Proc.devRef .tc main_v13) := W2_of_ne m ρ c main_v13 (by decide)
theorem w8_arg1 : W8 m ρ c (Proc.devRef .tc main_arg1) = (m ((c : Thread nD τ).loc main_arg1)) :=
  calc W8 m ρ c (Proc.devRef .tc main_arg1)
    _ = W7 m ρ c (Proc.devRef .tc main_arg1) := W8_of_ne m ρ c main_arg1 (by decide)
    _ = W6 m ρ c (Proc.devRef .tc main_arg1) := StableHlo.after_of_forall_not_mem (b := Proc.devRef .tc main_arg1) _ _ (List.forall_iff_forall_mem.mp (by skip_writes hostOps3))
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by skip_writes hostOps2))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by skip_writes hostOps1))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by skip_writes hostOps0))
    _ = (m ((c : Thread nD τ).loc main_arg1)) := rfl
theorem w8_arg2 : W8 m ρ c (Proc.devRef .tc main_arg2) = (m ((c : Thread nD τ).loc main_arg2)) :=
  calc W8 m ρ c (Proc.devRef .tc main_arg2)
    _ = W7 m ρ c (Proc.devRef .tc main_arg2) := W8_of_ne m ρ c main_arg2 (by decide)
    _ = W6 m ρ c (Proc.devRef .tc main_arg2) := StableHlo.after_of_forall_not_mem (b := Proc.devRef .tc main_arg2) _ _ (List.forall_iff_forall_mem.mp (by skip_writes hostOps3))
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by skip_writes hostOps2))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by skip_writes hostOps1))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by skip_writes hostOps0))
    _ = (m ((c : Thread nD τ).loc main_arg2)) := rfl
theorem w9_v14 : W9 m ρ c (Proc.devRef .tc main_v14) = W1 m ρ c (Proc.devRef .tc main_v14) :=
  calc W9 m ρ c (Proc.devRef .tc main_v14)
    _ = W8 m ρ c (Proc.devRef .tc main_v14) := StableHlo.after_of_forall_not_mem (b := Proc.devRef .tc main_v14) _ _ (List.forall_iff_forall_mem.mp (by skip_writes hostOps4))
    _ = W7 m ρ c (Proc.devRef .tc main_v14) := W8_of_ne m ρ c main_v14 (by decide)
    _ = W6 m ρ c (Proc.devRef .tc main_v14) := StableHlo.after_of_forall_not_mem (b := Proc.devRef .tc main_v14) _ _ (List.forall_iff_forall_mem.mp (by skip_writes hostOps3))
    _ = W5 m ρ c (Proc.devRef .tc main_v14) := (W6_arr m ρ c 1).trans (((dat2 (V5 m ρ) c).arrAt_in 1 rfl _).trans (A_eq2 (V5 m ρ) c 1))
    _ = W4 m ρ c (Proc.devRef .tc main_v14) := StableHlo.after_of_forall_not_mem (b := Proc.devRef .tc main_v14) _ _ (List.forall_iff_forall_mem.mp (by skip_writes hostOps2))
    _ = W3 m ρ c (Proc.devRef .tc main_v14) := W4_of_ne m ρ c main_v14 (by decide)
    _ = W2 m ρ c (Proc.devRef .tc main_v14) := StableHlo.after_of_forall_not_mem (b := Proc.devRef .tc main_v14) _ _ (List.forall_iff_forall_mem.mp (by skip_writes hostOps1))
    _ = W1 m ρ c (Proc.devRef .tc main_v14) := (W2_arr m ρ c 1).trans (((dat0 (V1 m ρ) c).arrAt_in 1 rfl _).trans (A_eq0 (V1 m ρ) c 1))
theorem w9_v17 : W9 m ρ c (Proc.devRef .tc main_v17) = W1 m ρ c (Proc.devRef .tc main_v17) :=
  calc W9 m ρ c (Proc.devRef .tc main_v17)
    _ = W8 m ρ c (Proc.devRef .tc main_v17) := StableHlo.after_of_forall_not_mem (b := Proc.devRef .tc main_v17) _ _ (List.forall_iff_forall_mem.mp (by skip_writes hostOps4))
    _ = W7 m ρ c (Proc.devRef .tc main_v17) := W8_of_ne m ρ c main_v17 (by decide)
    _ = W6 m ρ c (Proc.devRef .tc main_v17) := StableHlo.after_of_forall_not_mem (b := Proc.devRef .tc main_v17) _ _ (List.forall_iff_forall_mem.mp (by skip_writes hostOps3))
    _ = W5 m ρ c (Proc.devRef .tc main_v17) := W6_of_ne m ρ c main_v17 (by decide)
    _ = W4 m ρ c (Proc.devRef .tc main_v17) := StableHlo.after_of_forall_not_mem (b := Proc.devRef .tc main_v17) _ _ (List.forall_iff_forall_mem.mp (by skip_writes hostOps2))
    _ = W3 m ρ c (Proc.devRef .tc main_v17) := W4_of_ne m ρ c main_v17 (by decide)
    _ = W2 m ρ c (Proc.devRef .tc main_v17) := StableHlo.after_of_forall_not_mem (b := Proc.devRef .tc main_v17) _ _ (List.forall_iff_forall_mem.mp (by skip_writes hostOps1))
    _ = W1 m ρ c (Proc.devRef .tc main_v17) := W2_of_ne m ρ c main_v17 (by decide)
theorem w9_arg11 : W9 m ρ c (Proc.devRef .tc main_arg11) = (m ((c : Thread nD τ).loc main_arg11)) :=
  calc W9 m ρ c (Proc.devRef .tc main_arg11)
    _ = W8 m ρ c (Proc.devRef .tc main_arg11) := StableHlo.after_of_forall_not_mem (b := Proc.devRef .tc main_arg11) _ _ (List.forall_iff_forall_mem.mp (by skip_writes hostOps4))
    _ = W7 m ρ c (Proc.devRef .tc main_arg11) := W8_of_ne m ρ c main_arg11 (by decide)
    _ = W6 m ρ c (Proc.devRef .tc main_arg11) := StableHlo.after_of_forall_not_mem (b := Proc.devRef .tc main_arg11) _ _ (List.forall_iff_forall_mem.mp (by skip_writes hostOps3))
    _ = W5 m ρ c (Proc.devRef .tc main_arg11) := W6_of_ne m ρ c main_arg11 (by decide)
    _ = W4 m ρ c (Proc.devRef .tc main_arg11) := StableHlo.after_of_forall_not_mem (b := Proc.devRef .tc main_arg11) _ _ (List.forall_iff_forall_mem.mp (by skip_writes hostOps2))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by skip_writes hostOps1))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by skip_writes hostOps0))
    _ = (m ((c : Thread nD τ).loc main_arg11)) := rfl

/-! ## The later stretches, from the contents the region before leaves -/

theorem w3_v36 : W3 m ρ c (Proc.devRef .tc main_v36) = Host.divf (W2 m ρ c (Proc.devRef .tc main_v34_1)) rowsRow := by
  show StableHlo.after hostOps1 (W2 m ρ c) (Proc.devRef .tc main_v36) = _
  after_results_simp <;> rfl
theorem w3_v40 : W3 m ρ c (Proc.devRef .tc main_v40) = subf (Host.divf (W2 m ρ c (Proc.devRef .tc main_v34_2)) rowsRow)
    (mulf (Host.divf (W2 m ρ c (Proc.devRef .tc main_v34_1)) rowsRow) (Host.divf (W2 m ρ c (Proc.devRef .tc main_v34_1)) rowsRow)) := by
  show StableHlo.after hostOps1 (W2 m ρ c) (Proc.devRef .tc main_v40) = _
  after_results_simp <;> rfl
theorem w5_v51 : W5 m ρ c (Proc.devRef .tc main_v51) = aggK (W4 m ρ c (Proc.devRef .tc main_arg1)) (W4 m ρ c (Proc.devRef .tc main_arg2)) (W4 m ρ c (Proc.devRef .tc main_v41)) := by
  show StableHlo.after hostOps2 (W4 m ρ c) (Proc.devRef .tc main_v51) = _
  unfold aggK
  after_results_simp <;> rfl
theorem w7_v54 : W7 m ρ c (Proc.devRef .tc main_v54) = Host.divf (W6 m ρ c (Proc.devRef .tc main_v52_1)) rowsRow := by
  show StableHlo.after hostOps3 (W6 m ρ c) (Proc.devRef .tc main_v54) = _
  after_results_simp <;> rfl
theorem w7_v58 : W7 m ρ c (Proc.devRef .tc main_v58) = subf (Host.divf (W6 m ρ c (Proc.devRef .tc main_v52_2)) rowsRow)
    (mulf (Host.divf (W6 m ρ c (Proc.devRef .tc main_v52_1)) rowsRow) (Host.divf (W6 m ρ c (Proc.devRef .tc main_v52_1)) rowsRow)) := by
  show StableHlo.after hostOps3 (W6 m ρ c) (Proc.devRef .tc main_v58) = _
  after_results_simp <;> rfl
theorem w9_v69 : W9 m ρ c (Proc.devRef .tc main_v69) = aggK (W8 m ρ c (Proc.devRef .tc main_arg1)) (W8 m ρ c (Proc.devRef .tc main_arg2)) (W8 m ρ c (Proc.devRef .tc main_v59)) := by
  show StableHlo.after hostOps4 (W8 m ρ c) (Proc.devRef .tc main_v69) = _
  unfold aggK
  after_results_simp <;> rfl

end Cert.KernelIdeal.Stages

end
-- ==== Proof.Region0Rows.lean ====
/-
  The 100000 rows of a node array are 20 consecutive blocks of 5000: row `y` of block `s` is row `5000·s + y`. A sum
  over all rows is the sum over the blocks of the sums over each block's rows (sums in a commutative monoid, so no
  finiteness of the entries is needed).
-/
import Idealize.ShloMosaic.Lib.ValueIdx

noncomputable section

namespace Cert.KernelIdeal.Region0

/-- Row `y` of block `s` (for `s < 20`: row `5000·s + y`). -/
def row (s : ℕ) (y : Fin 5000) : Fin 100000 := ⟨(5000 * s + y.val) % 100000, Nat.mod_lt _ (by decide)⟩

theorem row_val (s : ℕ) (hs : s < 20) (y : Fin 5000) : (row s y).val = 5000 * s + y.val :=
  Nat.mod_eq_of_lt (by have := y.isLt; omega)

/-- A sum over all rows, block by block. -/
theorem sum_rows {M : Type} [AddCommMonoid M] (f : Fin 100000 → M) :
    ∑ r : Fin 100000, f r = ∑ s ∈ Finset.range 20, ∑ y : Fin 5000, f (row s y) := by
  rw [← Fin.sum_univ_eq_sum_range (fun s => ∑ y : Fin 5000, f (row s y)) 20]
  refine (Equiv.sum_comp (finProdFinEquiv : Fin 20 × Fin 5000 ≃ Fin (20 * 5000)) f).symm.trans ?_
  rw [Fintype.sum_prod_type]
  refine Finset.sum_congr rfl fun s _ => Finset.sum_congr rfl fun y _ => congrArg f (Fin.ext ?_)
  rw [row_val s.val s.isLt y]
  show y.val + 5000 * s.val = 5000 * s.val + y.val
  omega

end Cert.KernelIdeal.Region0

end
-- ==== Proof.Region0Pay.lean ====
/-
  The arithmetic of one grid point of the dense layer with column statistics, over the extended reals, read entry by
  entry. One point holds a block of 5000 rows. The stored block is, at `(p, q)`, `∑ k, (a p k · n p) · W k q + b q` of the
  loaded blocks; the row of column sums is the running row plus the sum of the block's rows; the row of sums of squares
  is the running row plus the sum of the squares of the block's rows; the two rows stored at the first point are zero.
-/
import proofs.«167096_j27393301414235_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Region0

open Idealize.ShloMosaic Idealize.ShloMosaic.ValueIdx
open Cert.KernelIdeal Cert.KernelIdeal.Gen

/-- A column `[a, 1]` spread over `b` columns reads, at `(p, c)`, the column's entry of row `p`. -/
theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => show 0 = if (1 : Nat) = 1 then 0 else c.val; rw [if_pos rfl]

abbrev D0 : DotDims S5000x128 S128x128 S5000x128 := dot_S5000x128_S128x128_S5000x128_1_0_0_1_n_n

theorem lhs0 (i : S5000x128.Idx) (k : D0.contr.Idx) : (D0.lhsIdx i k 0).val = (i 0).val := by
  unfold DotDims.lhsIdx
  rw [dif_neg (show ¬(0 : Fin S5000x128.rank) ∈ D0.lhsBatch by decide), dif_pos (show (0 : Fin S5000x128.rank) ∈ D0.lhsNonContracting by decide)]
  rfl
theorem rhs1 (i : S5000x128.Idx) (k : D0.contr.Idx) : (D0.rhsIdx i k 1).val = (i 1).val := by
  unfold DotDims.rhsIdx
  rw [dif_neg (show ¬(1 : Fin S128x128.rank) ∈ D0.rhsBatch by decide), dif_pos (show (1 : Fin S128x128.rank) ∈ D0.rhsNonContracting by decide)]
  rfl

theorem pay3_apply (x0 : Vec Ideal S5000x128 .f32) (x1 : Vec Ideal S5000x1 .f32) (x2 : Vec Ideal S128x128 .f32)
    (x3 : Vec Ideal S1x128 .f32) (p : Fin 5000) (q : Fin 128) :
    k0_pay3 (F := Ideal) x0 x1 x2 x3 (ix2 p q)
      = (∑ k : Fin 128, (x0 (ix2 p k) * x1 (ix2 p (0 : Fin 1))) * x2 (ix2 k q)) + x3 (ix2 (0 : Fin 1) q) := by
  unfold k0_pay3
  simp only [shapeCast_self]
  refine (addf_apply _ _ _).trans ?_
  refine congrArg₂ (· + ·) ?_ (broadcastTo_1b_ab_apply x3 broadcasts_S1x128_S5000x128 p q)
  refine (Ideal.matmul_constant_zero_apply D0 none _ _ (ix2 p q)).trans ?_
  rw [← Equiv.sum_comp (contrEquiv1 D0 128 rfl rfl).symm]
  refine Finset.sum_congr rfl fun k _ => ?_
  have hk := contrEquiv1_symm_val D0 128 rfl rfl k
  have el : D0.lhsIdx (ix2 p q) ((contrEquiv1 D0 128 rfl rfl).symm k) = ix2 p k := funext fun a => Fin.ext (by
    match a with
    | ⟨0, _⟩ => exact lhs0 _ _
    | ⟨1, _⟩ => exact (D0.lhsIdx_val_of_single rfl _ _).trans hk)
  have er : D0.rhsIdx (ix2 p q) ((contrEquiv1 D0 128 rfl rfl).symm k) = ix2 k q := funext fun a => Fin.ext (by
    match a with
    | ⟨0, _⟩ => exact (D0.rhsIdx_val_of_single rfl _ _).trans hk
    | ⟨1, _⟩ => exact rhs1 _ _)
  rw [el, er]
  refine congrArg₂ (· * ·) ?_ rfl
  refine (mulf_apply _ _ _).trans ?_
  exact congrArg (x0 (ix2 p k) * ·) (broadcastTo_col_apply x1 broadcasts_S5000x1_S5000x128 p k)

/-- The column sums' payload: the running row plus, per column, the sum of the block's 5000 rows. -/
theorem pay4_apply (x0 : Vec Ideal S5000x128 .f32) (x1 : Vec Ideal S5000x1 .f32) (x2 : Vec Ideal S128x128 .f32)
    (x3 : Vec Ideal S1x128 .f32) (xo : Vec Ideal S1x128 .f32) (q : Fin 128) :
    k0_pay4 (F := Ideal) x0 x1 x2 x3 xo (ix2 (0 : Fin 1) q)
      = xo (ix2 (0 : Fin 1) q) + ∑ y : Fin 5000, k0_pay3 (F := Ideal) x0 x1 x2 x3 (ix2 y q) := by
  unfold k0_pay4
  simp only [shapeCast_self]
  refine (addf_apply _ _ _).trans ?_
  refine congrArg (xo (ix2 (0 : Fin 1) q) + ·) ?_
  refine (shapeCast_a_1a_apply _ shapeCasts_S128_S1x128 (0 : Fin 1) q).trans ?_
  refine (Ideal.multiReduction_add_single _ 0x00000000#32 reduces_S5000x128_S128 (.inl rfl) rfl (ix1 q)).trans ?_
  refine Finset.sum_congr rfl fun y _ => congrArg _ ?_
  funext a
  match a with
  | ⟨0, _⟩ => rfl
  | ⟨1, _⟩ => rfl

/-- The payload of the sums of squares: the running row plus, per column, the sum of the squares of the block's rows. -/
theorem pay5_apply (x0 : Vec Ideal S5000x128 .f32) (x1 : Vec Ideal S5000x1 .f32) (x2 : Vec Ideal S128x128 .f32)
    (x3 : Vec Ideal S1x128 .f32) (xo : Vec Ideal S1x128 .f32) (q : Fin 128) :
    k0_pay5 (F := Ideal) x0 x1 x2 x3 xo (ix2 (0 : Fin 1) q)
      = xo (ix2 (0 : Fin 1) q) + ∑ y : Fin 5000, k0_pay3 (F := Ideal) x0 x1 x2 x3 (ix2 y q) * k0_pay3 (F := Ideal) x0 x1 x2 x3 (ix2 y q) := by
  unfold k0_pay5
  simp only [shapeCast_self]
  refine (addf_apply _ _ _).trans ?_
  refine congrArg (xo (ix2 (0 : Fin 1) q) + ·) ?_
  refine (shapeCast_a_1a_apply _ shapeCasts_S128_S1x128 (0 : Fin 1) q).trans ?_
  refine (Ideal.multiReduction_add_single _ 0x00000000#32 reduces_S5000x128_S128 (.inl rfl) rfl (ix1 q)).trans ?_
  refine Finset.sum_congr rfl fun y _ => ?_
  refine (mulf_apply _ _ _).trans ?_
  have e : reduces_S5000x128_S128.lift (ix1 q) y = ix2 y q := by
    funext a
    match a with
    | ⟨0, _⟩ => rfl
    | ⟨1, _⟩ => rfl
  rw [e]
  rfl

/-- The two rows stored at the first grid point are zero. -/
theorem pay1_apply (j : S1x128.Idx) : k0_pay1 (F := Ideal) j = 0 := Ideal.ofBits_zero_f32
theorem pay2_apply (j : S1x128.Idx) : k0_pay2 (F := Ideal) j = 0 := Ideal.ofBits_zero_f32

end Cert.KernelIdeal.Region0

end
-- ==== Proof.Region0Blocks.lean ====
/-
  The blocks one grid point loads, read entry by entry off the arrays the region finds. Point `t` loads rows
  `5000·t … 5000·t + 4999` of the aggregated features and of the in-degree factors, and the whole weight matrix and bias
  row. So the block it stores is rows `5000·t …` of the dense layer of the whole arrays.
-/
import proofs.«167096_j27393301414235_1_alg».proof.Proof.Gen.KernelIdeal.Frame
import proofs.«167096_j27393301414235_1_alg».proof.Proof.Spec
import proofs.«167096_j27393301414235_1_alg».proof.Proof.Region0Rows
import proofs.«167096_j27393301414235_1_alg».proof.Proof.Region0Pay
import Idealize.ShloMosaic.Lib.Pipeline.Value

noncomputable section

namespace Cert.KernelIdeal.Region0

open Idealize.ShloMosaic Idealize.ShloMosaic.TcCoe Idealize.SL.Sem
open Idealize.ShloMosaic.Pipeline (Dat)
open Cert.KernelIdeal Cert.KernelIdeal.Gen

open Idealize.ShloMosaic.ValueIdx

variable (V : (c : Dev nD) → (b : Ref sig .tc) → Buf (Elt Ideal) ((c : Thread nD τ).loc b)) (c : Dev nD)

/-- The four arrays the region reads, as it finds them: aggregated features, in-degree factors, weights, bias. -/
abbrev arr0 : Cert.Spec.Arr 100000 128 := V c (Pipeline.arrRef spec0 0)
abbrev arr1 : Cert.Spec.Arr 100000 1 := V c (Pipeline.arrRef spec0 1)
abbrev arr2 : Cert.Spec.Arr 128 128 := V c (Pipeline.arrRef spec0 2)
abbrev arr3 : Cert.Spec.Arr 1 128 := V c (Pipeline.arrRef spec0 3)

/-- The dense layer of those arrays. -/
abbrev lin : Cert.Spec.Arr 100000 128 := Cert.Spec.linear (arr0 V c) (arr1 V c) (arr2 V c) (arr3 V c)

/-- The index maps over the grid: the row windows (features, degree factors, output) move with the point, the others stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

theorem blk0_apply (t : Fin cfg0.N) (p : Fin 5000) (k : Fin 128) :
    iblk0 (F := Ideal) V c 0 t (ix2 p k) = arr0 V c (ix2 (row t.val p) k) := by
  have hN : t.val < 20 := lt_of_lt_of_eq t.isLt (show cfg0.N = 20 from N_0)
  obtain ⟨e0, e1, -⟩ := idx_facts t
  unfold iblk0
  rw [View.read_apply]
  refine congrArg (V c (Pipeline.arrRef spec0 0)) (funext fun a => Fin.ext ?_)
  match a with
  | ⟨0, _⟩ =>
    show win0_0.index t (0 : Fin 2) * 5000 + 1 * p.val = (row t.val p).val
    rw [row_val t.val hN p, e0]; omega
  | ⟨1, _⟩ =>
    show win0_0.index t (1 : Fin 2) * 128 + 1 * k.val = k.val
    rw [e1]; omega

theorem blk1_apply (t : Fin cfg0.N) (p : Fin 5000) :
    iblk0 (F := Ideal) V c 1 t (ix2 p (0 : Fin 1)) = arr1 V c (ix2 (row t.val p) (0 : Fin 1)) := by
  have hN : t.val < 20 := lt_of_lt_of_eq t.isLt (show cfg0.N = 20 from N_0)
  obtain ⟨-, -, e0, e1, -⟩ := idx_facts t
  unfold iblk0
  rw [View.read_apply]
  refine congrArg (V c (Pipeline.arrRef spec0 1)) (funext fun a => Fin.ext ?_)
  match a with
  | ⟨0, _⟩ =>
    show win0_1.index t (0 : Fin 2) * 5000 + 1 * p.val = (row t.val p).val
    rw [row_val t.val hN p, e0]; omega
  | ⟨1, _⟩ =>
    show win0_1.index t (1 : Fin 2) * 1 + 1 * 0 = 0
    rw [e1]

theorem blk2_apply (t : Fin cfg0.N) (k q : Fin 128) :
    iblk0 (F := Ideal) V c 2 t (ix2 k q) = arr2 V c (ix2 k q) := by
  obtain ⟨-, -, -, -, e0, e1, -⟩ := idx_facts t
  unfold iblk0
  rw [View.read_apply]
  refine congrArg (V c (Pipeline.arrRef spec0 2)) (funext fun a => Fin.ext ?_)
  match a with
  | ⟨0, _⟩ =>
    show win0_2.index t (0 : Fin 2) * 128 + 1 * k.val = k.val
    rw [e0]; omega
  | ⟨1, _⟩ =>
    show win0_2.index t (1 : Fin 2) * 128 + 1 * q.val = q.val
    rw [e1]; omega

theorem blk3_apply (t : Fin cfg0.N) (q : Fin 128) :
    iblk0 (F := Ideal) V c 3 t (ix2 (0 : Fin 1) q) = arr3 V c (ix2 (0 : Fin 1) q) := by
  obtain ⟨-, -, -, -, -, -, e0, e1, -⟩ := idx_facts t
  unfold iblk0
  rw [View.read_apply]
  refine congrArg (V c (Pipeline.arrRef spec0 3)) (funext fun a => Fin.ext ?_)
  match a with
  | ⟨0, _⟩ =>
    show win0_3.index t (0 : Fin 2) * 1 + 1 * 0 = 0
    rw [e0]
  | ⟨1, _⟩ =>
    show win0_3.index t (1 : Fin 2) * 128 + 1 * q.val = q.val
    rw [e1]; omega

/-- The block point `t` stores is rows `5000·t …` of the dense layer of the whole arrays. -/
theorem pay3_blk (t : Fin cfg0.N) (p : Fin 5000) (q : Fin 128) :
    k0_pay3 (F := Ideal) (iblk0 V c 0 t) (iblk0 V c 1 t) (iblk0 V c 2 t) (iblk0 V c 3 t) (ix2 p q)
      = lin V c (ix2 (row t.val p) q) := by
  refine (pay3_apply (iblk0 V c 0 t) (iblk0 V c 1 t) (iblk0 V c 2 t) (iblk0 V c 3 t) p q).trans ?_
  show _ = (∑ k : Fin 128, (arr0 V c (ix2 (row t.val p) k) * arr1 V c (ix2 (row t.val p) (0 : Fin 1))) * arr2 V c (ix2 k q))
    + arr3 V c (ix2 (0 : Fin 1) q)
  rw [blk1_apply, blk3_apply]
  refine congrArg (· + _) (Finset.sum_congr rfl fun k _ => ?_)
  rw [blk0_apply, blk2_apply]

end Cert.KernelIdeal.Region0

end
-- ==== Proof.Region0Pieces.lean ====
/-
  What one grid point of the dense layer with column statistics leaves in its three output blocks, as values of the
  blocks it loads, for any number format. The layer's block is the one stored block at every point. The two statistics rows
  are stored last as "running row plus this block's contribution"; at the first point the running row is the zero row
  stored just before, at a later point it is the row the point before left.
-/
import proofs.«167096_j27393301414235_1_alg».proof.Proof.Gen.KernelIdeal.Frame
import Idealize.ShloMosaic.Lib.Pipeline.Value
import Idealize.ShloMosaic.Lib.Tactic

noncomputable section

namespace Cert.KernelIdeal.Region0

open Idealize.ShloMosaic Idealize.ShloMosaic.TcCoe Idealize.SL.Sem
open Idealize.ShloMosaic.Pipeline (Dat)
open Cert.KernelIdeal Cert.KernelIdeal.Gen

variable {F : FTy → Type} [FloatOps F]

theorem hz2 : (![0, 0] : Fin 2 → Nat) = fun _ => 0 := funext fun a => by fin_cases a <;> rfl

section Pieces
variable (c : Dev nD) (i : grid0.Coords)
  (a1 : Memref sig .tc .vmem S5000x128 .f32) (h1 : a1.IsWhole)
  (a2 : Memref sig .tc .vmem S5000x1 .f32) (h2 : a2.IsWhole)
  (a3 : Memref sig .tc .vmem S128x128 .f32) (h3 : a3.IsWhole)
  (a4 : Memref sig .tc .vmem S1x128 .f32) (h4 : a4.IsWhole)
  (a5 : Memref sig .tc .vmem S5000x128 .f32) (h5 : a5.IsWhole)
  (a6 : Memref sig .tc .vmem S1x128 .f32) (h6 : a6.IsWhole)
  (a7 : Memref sig .tc .vmem S1x128 .f32) (h7 : a7.IsWhole)
  (x0 : Vec F S5000x128 .f32) (x1 : Vec F S5000x1 .f32) (x2 : Vec F S128x128 .f32) (x3 : Vec F S1x128 .f32)

/-- At the first grid point the layer's output block is the one stored block: the dense layer of the loaded blocks. -/
theorem out4_A (hc : cond0_0 i) :
    out0_A_4 c i a1 h1 a2 h2 a3 h3 a4 h4 a5 h5 a6 h6 a7 h7 hc x0 x1 x2 x3 = k0_pay3 x0 x1 x2 x3 := by
  unfold out0_A_4
  rw [View.read_writes_eq_canon _ _ _ (cover0_A_4 c i a1 h1 a2 h2 a3 h3 a4 h4 a5 h5 a6 h6 a7 h7 hc x0 x1 x2 x3)]
  unfold kernelRun0_A
  dsimp only
  rw [View.canon_unit_zero hz2]
  simp only [View.readAt_eq_ld, h1.read_unread, h2.read_unread, h3.read_unread, h4.read_unread, View.ld_unit_zero (S := S5000x128) hz2, View.ld_unit_zero (S := S5000x1) hz2, View.ld_unit_zero (S := S128x128) hz2, View.ld_unit_zero (S := S1x128) hz2]

/-- At a later grid point likewise. -/
theorem out4_B (hc : ¬cond0_0 i) (xo5 xo6 : Vec F S1x128 .f32) :
    out0_B_4 c i a1 h1 a2 h2 a3 h3 a4 h4 a5 h5 a6 h6 a7 h7 hc x0 x1 x2 x3 xo5 xo6 = k0_pay3 x0 x1 x2 x3 := by
  unfold out0_B_4
  rw [View.read_writes_eq_canon _ _ _ (cover0_B_4 c i a1 h1 a2 h2 a3 h3 a4 h4 a5 h5 a6 h6 a7 h7 hc x0 x1 x2 x3 xo5 xo6)]
  unfold kernelRun0_B
  dsimp only
  rw [View.canon_unit_zero hz2]
  simp only [View.readAt_eq_ld, h1.read_unread, h2.read_unread, h3.read_unread, h4.read_unread, h6.read_unread, h7.read_unread, View.ld_unit_zero (S := S5000x128) hz2, View.ld_unit_zero (S := S5000x1) hz2, View.ld_unit_zero (S := S128x128) hz2, View.ld_unit_zero (S := S1x128) hz2]

/-- At the first grid point the row of column sums is the block's column sums added to the zero row stored just before. -/
theorem out5_A (hc : cond0_0 i) :
    out0_A_5 c i a1 h1 a2 h2 a3 h3 a4 h4 a5 h5 a6 h6 a7 h7 hc x0 x1 x2 x3 = k0_pay4 x0 x1 x2 x3 k0_pay1 := by
  unfold out0_A_5
  rw [View.read_writes_eq_canon _ _ _ (cover0_A_5 c i a1 h1 a2 h2 a3 h3 a4 h4 a5 h5 a6 h6 a7 h7 hc x0 x1 x2 x3)]
  unfold kernelRun0_A
  dsimp only
  sl_unfold_words
  rw [View.canon_cons_unit_zero (S := S1x128) hz2, View.readCov_unit_zero (S := S1x128) _ hz2]
  simp only [View.readAt_eq_ld, h1.read_unread, h2.read_unread, h3.read_unread, h4.read_unread, View.ld_unit_zero (S := S5000x128) hz2, View.ld_unit_zero (S := S5000x1) hz2, View.ld_unit_zero (S := S128x128) hz2, View.ld_unit_zero (S := S1x128) hz2]

/-- At a later grid point it is the block's column sums added to the row the point before left. -/
theorem out5_B (hc : ¬cond0_0 i) (xo5 xo6 : Vec F S1x128 .f32) :
    out0_B_5 c i a1 h1 a2 h2 a3 h3 a4 h4 a5 h5 a6 h6 a7 h7 hc x0 x1 x2 x3 xo5 xo6 = k0_pay4 x0 x1 x2 x3 xo5 := by
  unfold out0_B_5
  rw [View.read_writes_eq_canon _ _ _ (cover0_B_5 c i a1 h1 a2 h2 a3 h3 a4 h4 a5 h5 a6 h6 a7 h7 hc x0 x1 x2 x3 xo5 xo6)]
  unfold kernelRun0_B
  dsimp only
  rw [View.canon_unit_zero hz2]
  simp only [View.readAt_eq_ld, h1.read_unread, h2.read_unread, h3.read_unread, h4.read_unread, h6.read_unread, h7.read_unread, View.ld_unit_zero (S := S5000x128) hz2, View.ld_unit_zero (S := S5000x1) hz2, View.ld_unit_zero (S := S128x128) hz2, View.ld_unit_zero (S := S1x128) hz2]

/-- The row of column sums of squares at the first grid point, -/
theorem out6_A (hc : cond0_0 i) :
    out0_A_6 c i a1 h1 a2 h2 a3 h3 a4 h4 a5 h5 a6 h6 a7 h7 hc x0 x1 x2 x3 = k0_pay5 x0 x1 x2 x3 k0_pay2 := by
  unfold out0_A_6
  rw [View.read_writes_eq_canon _ _ _ (cover0_A_6 c i a1 h1 a2 h2 a3 h3 a4 h4 a5 h5 a6 h6 a7 h7 hc x0 x1 x2 x3)]
  unfold kernelRun0_A
  dsimp only
  sl_unfold_words
  rw [View.canon_cons_unit_zero (S := S1x128) hz2, View.readCov_unit_zero (S := S1x128) _ hz2]
  simp only [View.readAt_eq_ld, h1.read_unread, h2.read_unread, h3.read_unread, h4.read_unread, View.ld_unit_zero (S := S5000x128) hz2, View.ld_unit_zero (S := S5000x1) hz2, View.ld_unit_zero (S := S128x128) hz2, View.ld_unit_zero (S := S1x128) hz2]

/-- and at a later one. -/
theorem out6_B (hc : ¬cond0_0 i) (xo5 xo6 : Vec F S1x128 .f32) :
    out0_B_6 c i a1 h1 a2 h2 a3 h3 a4 h4 a5 h5 a6 h6 a7 h7 hc x0 x1 x2 x3 xo5 xo6 = k0_pay5 x0 x1 x2 x3 xo6 := by
  unfold out0_B_6
  rw [View.read_writes_eq_canon _ _ _ (cover0_B_6 c i a1 h1 a2 h2 a3 h3 a4 h4 a5 h5 a6 h6 a7 h7 hc x0 x1 x2 x3 xo5 xo6)]
  unfold kernelRun0_B
  dsimp only
  rw [View.canon_unit_zero hz2]
  simp only [View.readAt_eq_ld, h1.read_unread, h2.read_unread, h3.read_unread, h4.read_unread, h6.read_unread, h7.read_unread, View.ld_unit_zero (S := S5000x128) hz2, View.ld_unit_zero (S := S5000x1) hz2, View.ld_unit_zero (S := S128x128) hz2, View.ld_unit_zero (S := S1x128) hz2]
end Pieces

end Cert.KernelIdeal.Region0

end
-- ==== Proof.Region0Out.lean ====
/-
  The layer's output array after the region. Every grid point stores its block — rows `5000·t …` of the dense layer of
  the whole arrays — and writes it back; the 20 blocks tile the 100000 rows (row `r` is in block `r / 5000`), so the array
  ends holding the dense layer.
-/
import proofs.«167096_j27393301414235_1_alg».proof.Proof.Gen.KernelIdeal.Frame
import proofs.«167096_j27393301414235_1_alg».proof.Proof.Region0Blocks
import proofs.«167096_j27393301414235_1_alg».proof.Proof.Region0Pieces

noncomputable section

namespace Cert.KernelIdeal.Region0

open Idealize.ShloMosaic Idealize.ShloMosaic.TcCoe Idealize.SL.Sem
open Idealize.ShloMosaic.Pipeline (Dat)
open Cert.KernelIdeal Cert.KernelIdeal.Gen

open Idealize.ShloMosaic.ValueIdx

variable (V : (c : Dev nD) → (b : Ref sig .tc) → Buf (Elt Ideal) ((c : Thread nD τ).loc b)) (c : Dev nD)

/-- What any point leaves in the layer's output block: the dense layer of the blocks it loads. -/
theorem out4_eq (t : Fin cfg0.N) :
    (outsAt0 (F := Ideal) V c t.val t.isLt).1 = k0_pay3 (iblk0 V c 0 t) (iblk0 V c 1 t) (iblk0 V c 2 t) (iblk0 V c 3 t) := by
  by_cases h0 : t.val % 20 = 0
  · rw [outsAt0_A V c t h0]
    dsimp only
    exact out4_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk0 V c 0 t) (iblk0 V c 1 t) (iblk0 V c 2 t) (iblk0 V c 3 t) ((hcond0_0 t).mpr h0)
  · rw [outsAt0_B V c t h0]
    dsimp only
    exact out4_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk0 V c 0 t) (iblk0 V c 1 t) (iblk0 V c 2 t) (iblk0 V c 3 t) (fun h => h0 ((hcond0_0 t).mp h)) _ _

/-- What point `t` writes back is block `t` of the dense layer of the whole arrays. -/
theorem flushed4_eq (t : Fin cfg0.N) :
    (dat0 (F := Ideal) V c).flushed 4 t = ((cfg0.win 4).blk t).view.read (Elt Ideal) (lin V c) := by
  have hN : t.val < 20 := lt_of_lt_of_eq t.isLt (show cfg0.N = 20 from N_0)
  obtain ⟨-, -, -, -, -, -, -, -, e0, e1, -⟩ := idx_facts t
  show (cfg0.win 4).cut (grid0.coords t) ((dat0 V c).after 4 t) = _
  rw [after0_4, out4_eq]
  funext j
  obtain ⟨p, q, rfl⟩ : ∃ (p : Fin 5000) (q : Fin 128), j = ix2 p q := ⟨j 0, j 1, eq_ix2 j⟩
  show k0_pay3 (F := Ideal) (iblk0 V c 0 t) (iblk0 V c 1 t) (iblk0 V c 2 t) (iblk0 V c 3 t) (ix2 p q) = lin V c (((cfg0.win 4).blk t).view.emb (ix2 p q))
  rw [pay3_blk]
  refine congrArg (lin V c) (funext fun a => Fin.ext ?_)
  match a with
  | ⟨0, _⟩ =>
    show (row t.val p).val = win0_4.index t (0 : Fin 2) * 5000 + 1 * p.val
    rw [row_val t.val hN p, e0]; omega
  | ⟨1, _⟩ =>
    show q.val = win0_4.index t (1 : Fin 2) * 128 + 1 * q.val
    rw [e1]; omega

/-- An index of the array is in point `t`'s block iff each coordinate is in the block's range on its axis. -/
theorem mem_blk4 (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v34_0).slice (win0_4.rect t)).set ↔ _
  rw [View.set_slice_whole, Rect.mem_set_unit]
  exact Iff.rfl

/-- Every index of the array is in the block of the point its row falls in. -/
theorem cover4 (i : S100000x128.Idx) : ∃ t : Fin cfg0.N, (cfg0.win 4).flush t = true ∧ i ∈ ((cfg0.win 4).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_4 _, ?_⟩
  rw [mem_blk4]
  obtain ⟨-, -, -, -, -, -, -, -, e0, e1, -⟩ := idx_facts ⟨(i 0).val / 5000, by rw [hN]; omega⟩
  intro a
  match a with
  | ⟨0, _⟩ =>
    show win0_4.index _ (0 : Fin 2) * 5000 ≤ (i 0).val ∧ (i 0).val < win0_4.index _ (0 : Fin 2) * 5000 + 5000
    rw [e0]; dsimp only; omega
  | ⟨1, _⟩ =>
    show win0_4.index _ (1 : Fin 2) * 128 ≤ (i 1).val ∧ (i 1).val < win0_4.index _ (1 : Fin 2) * 128 + 128
    rw [e1]; omega

/-- The layer's output array after the region is the dense layer of the arrays the region finds. -/
theorem final4 : (dat0 (F := Ideal) V c).arrAt 4 cfg0.N
    = Cert.Spec.linear (V c (Pipeline.arrRef spec0 0)) (V c (Pipeline.arrRef spec0 1)) (V c (Pipeline.arrRef spec0 2)) (V c (Pipeline.arrRef spec0 3)) :=
  (dat0 (F := Ideal) V c).arrAt_eq_of_cover 4 (lin V c) (fun t _ => flushed4_eq V c t) (cover4)

end Cert.KernelIdeal.Region0

end
-- ==== Proof.Region0Acc.lean ====
/-
  The two statistics rows after each grid point. The row of column sums starts, at the first point, from the zero row
  and gains at every point the column sums of that point's 5000 rows of the dense layer; so after point `n` it is the
  sum over the blocks `0 … n` of their column sums, and after the last point the sum over all 100000 rows. The row of sums
  of squares likewise. Both are written back once, after the last point, to an array of one block.
-/
import proofs.«167096_j27393301414235_1_alg».proof.Proof.Gen.KernelIdeal.Frame
import proofs.«167096_j27393301414235_1_alg».proof.Proof.Region0Blocks
import proofs.«167096_j27393301414235_1_alg».proof.Proof.Region0Pieces

noncomputable section

namespace Cert.KernelIdeal.Region0

open Idealize.ShloMosaic Idealize.ShloMosaic.TcCoe Idealize.SL.Sem
open Idealize.ShloMosaic.Pipeline (Dat)
open Cert.KernelIdeal Cert.KernelIdeal.Gen

open Idealize.ShloMosaic.ValueIdx

variable (V : (c : Dev nD) → (b : Ref sig .tc) → Buf (Elt Ideal) ((c : Thread nD τ).loc b)) (c : Dev nD)

/-- The column sums of block `s` of the dense layer, and the column sums of its squares. -/
def blkSum (s : ℕ) (q : Fin 128) : EReal := ∑ y : Fin 5000, lin V c (ix2 (row s y) q)
def blkSumSq (s : ℕ) (q : Fin 128) : EReal := ∑ y : Fin 5000, lin V c (ix2 (row s y) q) * lin V c (ix2 (row s y) q)

/-- The statistics rows a point leaves, by the point's case: from the zero rows at the first point, from the rows the
    point before left at a later one. -/
theorem out5_A_eq (t : Fin cfg0.N) (h0 : t.val % 20 = 0) :
    (outsAt0 (F := Ideal) V c t.val t.isLt).2.1 = k0_pay4 (iblk0 V c 0 t) (iblk0 V c 1 t) (iblk0 V c 2 t) (iblk0 V c 3 t) (k0_pay1 (F := Ideal)) := by
  rw [outsAt0_A V c t h0]
  dsimp only
  exact out5_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk0 V c 0 t) (iblk0 V c 1 t) (iblk0 V c 2 t) (iblk0 V c 3 t) ((hcond0_0 t).mpr h0)
theorem out6_A_eq (t : Fin cfg0.N) (h0 : t.val % 20 = 0) :
    (outsAt0 (F := Ideal) V c t.val t.isLt).2.2 = k0_pay5 (iblk0 V c 0 t) (iblk0 V c 1 t) (iblk0 V c 2 t) (iblk0 V c 3 t) (k0_pay2 (F := Ideal)) := by
  rw [outsAt0_A V c t h0]
  dsimp only
  exact out6_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk0 V c 0 t) (iblk0 V c 1 t) (iblk0 V c 2 t) (iblk0 V c 3 t) ((hcond0_0 t).mpr h0)
theorem out5_B_eq (t : Fin cfg0.N) (h0 : ¬t.val % 20 = 0) :
    (outsAt0 (F := Ideal) V c t.val t.isLt).2.1
      = k0_pay4 (iblk0 V c 0 t) (iblk0 V c 1 t) (iblk0 V c 2 t) (iblk0 V c 3 t) (outsAt0 (F := Ideal) V c (t.val - 1) (Nat.lt_of_le_of_lt (Nat.sub_le _ _) t.isLt)).2.1 := by
  rw [outsAt0_B V c t h0]
  dsimp only
  exact out5_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk0 V c 0 t) (iblk0 V c 1 t) (iblk0 V c 2 t) (iblk0 V c 3 t) (fun h => h0 ((hcond0_0 t).mp h))
    (outsAt0 (F := Ideal) V c (t.val - 1) (Nat.lt_of_le_of_lt (Nat.sub_le _ _) t.isLt)).2.1 (outsAt0 (F := Ideal) V c (t.val - 1) (Nat.lt_of_le_of_lt (Nat.sub_le _ _) t.isLt)).2.2
theorem out6_B_eq (t : Fin cfg0.N) (h0 : ¬t.val % 20 = 0) :
    (outsAt0 (F := Ideal) V c t.val t.isLt).2.2
      = k0_pay5 (iblk0 V c 0 t) (iblk0 V c 1 t) (iblk0 V c 2 t) (iblk0 V c 3 t) (outsAt0 (F := Ideal) V c (t.val - 1) (Nat.lt_of_le_of_lt (Nat.sub_le _ _) t.isLt)).2.2 := by
  rw [outsAt0_B V c t h0]
  dsimp only
  exact out6_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk0 V c 0 t) (iblk0 V c 1 t) (iblk0 V c 2 t) (iblk0 V c 3 t) (fun h => h0 ((hcond0_0 t).mp h))
    (outsAt0 (F := Ideal) V c (t.val - 1) (Nat.lt_of_le_of_lt (Nat.sub_le _ _) t.isLt)).2.1 (outsAt0 (F := Ideal) V c (t.val - 1) (Nat.lt_of_le_of_lt (Nat.sub_le _ _) t.isLt)).2.2

/-- After point `n` the row of column sums is the sum of the column sums of blocks `0 … n`. -/
theorem acc5_eq : ∀ (n : ℕ) (h : n < cfg0.N) (q : Fin 128),
    (outsAt0 (F := Ideal) V c n h).2.1 (ix2 (0 : Fin 1) q) = ∑ s ∈ Finset.range (n + 1), blkSum V c s q
  | 0, h, q => by
    refine (congrFun (out5_A_eq V c ⟨0, h⟩ (Nat.zero_mod 20)) (ix2 (0 : Fin 1) q)).trans ?_
    refine (pay4_apply (iblk0 V c 0 ⟨0, h⟩) (iblk0 V c 1 ⟨0, h⟩) (iblk0 V c 2 ⟨0, h⟩) (iblk0 V c 3 ⟨0, h⟩) (k0_pay1 (F := Ideal)) q).trans ?_
    rw [pay1_apply, zero_add, Finset.sum_range_one]
    exact Finset.sum_congr rfl fun y _ => pay3_blk V c ⟨0, h⟩ y q
  | n + 1, h, q => by
    have hN : cfg0.N = 20 := N_0
    have hB : ¬(⟨n + 1, h⟩ : Fin cfg0.N).val % 20 = 0 := by dsimp only; omega
    refine (congrFun (out5_B_eq V c ⟨n + 1, h⟩ hB) (ix2 (0 : Fin 1) q)).trans ?_
    refine (pay4_apply (iblk0 V c 0 ⟨n + 1, h⟩) (iblk0 V c 1 ⟨n + 1, h⟩) (iblk0 V c 2 ⟨n + 1, h⟩) (iblk0 V c 3 ⟨n + 1, h⟩) _ q).trans ?_
    rw [Finset.sum_range_succ _ (n + 1)]
    exact congrArg₂ (· + ·) (acc5_eq n (Nat.lt_of_succ_lt h) q)
      (Finset.sum_congr rfl fun y _ => pay3_blk V c ⟨n + 1, h⟩ y q)

/-- After point `n` the row of sums of squares is the sum of the column sums of squares of blocks `0 … n`. -/
theorem acc6_eq : ∀ (n : ℕ) (h : n < cfg0.N) (q : Fin 128),
    (outsAt0 (F := Ideal) V c n h).2.2 (ix2 (0 : Fin 1) q) = ∑ s ∈ Finset.range (n + 1), blkSumSq V c s q
  | 0, h, q => by
    refine (congrFun (out6_A_eq V c ⟨0, h⟩ (Nat.zero_mod 20)) (ix2 (0 : Fin 1) q)).trans ?_
    refine (pay5_apply (iblk0 V c 0 ⟨0, h⟩) (iblk0 V c 1 ⟨0, h⟩) (iblk0 V c 2 ⟨0, h⟩) (iblk0 V c 3 ⟨0, h⟩) (k0_pay2 (F := Ideal)) q).trans ?_
    rw [pay2_apply, zero_add, Finset.sum_range_one]
    exact Finset.sum_congr rfl fun y _ => congrArg₂ (· * ·) (pay3_blk V c ⟨0, h⟩ y q) (pay3_blk V c ⟨0, h⟩ y q)
  | n + 1, h, q => by
    have hN : cfg0.N = 20 := N_0
    have hB : ¬(⟨n + 1, h⟩ : Fin cfg0.N).val % 20 = 0 := by dsimp only; omega
    refine (congrFun (out6_B_eq V c ⟨n + 1, h⟩ hB) (ix2 (0 : Fin 1) q)).trans ?_
    refine (pay5_apply (iblk0 V c 0 ⟨n + 1, h⟩) (iblk0 V c 1 ⟨n + 1, h⟩) (iblk0 V c 2 ⟨n + 1, h⟩) (iblk0 V c 3 ⟨n + 1, h⟩) _ q).trans ?_
    rw [Finset.sum_range_succ _ (n + 1)]
    exact congrArg₂ (· + ·) (acc6_eq n (Nat.lt_of_succ_lt h) q)
      (Finset.sum_congr rfl fun y _ => congrArg₂ (· * ·) (pay3_blk V c ⟨n + 1, h⟩ y q) (pay3_blk V c ⟨n + 1, h⟩ y q))

end Cert.KernelIdeal.Region0

end
-- ==== Proof.Region0Stats.lean ====
/-
  The two statistics arrays after the region: each is one row, written back once after the last grid point, when the
  running row has gained every block's contribution; the sum over the 20 blocks of the sums over a block's 5000 rows is
  the sum over all 100000 rows.
-/
import proofs.«167096_j27393301414235_1_alg».proof.Proof.Gen.KernelIdeal.Frame
import proofs.«167096_j27393301414235_1_alg».proof.Proof.Region0Acc

noncomputable section

namespace Cert.KernelIdeal.Region0

open Idealize.ShloMosaic Idealize.ShloMosaic.TcCoe Idealize.SL.Sem
open Idealize.ShloMosaic.Pipeline (Dat)
open Cert.KernelIdeal Cert.KernelIdeal.Gen

open Idealize.ShloMosaic.ValueIdx

variable (V : (c : Dev nD) → (b : Ref sig .tc) → Buf (Elt Ideal) ((c : Thread nD τ).loc b)) (c : Dev nD)

/-- The sum over all rows, read at an index of the row array, block by block. -/
theorem colSum_lin_apply (j : S1x128.Idx) (q : Fin 128) (hj : j 1 = q) :
    Cert.Spec.colSum (lin V c) j = ∑ s ∈ Finset.range 20, blkSum V c s q := by
  subst hj
  unfold Cert.Spec.colSum
  exact sum_rows fun r => lin V c (ix2 r (j 1))

/-- After the last point the running row is the sum over all rows. -/
theorem row5_eq (t : Fin cfg0.N) (h19 : t.val = 19) :
    (outsAt0 (F := Ideal) V c t.val t.isLt).2.1 = Cert.Spec.colSum (lin V c) := by
  funext j
  obtain ⟨u, q, rfl⟩ : ∃ (u : Fin 1) (q : Fin 128), j = ix2 u q := ⟨j 0, j 1, eq_ix2 j⟩
  obtain rfl : u = 0 := Subsingleton.elim _ _
  rw [acc5_eq V c t.val t.isLt q, h19]
  exact (colSum_lin_apply V c (ix2 (0 : Fin 1) q) q rfl).symm

/-- The one write-back of window 5, after the last point, writes the whole row (the row array is one block). -/
theorem flushed5_eq (t : Fin cfg0.N) (hf : (cfg0.win 5).flush t = true) :
    (dat0 (F := Ideal) V c).flushed 5 t = ((cfg0.win 5).blk t).view.read (Elt Ideal) (Cert.Spec.colSum (lin V c)) := by
  have hN : cfg0.N = 20 := N_0
  have h19 : t.val = 19 := by have := (flush0_5 t).mp hf; have := t.isLt; omega
  obtain ⟨-, -, -, -, -, -, -, -, -, -, d5, e5, d6, e6⟩ := idx_facts t
  show (cfg0.win 5).cut (grid0.coords t) ((dat0 V c).after 5 t) = _
  rw [after0_5, row5_eq V c t h19]
  have hz' : (fun a => win0_5.index t a * main_v34_1.ty.shape.size a) = fun _ => 0 := funext fun a => by
    match a with
    | ⟨0, _⟩ => show win0_5.index t (0 : Fin 2) * _ = 0; rw [d5, Nat.zero_mul]
    | ⟨1, _⟩ => show win0_5.index t (1 : Fin 2) * _ = 0; rw [e5, Nat.zero_mul]
  exact (Memref.read_access_unit_zero (Elt Ideal) main_v34_1 hz' (fun a => by rw [congrFun hz' a]; simp) (Cert.Spec.colSum (lin V c))).symm

/-- An index of the row is in point `t`'s block iff each coordinate is in the block's range on its axis. -/
theorem mem_blk5 (t : Fin cfg0.N) (i : S1x128.Idx) :
    i ∈ ((cfg0.win 5).blk t).view.set ↔ ∀ a : Fin 2, win0_5.index t a * S1x128.size a ≤ (i a).val ∧ (i a).val < win0_5.index t a * S1x128.size a + S1x128.size a := by
  show i ∈ ((View.whole main_v34_1).slice (win0_5.rect t)).set ↔ _
  rw [View.set_slice_whole, Rect.mem_set_unit]
  exact Iff.rfl

/-- The last point's block is the whole row. -/
theorem cover5 (i : S1x128.Idx) : ∃ t : Fin cfg0.N, (cfg0.win 5).flush t = true ∧ i ∈ ((cfg0.win 5).blk t).view.set := by
  have hi0 : (i 0).val < 1 := (i 0).isLt
  have hi1 : (i 1).val < 128 := (i 1).isLt
  have hN : cfg0.N = 20 := N_0
  refine ⟨⟨19, by rw [hN]; omega⟩, (flush0_5 _).mpr rfl, ?_⟩
  rw [mem_blk5]
  obtain ⟨-, -, -, -, -, -, -, -, -, -, d5, e5, d6, e6⟩ := idx_facts ⟨19, by rw [hN]; omega⟩
  intro a
  match a with
  | ⟨0, _⟩ =>
    show win0_5.index _ (0 : Fin 2) * 1 ≤ (i 0).val ∧ (i 0).val < win0_5.index _ (0 : Fin 2) * 1 + 1
    rw [d5]; omega
  | ⟨1, _⟩ =>
    show win0_5.index _ (1 : Fin 2) * 128 ≤ (i 1).val ∧ (i 1).val < win0_5.index _ (1 : Fin 2) * 128 + 128
    rw [e5]; omega

/-- The array of column sums after the region: the column sums of the dense layer over all rows. -/
theorem final5 : (dat0 (F := Ideal) V c).arrAt 5 cfg0.N
    = Cert.Spec.colSum (Cert.Spec.linear (V c (Pipeline.arrRef spec0 0)) (V c (Pipeline.arrRef spec0 1)) (V c (Pipeline.arrRef spec0 2)) (V c (Pipeline.arrRef spec0 3))) :=
  (dat0 (F := Ideal) V c).arrAt_eq_of_cover 5 (Cert.Spec.colSum (lin V c)) (flushed5_eq V c) cover5

/-- The sum over all rows, read at an index of the row array, block by block. -/
theorem colSumSq_lin_apply (j : S1x128.Idx) (q : Fin 128) (hj : j 1 = q) :
    Cert.Spec.colSumSq (lin V c) j = ∑ s ∈ Finset.range 20, blkSumSq V c s q := by
  subst hj
  unfold Cert.Spec.colSumSq
  exact sum_rows fun r => lin V c (ix2 r (j 1)) * lin V c (ix2 r (j 1))

/-- After the last point the running row is the sum over all rows. -/
theorem row6_eq (t : Fin cfg0.N) (h19 : t.val = 19) :
    (outsAt0 (F := Ideal) V c t.val t.isLt).2.2 = Cert.Spec.colSumSq (lin V c) := by
  funext j
  obtain ⟨u, q, rfl⟩ : ∃ (u : Fin 1) (q : Fin 128), j = ix2 u q := ⟨j 0, j 1, eq_ix2 j⟩
  obtain rfl : u = 0 := Subsingleton.elim _ _
  rw [acc6_eq V c t.val t.isLt q, h19]
  exact (colSumSq_lin_apply V c (ix2 (0 : Fin 1) q) q rfl).symm

/-- The one write-back of window 6, after the last point, writes the whole row (the row array is one block). -/
theorem flushed6_eq (t : Fin cfg0.N) (hf : (cfg0.win 6).flush t = true) :
    (dat0 (F := Ideal) V c).flushed 6 t = ((cfg0.win 6).blk t).view.read (Elt Ideal) (Cert.Spec.colSumSq (lin V c)) := by
  have hN : cfg0.N = 20 := N_0
  have h19 : t.val = 19 := by have := (flush0_6 t).mp hf; have := t.isLt; omega
  obtain ⟨-, -, -, -, -, -, -, -, -, -, d5, e5, d6, e6⟩ := idx_facts t
  show (cfg0.win 6).cut (grid0.coords t) ((dat0 V c).after 6 t) = _
  rw [after0_6, row6_eq V c t h19]
  have hz' : (fun a => win0_6.index t a * main_v34_2.ty.shape.size a) = fun _ => 0 := funext fun a => by
    match a with
    | ⟨0, _⟩ => show win0_6.index t (0 : Fin 2) * _ = 0; rw [d6, Nat.zero_mul]
    | ⟨1, _⟩ => show win0_6.index t (1 : Fin 2) * _ = 0; rw [e6, Nat.zero_mul]
  exact (Memref.read_access_unit_zero (Elt Ideal) main_v34_2 hz' (fun a => by rw [congrFun hz' a]; simp) (Cert.Spec.colSumSq (lin V c))).symm

/-- An index of the row is in point `t`'s block iff each coordinate is in the block's range on its axis. -/
theorem mem_blk6 (t : Fin cfg0.N) (i : S1x128.Idx) :
    i ∈ ((cfg0.win 6).blk t).view.set ↔ ∀ a : Fin 2, win0_6.index t a * S1x128.size a ≤ (i a).val ∧ (i a).val < win0_6.index t a * S1x128.size a + S1x128.size a := by
  show i ∈ ((View.whole main_v34_2).slice (win0_6.rect t)).set ↔ _
  rw [View.set_slice_whole, Rect.mem_set_unit]
  exact Iff.rfl

/-- The last point's block is the whole row. -/
theorem cover6 (i : S1x128.Idx) : ∃ t : Fin cfg0.N, (cfg0.win 6).flush t = true ∧ i ∈ ((cfg0.win 6).blk t).view.set := by
  have hi0 : (i 0).val < 1 := (i 0).isLt
  have hi1 : (i 1).val < 128 := (i 1).isLt
  have hN : cfg0.N = 20 := N_0
  refine ⟨⟨19, by rw [hN]; omega⟩, (flush0_6 _).mpr rfl, ?_⟩
  rw [mem_blk6]
  obtain ⟨-, -, -, -, -, -, -, -, -, -, d5, e5, d6, e6⟩ := idx_facts ⟨19, by rw [hN]; omega⟩
  intro a
  match a with
  | ⟨0, _⟩ =>
    show win0_6.index _ (0 : Fin 2) * 1 ≤ (i 0).val ∧ (i 0).val < win0_6.index _ (0 : Fin 2) * 1 + 1
    rw [d6]; omega
  | ⟨1, _⟩ =>
    show win0_6.index _ (1 : Fin 2) * 128 ≤ (i 1).val ∧ (i 1).val < win0_6.index _ (1 : Fin 2) * 128 + 128
    rw [e6]; omega

/-- The array of column sums of squares after the region. -/
theorem final6 : (dat0 (F := Ideal) V c).arrAt 6 cfg0.N
    = Cert.Spec.colSumSq (Cert.Spec.linear (V c (Pipeline.arrRef spec0 0)) (V c (Pipeline.arrRef spec0 1)) (V c (Pipeline.arrRef spec0 2)) (V c (Pipeline.arrRef spec0 3))) :=
  (dat0 (F := Ideal) V c).arrAt_eq_of_cover 6 (Cert.Spec.colSumSq (lin V c)) (flushed6_eq V c) cover6

end Cert.KernelIdeal.Region0

end
-- ==== Proof.Region1Col.lean ====
/-
  A column spread over the columns of a matrix, read at an index.

  An `[a, 1]` array (one number per row) broadcast to `[a, b]` holds, at `(p, c)`, the number of row `p`: the unit axis
  is read at `0`, the row axis at the row.
-/
import Idealize.ShloMosaic.Lib.ValueIdx
import Idealize.ShloMosaic.Lib.ValueLayout
import Idealize.ShloMosaic.Lib.Pipeline.Value

noncomputable section

namespace Cert.KernelIdeal.Region1

open Idealize.ShloMosaic Idealize.ShloMosaic.ValueIdx

/-- An `[a, 1]` array broadcast to `[a, b]` reads, at `(p, c)`, the operand's entry of row `p`. -/
theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KernelIdeal.Region1

end
-- ==== Proof.Region1Pay.lean ====
/-
  The value one block of the normalisation region stores, entry by entry.

  The body takes a `[5000, 128]` block of the layer's output, the `[1, 128]` rows of variance, mean, scale and shift, and
  the `[5000, 1]` column of out-degree factors. Every operation is pointwise after the rows are spread over the 5000 rows
  and the column over the 128 columns, so entry `(p, q)` of the result depends on the block's entry `(p, q)`, the four
  rows' entries of column `q`, and the column's entry of row `p`:
  `max (((x − mean) · rsqrt (var + ε)) · g + be) 0 · n`.
-/
import proofs.«167096_j27393301414235_1_alg».proof.Proof.Gen.KernelIdeal.Skeleton
import proofs.«167096_j27393301414235_1_alg».proof.Proof.Spec
import proofs.«167096_j27393301414235_1_alg».proof.Proof.Region1Col
import Idealize.ShloMosaic.PureOps.Ideal.Laws

noncomputable section

namespace Cert.KernelIdeal.Region1

open Cert.KernelIdeal Cert.KernelIdeal.Gen Idealize.ShloMosaic Idealize.ShloMosaic.ValueIdx

/-- One row, cast to its own shape and spread over the 5000 rows, reads the row's entry of the column. -/
theorem row_apply (v : FVec Ideal S1x128 .f32) (p : Fin 5000) (q : Fin 128) :
    broadcastTo S5000x128 (shapeCast S1x128 v shapeCasts_S1x128_S1x128) broadcasts_S1x128_S5000x128 (ix2 p q)
      = v (ix2 (0 : Fin 1) q) := by
  rw [shapeCast_self]
  exact broadcastTo_1b_ab_apply v broadcasts_S1x128_S5000x128 p q

/-- The column, cast to its own shape and spread over the 128 columns, reads the column's entry of the row. -/
theorem col_apply (v : FVec Ideal S5000x1 .f32) (p : Fin 5000) (q : Fin 128) :
    broadcastTo S5000x128 (shapeCast S5000x1 v shapeCasts_S5000x1_S5000x1) broadcasts_S5000x1_S5000x128 (ix2 p q)
      = v (ix2 p (0 : Fin 1)) := by
  rw [shapeCast_self]
  exact broadcastTo_col_apply v broadcasts_S5000x1_S5000x128 p q

/-- Entry `(p, q)` of the stored block. -/
theorem pay_apply (x : FVec Ideal S5000x128 .f32) (var mean g be : FVec Ideal S1x128 .f32) (n : FVec Ideal S5000x1 .f32)
    (p : Fin 5000) (q : Fin 128) :
    k1_pay1 (F := Ideal) x var mean g be n (ix2 p q)
      = max (((x (ix2 p q) - mean (ix2 (0 : Fin 1) q)) * Ideal.rsqrt (var (ix2 (0 : Fin 1) q) + Cert.Spec.eps))
          * g (ix2 (0 : Fin 1) q) + be (ix2 (0 : Fin 1) q)) 0 * n (ix2 p (0 : Fin 1)) := by
  have e0 : shapeCast S5000x128 x shapeCasts_S5000x128_S5000x128 = x := shapeCast_self _ _
  have e5 : broadcastTo S5000x128 (rsqrt (F := Ideal) (addf (F := Ideal) (shapeCast S1x128 var shapeCasts_S1x128_S1x128)
        (broadcast S1x128 (Scalar.ofBits (F := Ideal) .f32 0x3727C5AC#32)))) broadcasts_S1x128_S5000x128 (ix2 p q)
      = Ideal.rsqrt (var (ix2 (0 : Fin 1) q) + Cert.Spec.eps) := by
    rw [broadcastTo_1b_ab_apply _ broadcasts_S1x128_S5000x128 p q, shapeCast_self]
    rfl
  unfold k1_pay1
  simp only [mulf_apply, maximumf_apply, addf_apply, subf_apply, broadcast_apply, e0, e5, row_apply mean p q, row_apply g p q,
    row_apply be p q, col_apply n p q]
  show max _ (Ideal.ofBits .f32 0x00000000#32) * _ = _
  rw [Ideal.ofBits_zero_f32]

end Cert.KernelIdeal.Region1

end
-- ==== Proof.Region1.lean ====
/-
  Region 1 (normalise, rectify and scale by rows) as one function of the arrays the region finds.

  The grid has 20 points. Point `t` holds rows `5000 t … 5000 t + 4999` of the layer's output and of the out-degree
  column, and the whole `[1, 128]` rows of mean, variance, scale and shift; it writes back the same rows of the result.
  Entry `(p, q)` of what point `t` writes is the pointwise formula at row `5000 t + p`, column `q` of the whole arrays,
  so every block written back is a block of ONE function of the arrays, `Cert.Spec.bnReluScale`; the 20 blocks cover
  the 100000 rows (row `r` lies in block `r / 5000`), so the array ends holding that function.
-/
import proofs.«167096_j27393301414235_1_alg».proof.Proof.Gen.KernelIdeal.Frame
import proofs.«167096_j27393301414235_1_alg».proof.Proof.Spec
import proofs.«167096_j27393301414235_1_alg».proof.Proof.Region1Pay
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the 20 points: the block windows (0, 5, 6) sit at block `(t, 0)`, the row windows (1 … 4) at
    block `(0, 0)`. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- Entry `(p, q)` of point `t`'s block of the layer's output is entry `(5000 t + p, q)` of the array. -/
theorem blk0_apply (c : Dev nD) (t : Fin cfg1.N) (p : Fin 5000) (q : Fin 128) (i : S100000x128.Idx)
    (hi0 : (i 0).val = t.val * 5000 + p.val) (hi1 : (i 1).val = q.val) :
    (iblk1 V c 0 t : Vec Ideal S5000x128 .f32) (ix2 p q) = (V c (Pipeline.arrRef spec1 0) : S100000x128.Idx → EReal) i := by
  obtain ⟨e0, e1, -⟩ := idx_facts t
  unfold iblk1
  rw [View.read_apply]
  refine congrArg (V c (Pipeline.arrRef spec1 0) : S100000x128.Idx → EReal) (funext fun a => Fin.ext ?_)
  match a with
  | ⟨0, _⟩ => show win1_0.index t (0 : Fin 2) * 5000 + 1 * p.val = (i 0).val; rw [e0, hi0]; omega
  | ⟨1, _⟩ => show win1_0.index t (1 : Fin 2) * 128 + 1 * q.val = (i 1).val; rw [e1, hi1]; omega

/-- Entry `(p, 0)` of point `t`'s block of the out-degree column is entry `(5000 t + p, 0)` of the column. -/
theorem blk5_apply (c : Dev nD) (t : Fin cfg1.N) (p : Fin 5000) (i : S100000x1.Idx)
    (hi0 : (i 0).val = t.val * 5000 + p.val) :
    (iblk1 V c 5 t : Vec Ideal S5000x1 .f32) (ix2 p (0 : Fin 1)) = (V c (Pipeline.arrRef spec1 5) : S100000x1.Idx → EReal) i := by
  obtain ⟨-, -, -, -, -, -, -, -, -, -, e0, e1, -⟩ := idx_facts t
  unfold iblk1
  rw [View.read_apply]
  refine congrArg (V c (Pipeline.arrRef spec1 5) : S100000x1.Idx → EReal) (funext fun a => Fin.ext ?_)
  match a with
  | ⟨0, _⟩ => show win1_5.index t (0 : Fin 2) * 5000 + 1 * p.val = (i 0).val; rw [e0, hi0]; omega
  | ⟨1, _⟩ => show win1_5.index t (1 : Fin 2) * 1 + 1 * (0 : Fin 1).val = (i 1).val; rw [e1]; have hlt : (i 1).val < 1 := (i 1).isLt; show 0 * 1 + 1 * 0 = (i 1).val; omega

/-- A row window's block at any point is the whole row array. -/
theorem blk1_apply (c : Dev nD) (t : Fin cfg1.N) (q : Fin 128) (i : S1x128.Idx) (hi1 : (i 1).val = q.val) :
    (iblk1 V c 1 t : Vec Ideal S1x128 .f32) (ix2 (0 : Fin 1) q) = (V c (Pipeline.arrRef spec1 1) : S1x128.Idx → EReal) i := by
  obtain ⟨-, -, e0, e1, -⟩ := idx_facts t
  unfold iblk1
  rw [View.read_apply]
  refine congrArg (V c (Pipeline.arrRef spec1 1) : S1x128.Idx → EReal) (funext fun a => Fin.ext ?_)
  match a with
  | ⟨0, _⟩ => show win1_1.index t (0 : Fin 2) * 1 + 1 * (0 : Fin 1).val = (i 0).val; rw [e0]; have hlt : (i 0).val < 1 := (i 0).isLt; show 0 * 1 + 1 * 0 = (i 0).val; omega
  | ⟨1, _⟩ => show win1_1.index t (1 : Fin 2) * 128 + 1 * q.val = (i 1).val; rw [e1, hi1]; omega

theorem blk2_apply (c : Dev nD) (t : Fin cfg1.N) (q : Fin 128) (i : S1x128.Idx) (hi1 : (i 1).val = q.val) :
    (iblk1 V c 2 t : Vec Ideal S1x128 .f32) (ix2 (0 : Fin 1) q) = (V c (Pipeline.arrRef spec1 2) : S1x128.Idx → EReal) i := by
  obtain ⟨-, -, -, -, e0, e1, -⟩ := idx_facts t
  unfold iblk1
  rw [View.read_apply]
  refine congrArg (V c (Pipeline.arrRef spec1 2) : S1x128.Idx → EReal) (funext fun a => Fin.ext ?_)
  match a with
  | ⟨0, _⟩ => show win1_2.index t (0 : Fin 2) * 1 + 1 * (0 : Fin 1).val = (i 0).val; rw [e0]; have hlt : (i 0).val < 1 := (i 0).isLt; show 0 * 1 + 1 * 0 = (i 0).val; omega
  | ⟨1, _⟩ => show win1_2.index t (1 : Fin 2) * 128 + 1 * q.val = (i 1).val; rw [e1, hi1]; omega

theorem blk3_apply (c : Dev nD) (t : Fin cfg1.N) (q : Fin 128) (i : S1x128.Idx) (hi1 : (i 1).val = q.val) :
    (iblk1 V c 3 t : Vec Ideal S1x128 .f32) (ix2 (0 : Fin 1) q) = (V c (Pipeline.arrRef spec1 3) : S1x128.Idx → EReal) i := by
  obtain ⟨-, -, -, -, -, -, e0, e1, -⟩ := idx_facts t
  unfold iblk1
  rw [View.read_apply]
  refine congrArg (V c (Pipeline.arrRef spec1 3) : S1x128.Idx → EReal) (funext fun a => Fin.ext ?_)
  match a with
  | ⟨0, _⟩ => show win1_3.index t (0 : Fin 2) * 1 + 1 * (0 : Fin 1).val = (i 0).val; rw [e0]; have hlt : (i 0).val < 1 := (i 0).isLt; show 0 * 1 + 1 * 0 = (i 0).val; omega
  | ⟨1, _⟩ => show win1_3.index t (1 : Fin 2) * 128 + 1 * q.val = (i 1).val; rw [e1, hi1]; omega

theorem blk4_apply (c : Dev nD) (t : Fin cfg1.N) (q : Fin 128) (i : S1x128.Idx) (hi1 : (i 1).val = q.val) :
    (iblk1 V c 4 t : Vec Ideal S1x128 .f32) (ix2 (0 : Fin 1) q) = (V c (Pipeline.arrRef spec1 4) : S1x128.Idx → EReal) i := by
  obtain ⟨-, -, -, -, -, -, -, -, e0, e1, -⟩ := idx_facts t
  unfold iblk1
  rw [View.read_apply]
  refine congrArg (V c (Pipeline.arrRef spec1 4) : S1x128.Idx → EReal) (funext fun a => Fin.ext ?_)
  match a with
  | ⟨0, _⟩ => show win1_4.index t (0 : Fin 2) * 1 + 1 * (0 : Fin 1).val = (i 0).val; rw [e0]; have hlt : (i 0).val < 1 := (i 0).isLt; show 0 * 1 + 1 * 0 = (i 0).val; omega
  | ⟨1, _⟩ => show win1_4.index t (1 : Fin 2) * 128 + 1 * q.val = (i 1).val; rw [e1, hi1]; omega

set_option maxHeartbeats 1000000 in
/-- WHAT POINT `t` WRITES BACK is block `t` of the specification of the arrays as the region finds them: the body's
    entry `(p, q)` reads every block where the output's block sits in its array. -/
theorem flushed_eq (c : Dev nD) (t : Fin cfg1.N) :
    (dat1 (F := Ideal) V c).flushed 6 t = ((cfg1.win 6).blk t).view.read (Elt Ideal)
      (Cert.Spec.bnReluScale (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))) := by
  show (cfg1.win 6).cut (grid1.coords t) ((dat1 V c).after 6 t) = _
  rw [after1_6]
  unfold out1_6
  rw [View.canon_unit_zero hz]
  simp only [View.ld_unit_zero (S := S5000x128) hz, View.ld_unit_zero (S := S1x128) hz, View.ld_unit_zero (S := S5000x1) hz]
  obtain ⟨-, -, -, -, -, -, -, -, -, -, -, -, e0, e1⟩ := idx_facts t
  funext j
  obtain ⟨p, q, rfl⟩ : ∃ (p : Fin 5000) (q : Fin 128), j = ix2 p q := ⟨j 0, j 1, eq_ix2 j⟩
  have hi0 : ((((cfg1.win 6).blk t).view.emb (ix2 p q)) 0).val = t.val * 5000 + p.val := by
    show win1_6.index t (0 : Fin 2) * 5000 + 1 * p.val = _; rw [e0]; omega
  have hi1 : ((((cfg1.win 6).blk t).view.emb (ix2 p q)) 1).val = q.val := by
    show win1_6.index t (1 : Fin 2) * 128 + 1 * q.val = _; rw [e1]; omega
  show k1_pay1 (F := Ideal) (iblk1 V c 0 t) (iblk1 V c 2 t) (iblk1 V c 1 t) (iblk1 V c 3 t) (iblk1 V c 4 t) (iblk1 V c 5 t) (ix2 p q)
    = Cert.Spec.bnReluScale (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5)) (((cfg1.win 6).blk t).view.emb (ix2 p q))
  refine (pay_apply (iblk1 V c 0 t) (iblk1 V c 2 t) (iblk1 V c 1 t) (iblk1 V c 3 t) (iblk1 V c 4 t) (iblk1 V c 5 t) p q).trans ?_
  rw [blk0_apply V c t p q (((cfg1.win 6).blk t).view.emb (ix2 p q)) hi0 hi1,
    blk1_apply V c t q (ix2 (0 : Fin 1) ((((cfg1.win 6).blk t).view.emb (ix2 p q)) 1)) hi1,
    blk2_apply V c t q (ix2 (0 : Fin 1) ((((cfg1.win 6).blk t).view.emb (ix2 p q)) 1)) hi1,
    blk3_apply V c t q (ix2 (0 : Fin 1) ((((cfg1.win 6).blk t).view.emb (ix2 p q)) 1)) hi1,
    blk4_apply V c t q (ix2 (0 : Fin 1) ((((cfg1.win 6).blk t).view.emb (ix2 p q)) 1)) hi1,
    blk5_apply V c t p (ix2 ((((cfg1.win 6).blk t).view.emb (ix2 p q)) 0) (0 : Fin 1)) hi0]
  rfl

/-- An index of the array is in point `t`'s block iff each coordinate is in the block's range on its axis. -/
theorem mem_blk (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v41).slice (win1_6.rect t)).set ↔ _
  rw [View.set_slice_whole, Rect.mem_set_unit]
  exact Iff.rfl

/-- Every index of the array is in the block of the point its row selects: row `r` lies in block `r / 5000`. -/
theorem cover (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  obtain ⟨-, -, -, -, -, -, -, -, -, -, -, -, e0, e1⟩ := idx_facts t
  have ht : t.val = (i 0).val / 5000 := rfl
  refine ⟨t, flush1_6 t, ?_⟩
  rw [mem_blk]
  intro a
  match a with
  | ⟨0, _⟩ => show win1_6.index t (0 : Fin 2) * 5000 ≤ (i 0).val ∧ (i 0).val < win1_6.index t (0 : Fin 2) * 5000 + 5000; rw [e0, ht]; omega
  | ⟨1, _⟩ => show win1_6.index t (1 : Fin 2) * 128 ≤ (i 1).val ∧ (i 1).val < win1_6.index t (1 : Fin 2) * 128 + 128; rw [e1]; omega

/-- THE ARRAY after the region: the specification of the arrays as the region finds them. -/
theorem final6 (c : Dev nD) : (dat1 (F := Ideal) V c).arrAt 6 cfg1.N
    = Cert.Spec.bnReluScale (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5)) :=
  (dat1 (F := Ideal) V c).arrAt_eq_of_cover 6 _ (fun t _ => flushed_eq V c t) cover

end Cert.KernelIdeal.Region1

end
-- ==== Proof.Region2Rows.lean ====
/-
  The 100000 rows of a node array are 20 consecutive blocks of 5000: row `y` of block `s` is row `5000·s + y`. A sum
  over all rows is the sum over the blocks of the sums over each block's rows (sums in a commutative monoid, so no
  finiteness of the entries is needed).
-/
import Idealize.ShloMosaic.Lib.ValueIdx

noncomputable section

namespace Cert.KernelIdeal.Region2

/-- Row `y` of block `s` (for `s < 20`: row `5000·s + y`). -/
def row (s : ℕ) (y : Fin 5000) : Fin 100000 := ⟨(5000 * s + y.val) % 100000, Nat.mod_lt _ (by decide)⟩

theorem row_val (s : ℕ) (hs : s < 20) (y : Fin 5000) : (row s y).val = 5000 * s + y.val :=
  Nat.mod_eq_of_lt (by have := y.isLt; omega)

/-- A sum over all rows, block by block. -/
theorem sum_rows {M : Type} [AddCommMonoid M] (f : Fin 100000 → M) :
    ∑ r : Fin 100000, f r = ∑ s ∈ Finset.range 20, ∑ y : Fin 5000, f (row s y) := by
  rw [← Fin.sum_univ_eq_sum_range (fun s => ∑ y : Fin 5000, f (row s y)) 20]
  refine (Equiv.sum_comp (finProdFinEquiv : Fin 20 × Fin 5000 ≃ Fin (20 * 5000)) f).symm.trans ?_
  rw [Fintype.sum_prod_type]
  refine Finset.sum_congr rfl fun s _ => Finset.sum_congr rfl fun y _ => congrArg f (Fin.ext ?_)
  rw [row_val s.val s.isLt y]
  show y.val + 5000 * s.val = 5000 * s.val + y.val
  omega

end Cert.KernelIdeal.Region2

end
-- ==== Proof.Region2Pay.lean ====
/-
  The arithmetic of one grid point of the dense layer with column statistics, over the extended reals, read entry by
  entry. One point holds a block of 5000 rows. The stored block is, at `(p, q)`, `∑ k, (a p k · n p) · W k q + b q` of the
  loaded blocks; the row of column sums is the running row plus the sum of the block's rows; the row of sums of squares
  is the running row plus the sum of the squares of the block's rows; the two rows stored at the first point are zero.
-/
import proofs.«167096_j27393301414235_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Region2

open Idealize.ShloMosaic Idealize.ShloMosaic.ValueIdx
open Cert.KernelIdeal Cert.KernelIdeal.Gen

/-- A column `[a, 1]` spread over `b` columns reads, at `(p, c)`, the column's entry of row `p`. -/
theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => show 0 = if (1 : Nat) = 1 then 0 else c.val; rw [if_pos rfl]

abbrev D0 : DotDims S5000x128 S128x128 S5000x128 := dot_S5000x128_S128x128_S5000x128_1_0_0_1_n_n

theorem lhs0 (i : S5000x128.Idx) (k : D0.contr.Idx) : (D0.lhsIdx i k 0).val = (i 0).val := by
  unfold DotDims.lhsIdx
  rw [dif_neg (show ¬(0 : Fin S5000x128.rank) ∈ D0.lhsBatch by decide), dif_pos (show (0 : Fin S5000x128.rank) ∈ D0.lhsNonContracting by decide)]
  rfl
theorem rhs1 (i : S5000x128.Idx) (k : D0.contr.Idx) : (D0.rhsIdx i k 1).val = (i 1).val := by
  unfold DotDims.rhsIdx
  rw [dif_neg (show ¬(1 : Fin S128x128.rank) ∈ D0.rhsBatch by decide), dif_pos (show (1 : Fin S128x128.rank) ∈ D0.rhsNonContracting by decide)]
  rfl

theorem pay3_apply (x0 : Vec Ideal S5000x128 .f32) (x1 : Vec Ideal S5000x1 .f32) (x2 : Vec Ideal S128x128 .f32)
    (x3 : Vec Ideal S1x128 .f32) (p : Fin 5000) (q : Fin 128) :
    k2_pay3 (F := Ideal) x0 x1 x2 x3 (ix2 p q)
      = (∑ k : Fin 128, (x0 (ix2 p k) * x1 (ix2 p (0 : Fin 1))) * x2 (ix2 k q)) + x3 (ix2 (0 : Fin 1) q) := by
  unfold k2_pay3
  simp only [shapeCast_self]
  refine (addf_apply _ _ _).trans ?_
  refine congrArg₂ (· + ·) ?_ (broadcastTo_1b_ab_apply x3 broadcasts_S1x128_S5000x128 p q)
  refine (Ideal.matmul_constant_zero_apply D0 none _ _ (ix2 p q)).trans ?_
  rw [← Equiv.sum_comp (contrEquiv1 D0 128 rfl rfl).symm]
  refine Finset.sum_congr rfl fun k _ => ?_
  have hk := contrEquiv1_symm_val D0 128 rfl rfl k
  have el : D0.lhsIdx (ix2 p q) ((contrEquiv1 D0 128 rfl rfl).symm k) = ix2 p k := funext fun a => Fin.ext (by
    match a with
    | ⟨0, _⟩ => exact lhs0 _ _
    | ⟨1, _⟩ => exact (D0.lhsIdx_val_of_single rfl _ _).trans hk)
  have er : D0.rhsIdx (ix2 p q) ((contrEquiv1 D0 128 rfl rfl).symm k) = ix2 k q := funext fun a => Fin.ext (by
    match a with
    | ⟨0, _⟩ => exact (D0.rhsIdx_val_of_single rfl _ _).trans hk
    | ⟨1, _⟩ => exact rhs1 _ _)
  rw [el, er]
  refine congrArg₂ (· * ·) ?_ rfl
  refine (mulf_apply _ _ _).trans ?_
  exact congrArg (x0 (ix2 p k) * ·) (broadcastTo_col_apply x1 broadcasts_S5000x1_S5000x128 p k)

/-- The column sums' payload: the running row plus, per column, the sum of the block's 5000 rows. -/
theorem pay4_apply (x0 : Vec Ideal S5000x128 .f32) (x1 : Vec Ideal S5000x1 .f32) (x2 : Vec Ideal S128x128 .f32)
    (x3 : Vec Ideal S1x128 .f32) (xo : Vec Ideal S1x128 .f32) (q : Fin 128) :
    k2_pay4 (F := Ideal) x0 x1 x2 x3 xo (ix2 (0 : Fin 1) q)
      = xo (ix2 (0 : Fin 1) q) + ∑ y : Fin 5000, k2_pay3 (F := Ideal) x0 x1 x2 x3 (ix2 y q) := by
  unfold k2_pay4
  simp only [shapeCast_self]
  refine (addf_apply _ _ _).trans ?_
  refine congrArg (xo (ix2 (0 : Fin 1) q) + ·) ?_
  refine (shapeCast_a_1a_apply _ shapeCasts_S128_S1x128 (0 : Fin 1) q).trans ?_
  refine (Ideal.multiReduction_add_single _ 0x00000000#32 reduces_S5000x128_S128 (.inl rfl) rfl (ix1 q)).trans ?_
  refine Finset.sum_congr rfl fun y _ => congrArg _ ?_
  funext a
  match a with
  | ⟨0, _⟩ => rfl
  | ⟨1, _⟩ => rfl

/-- The payload of the sums of squares: the running row plus, per column, the sum of the squares of the block's rows. -/
theorem pay5_apply (x0 : Vec Ideal S5000x128 .f32) (x1 : Vec Ideal S5000x1 .f32) (x2 : Vec Ideal S128x128 .f32)
    (x3 : Vec Ideal S1x128 .f32) (xo : Vec Ideal S1x128 .f32) (q : Fin 128) :
    k2_pay5 (F := Ideal) x0 x1 x2 x3 xo (ix2 (0 : Fin 1) q)
      = xo (ix2 (0 : Fin 1) q) + ∑ y : Fin 5000, k2_pay3 (F := Ideal) x0 x1 x2 x3 (ix2 y q) * k2_pay3 (F := Ideal) x0 x1 x2 x3 (ix2 y q) := by
  unfold k2_pay5
  simp only [shapeCast_self]
  refine (addf_apply _ _ _).trans ?_
  refine congrArg (xo (ix2 (0 : Fin 1) q) + ·) ?_
  refine (shapeCast_a_1a_apply _ shapeCasts_S128_S1x128 (0 : Fin 1) q).trans ?_
  refine (Ideal.multiReduction_add_single _ 0x00000000#32 reduces_S5000x128_S128 (.inl rfl) rfl (ix1 q)).trans ?_
  refine Finset.sum_congr rfl fun y _ => ?_
  refine (mulf_apply _ _ _).trans ?_
  have e : reduces_S5000x128_S128.lift (ix1 q) y = ix2 y q := by
    funext a
    match a with
    | ⟨0, _⟩ => rfl
    | ⟨1, _⟩ => rfl
  rw [e]
  rfl

/-- The two rows stored at the first grid point are zero. -/
theorem pay1_apply (j : S1x128.Idx) : k2_pay1 (F := Ideal) j = 0 := Ideal.ofBits_zero_f32
theorem pay2_apply (j : S1x128.Idx) : k2_pay2 (F := Ideal) j = 0 := Ideal.ofBits_zero_f32

end Cert.KernelIdeal.Region2

end
-- ==== Proof.Region2Blocks.lean ====
/-
  The blocks one grid point loads, read entry by entry off the arrays the region finds. Point `t` loads rows
  `5000·t … 5000·t + 4999` of the aggregated features and of the in-degree factors, and the whole weight matrix and bias
  row. So the block it stores is rows `5000·t …` of the dense layer of the whole arrays.
-/
import proofs.«167096_j27393301414235_1_alg».proof.Proof.Gen.KernelIdeal.Frame
import proofs.«167096_j27393301414235_1_alg».proof.Proof.Spec
import proofs.«167096_j27393301414235_1_alg».proof.Proof.Region2Rows
import proofs.«167096_j27393301414235_1_alg».proof.Proof.Region2Pay
import Idealize.ShloMosaic.Lib.Pipeline.Value

noncomputable section

namespace Cert.KernelIdeal.Region2

open Idealize.ShloMosaic Idealize.ShloMosaic.TcCoe Idealize.SL.Sem
open Idealize.ShloMosaic.Pipeline (Dat)
open Cert.KernelIdeal Cert.KernelIdeal.Gen

open Idealize.ShloMosaic.ValueIdx

variable (V : (c : Dev nD) → (b : Ref sig .tc) → Buf (Elt Ideal) ((c : Thread nD τ).loc b)) (c : Dev nD)

/-- The four arrays the region reads, as it finds them: aggregated features, in-degree factors, weights, bias. -/
abbrev arr0 : Cert.Spec.Arr 100000 128 := V c (Pipeline.arrRef spec2 0)
abbrev arr1 : Cert.Spec.Arr 100000 1 := V c (Pipeline.arrRef spec2 1)
abbrev arr2 : Cert.Spec.Arr 128 128 := V c (Pipeline.arrRef spec2 2)
abbrev arr3 : Cert.Spec.Arr 1 128 := V c (Pipeline.arrRef spec2 3)

/-- The dense layer of those arrays. -/
abbrev lin : Cert.Spec.Arr 100000 128 := Cert.Spec.linear (arr0 V c) (arr1 V c) (arr2 V c) (arr3 V c)

/-- The index maps over the grid: the row windows (features, degree factors, output) move with the point, the others stay. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

theorem blk0_apply (t : Fin cfg2.N) (p : Fin 5000) (k : Fin 128) :
    iblk2 (F := Ideal) V c 0 t (ix2 p k) = arr0 V c (ix2 (row t.val p) k) := by
  have hN : t.val < 20 := lt_of_lt_of_eq t.isLt (show cfg2.N = 20 from N_2)
  obtain ⟨e0, e1, -⟩ := idx_facts t
  unfold iblk2
  rw [View.read_apply]
  refine congrArg (V c (Pipeline.arrRef spec2 0)) (funext fun a => Fin.ext ?_)
  match a with
  | ⟨0, _⟩ =>
    show win2_0.index t (0 : Fin 2) * 5000 + 1 * p.val = (row t.val p).val
    rw [row_val t.val hN p, e0]; omega
  | ⟨1, _⟩ =>
    show win2_0.index t (1 : Fin 2) * 128 + 1 * k.val = k.val
    rw [e1]; omega

theorem blk1_apply (t : Fin cfg2.N) (p : Fin 5000) :
    iblk2 (F := Ideal) V c 1 t (ix2 p (0 : Fin 1)) = arr1 V c (ix2 (row t.val p) (0 : Fin 1)) := by
  have hN : t.val < 20 := lt_of_lt_of_eq t.isLt (show cfg2.N = 20 from N_2)
  obtain ⟨-, -, e0, e1, -⟩ := idx_facts t
  unfold iblk2
  rw [View.read_apply]
  refine congrArg (V c (Pipeline.arrRef spec2 1)) (funext fun a => Fin.ext ?_)
  match a with
  | ⟨0, _⟩ =>
    show win2_1.index t (0 : Fin 2) * 5000 + 1 * p.val = (row t.val p).val
    rw [row_val t.val hN p, e0]; omega
  | ⟨1, _⟩ =>
    show win2_1.index t (1 : Fin 2) * 1 + 1 * 0 = 0
    rw [e1]

theorem blk2_apply (t : Fin cfg2.N) (k q : Fin 128) :
    iblk2 (F := Ideal) V c 2 t (ix2 k q) = arr2 V c (ix2 k q) := by
  obtain ⟨-, -, -, -, e0, e1, -⟩ := idx_facts t
  unfold iblk2
  rw [View.read_apply]
  refine congrArg (V c (Pipeline.arrRef spec2 2)) (funext fun a => Fin.ext ?_)
  match a with
  | ⟨0, _⟩ =>
    show win2_2.index t (0 : Fin 2) * 128 + 1 * k.val = k.val
    rw [e0]; omega
  | ⟨1, _⟩ =>
    show win2_2.index t (1 : Fin 2) * 128 + 1 * q.val = q.val
    rw [e1]; omega

theorem blk3_apply (t : Fin cfg2.N) (q : Fin 128) :
    iblk2 (F := Ideal) V c 3 t (ix2 (0 : Fin 1) q) = arr3 V c (ix2 (0 : Fin 1) q) := by
  obtain ⟨-, -, -, -, -, -, e0, e1, -⟩ := idx_facts t
  unfold iblk2
  rw [View.read_apply]
  refine congrArg (V c (Pipeline.arrRef spec2 3)) (funext fun a => Fin.ext ?_)
  match a with
  | ⟨0, _⟩ =>
    show win2_3.index t (0 : Fin 2) * 1 + 1 * 0 = 0
    rw [e0]
  | ⟨1, _⟩ =>
    show win2_3.index t (1 : Fin 2) * 128 + 1 * q.val = q.val
    rw [e1]; omega

/-- The block point `t` stores is rows `5000·t …` of the dense layer of the whole arrays. -/
theorem pay3_blk (t : Fin cfg2.N) (p : Fin 5000) (q : Fin 128) :
    k2_pay3 (F := Ideal) (iblk2 V c 0 t) (iblk2 V c 1 t) (iblk2 V c 2 t) (iblk2 V c 3 t) (ix2 p q)
      = lin V c (ix2 (row t.val p) q) := by
  refine (pay3_apply (iblk2 V c 0 t) (iblk2 V c 1 t) (iblk2 V c 2 t) (iblk2 V c 3 t) p q).trans ?_
  show _ = (∑ k : Fin 128, (arr0 V c (ix2 (row t.val p) k) * arr1 V c (ix2 (row t.val p) (0 : Fin 1))) * arr2 V c (ix2 k q))
    + arr3 V c (ix2 (0 : Fin 1) q)
  rw [blk1_apply, blk3_apply]
  refine congrArg (· + _) (Finset.sum_congr rfl fun k _ => ?_)
  rw [blk0_apply, blk2_apply]

end Cert.KernelIdeal.Region2

end
-- ==== Proof.Region2Pieces.lean ====
/-
  What one grid point of the dense layer with column statistics leaves in its three output blocks, as values of the
  blocks it loads, for any number format. The layer's block is the one stored block at every point. The two statistics rows
  are stored last as "running row plus this block's contribution"; at the first point the running row is the zero row
  stored just before, at a later point it is the row the point before left.
-/
import proofs.«167096_j27393301414235_1_alg».proof.Proof.Gen.KernelIdeal.Frame
import Idealize.ShloMosaic.Lib.Pipeline.Value
import Idealize.ShloMosaic.Lib.Tactic

noncomputable section

namespace Cert.KernelIdeal.Region2

open Idealize.ShloMosaic Idealize.ShloMosaic.TcCoe Idealize.SL.Sem
open Idealize.ShloMosaic.Pipeline (Dat)
open Cert.KernelIdeal Cert.KernelIdeal.Gen

variable {F : FTy → Type} [FloatOps F]

theorem hz2 : (![0, 0] : Fin 2 → Nat) = fun _ => 0 := funext fun a => by fin_cases a <;> rfl

section Pieces
variable (c : Dev nD) (i : grid2.Coords)
  (a1 : Memref sig .tc .vmem S5000x128 .f32) (h1 : a1.IsWhole)
  (a2 : Memref sig .tc .vmem S5000x1 .f32) (h2 : a2.IsWhole)
  (a3 : Memref sig .tc .vmem S128x128 .f32) (h3 : a3.IsWhole)
  (a4 : Memref sig .tc .vmem S1x128 .f32) (h4 : a4.IsWhole)
  (a5 : Memref sig .tc .vmem S5000x128 .f32) (h5 : a5.IsWhole)
  (a6 : Memref sig .tc .vmem S1x128 .f32) (h6 : a6.IsWhole)
  (a7 : Memref sig .tc .vmem S1x128 .f32) (h7 : a7.IsWhole)
  (x0 : Vec F S5000x128 .f32) (x1 : Vec F S5000x1 .f32) (x2 : Vec F S128x128 .f32) (x3 : Vec F S1x128 .f32)

/-- At the first grid point the layer's output block is the one stored block: the dense layer of the loaded blocks. -/
theorem out4_A (hc : cond2_0 i) :
    out2_A_4 c i a1 h1 a2 h2 a3 h3 a4 h4 a5 h5 a6 h6 a7 h7 hc x0 x1 x2 x3 = k2_pay3 x0 x1 x2 x3 := by
  unfold out2_A_4
  rw [View.read_writes_eq_canon _ _ _ (cover2_A_4 c i a1 h1 a2 h2 a3 h3 a4 h4 a5 h5 a6 h6 a7 h7 hc x0 x1 x2 x3)]
  unfold kernelRun2_A
  dsimp only
  rw [View.canon_unit_zero hz2]
  simp only [View.readAt_eq_ld, h1.read_unread, h2.read_unread, h3.read_unread, h4.read_unread, View.ld_unit_zero (S := S5000x128) hz2, View.ld_unit_zero (S := S5000x1) hz2, View.ld_unit_zero (S := S128x128) hz2, View.ld_unit_zero (S := S1x128) hz2]

/-- At a later grid point likewise. -/
theorem out4_B (hc : ¬cond2_0 i) (xo5 xo6 : Vec F S1x128 .f32) :
    out2_B_4 c i a1 h1 a2 h2 a3 h3 a4 h4 a5 h5 a6 h6 a7 h7 hc x0 x1 x2 x3 xo5 xo6 = k2_pay3 x0 x1 x2 x3 := by
  unfold out2_B_4
  rw [View.read_writes_eq_canon _ _ _ (cover2_B_4 c i a1 h1 a2 h2 a3 h3 a4 h4 a5 h5 a6 h6 a7 h7 hc x0 x1 x2 x3 xo5 xo6)]
  unfold kernelRun2_B
  dsimp only
  rw [View.canon_unit_zero hz2]
  simp only [View.readAt_eq_ld, h1.read_unread, h2.read_unread, h3.read_unread, h4.read_unread, h6.read_unread, h7.read_unread, View.ld_unit_zero (S := S5000x128) hz2, View.ld_unit_zero (S := S5000x1) hz2, View.ld_unit_zero (S := S128x128) hz2, View.ld_unit_zero (S := S1x128) hz2]

/-- At the first grid point the row of column sums is the block's column sums added to the zero row stored just before. -/
theorem out5_A (hc : cond2_0 i) :
    out2_A_5 c i a1 h1 a2 h2 a3 h3 a4 h4 a5 h5 a6 h6 a7 h7 hc x0 x1 x2 x3 = k2_pay4 x0 x1 x2 x3 k2_pay1 := by
  unfold out2_A_5
  rw [View.read_writes_eq_canon _ _ _ (cover2_A_5 c i a1 h1 a2 h2 a3 h3 a4 h4 a5 h5 a6 h6 a7 h7 hc x0 x1 x2 x3)]
  unfold kernelRun2_A
  dsimp only
  sl_unfold_words
  rw [View.canon_cons_unit_zero (S := S1x128) hz2, View.readCov_unit_zero (S := S1x128) _ hz2]
  simp only [View.readAt_eq_ld, h1.read_unread, h2.read_unread, h3.read_unread, h4.read_unread, View.ld_unit_zero (S := S5000x128) hz2, View.ld_unit_zero (S := S5000x1) hz2, View.ld_unit_zero (S := S128x128) hz2, View.ld_unit_zero (S := S1x128) hz2]

/-- At a later grid point it is the block's column sums added to the row the point before left. -/
theorem out5_B (hc : ¬cond2_0 i) (xo5 xo6 : Vec F S1x128 .f32) :
    out2_B_5 c i a1 h1 a2 h2 a3 h3 a4 h4 a5 h5 a6 h6 a7 h7 hc x0 x1 x2 x3 xo5 xo6 = k2_pay4 x0 x1 x2 x3 xo5 := by
  unfold out2_B_5
  rw [View.read_writes_eq_canon _ _ _ (cover2_B_5 c i a1 h1 a2 h2 a3 h3 a4 h4 a5 h5 a6 h6 a7 h7 hc x0 x1 x2 x3 xo5 xo6)]
  unfold kernelRun2_B
  dsimp only
  rw [View.canon_unit_zero hz2]
  simp only [View.readAt_eq_ld, h1.read_unread, h2.read_unread, h3.read_unread, h4.read_unread, h6.read_unread, h7.read_unread, View.ld_unit_zero (S := S5000x128) hz2, View.ld_unit_zero (S := S5000x1) hz2, View.ld_unit_zero (S := S128x128) hz2, View.ld_unit_zero (S := S1x128) hz2]

/-- The row of column sums of squares at the first grid point, -/
theorem out6_A (hc : cond2_0 i) :
    out2_A_6 c i a1 h1 a2 h2 a3 h3 a4 h4 a5 h5 a6 h6 a7 h7 hc x0 x1 x2 x3 = k2_pay5 x0 x1 x2 x3 k2_pay2 := by
  unfold out2_A_6
  rw [View.read_writes_eq_canon _ _ _ (cover2_A_6 c i a1 h1 a2 h2 a3 h3 a4 h4 a5 h5 a6 h6 a7 h7 hc x0 x1 x2 x3)]
  unfold kernelRun2_A
  dsimp only
  sl_unfold_words
  rw [View.canon_cons_unit_zero (S := S1x128) hz2, View.readCov_unit_zero (S := S1x128) _ hz2]
  simp only [View.readAt_eq_ld, h1.read_unread, h2.read_unread, h3.read_unread, h4.read_unread, View.ld_unit_zero (S := S5000x128) hz2, View.ld_unit_zero (S := S5000x1) hz2, View.ld_unit_zero (S := S128x128) hz2, View.ld_unit_zero (S := S1x128) hz2]

/-- and at a later one. -/
theorem out6_B (hc : ¬cond2_0 i) (xo5 xo6 : Vec F S1x128 .f32) :
    out2_B_6 c i a1 h1 a2 h2 a3 h3 a4 h4 a5 h5 a6 h6 a7 h7 hc x0 x1 x2 x3 xo5 xo6 = k2_pay5 x0 x1 x2 x3 xo6 := by
  unfold out2_B_6
  rw [View.read_writes_eq_canon _ _ _ (cover2_B_6 c i a1 h1 a2 h2 a3 h3 a4 h4 a5 h5 a6 h6 a7 h7 hc x0 x1 x2 x3 xo5 xo6)]
  unfold kernelRun2_B
  dsimp only
  rw [View.canon_unit_zero hz2]
  simp only [View.readAt_eq_ld, h1.read_unread, h2.read_unread, h3.read_unread, h4.read_unread, h6.read_unread, h7.read_unread, View.ld_unit_zero (S := S5000x128) hz2, View.ld_unit_zero (S := S5000x1) hz2, View.ld_unit_zero (S := S128x128) hz2, View.ld_unit_zero (S := S1x128) hz2]
end Pieces

end Cert.KernelIdeal.Region2

end
-- ==== Proof.Region2Out.lean ====
/-
  The layer's output array after the region. Every grid point stores its block — rows `5000·t …` of the dense layer of
  the whole arrays — and writes it back; the 20 blocks tile the 100000 rows (row `r` is in block `r / 5000`), so the array
  ends holding the dense layer.
-/
import proofs.«167096_j27393301414235_1_alg».proof.Proof.Gen.KernelIdeal.Frame
import proofs.«167096_j27393301414235_1_alg».proof.Proof.Region2Blocks
import proofs.«167096_j27393301414235_1_alg».proof.Proof.Region2Pieces

noncomputable section

namespace Cert.KernelIdeal.Region2

open Idealize.ShloMosaic Idealize.ShloMosaic.TcCoe Idealize.SL.Sem
open Idealize.ShloMosaic.Pipeline (Dat)
open Cert.KernelIdeal Cert.KernelIdeal.Gen

open Idealize.ShloMosaic.ValueIdx

variable (V : (c : Dev nD) → (b : Ref sig .tc) → Buf (Elt Ideal) ((c : Thread nD τ).loc b)) (c : Dev nD)

/-- What any point leaves in the layer's output block: the dense layer of the blocks it loads. -/
theorem out4_eq (t : Fin cfg2.N) :
    (outsAt2 (F := Ideal) V c t.val t.isLt).1 = k2_pay3 (iblk2 V c 0 t) (iblk2 V c 1 t) (iblk2 V c 2 t) (iblk2 V c 3 t) := by
  by_cases h0 : t.val % 20 = 0
  · rw [outsAt2_A V c t h0]
    dsimp only
    exact out4_A (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (iblk2 V c 0 t) (iblk2 V c 1 t) (iblk2 V c 2 t) (iblk2 V c 3 t) ((hcond2_0 t).mpr h0)
  · rw [outsAt2_B V c t h0]
    dsimp only
    exact out4_B (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (iblk2 V c 0 t) (iblk2 V c 1 t) (iblk2 V c 2 t) (iblk2 V c 3 t) (fun h => h0 ((hcond2_0 t).mp h)) _ _

/-- What point `t` writes back is block `t` of the dense layer of the whole arrays. -/
theorem flushed4_eq (t : Fin cfg2.N) :
    (dat2 (F := Ideal) V c).flushed 4 t = ((cfg2.win 4).blk t).view.read (Elt Ideal) (lin V c) := by
  have hN : t.val < 20 := lt_of_lt_of_eq t.isLt (show cfg2.N = 20 from N_2)
  obtain ⟨-, -, -, -, -, -, -, -, e0, e1, -⟩ := idx_facts t
  show (cfg2.win 4).cut (grid2.coords t) ((dat2 V c).after 4 t) = _
  rw [after2_4, out4_eq]
  funext j
  obtain ⟨p, q, rfl⟩ : ∃ (p : Fin 5000) (q : Fin 128), j = ix2 p q := ⟨j 0, j 1, eq_ix2 j⟩
  show k2_pay3 (F := Ideal) (iblk2 V c 0 t) (iblk2 V c 1 t) (iblk2 V c 2 t) (iblk2 V c 3 t) (ix2 p q) = lin V c (((cfg2.win 4).blk t).view.emb (ix2 p q))
  rw [pay3_blk]
  refine congrArg (lin V c) (funext fun a => Fin.ext ?_)
  match a with
  | ⟨0, _⟩ =>
    show (row t.val p).val = win2_4.index t (0 : Fin 2) * 5000 + 1 * p.val
    rw [row_val t.val hN p, e0]; omega
  | ⟨1, _⟩ =>
    show q.val = win2_4.index t (1 : Fin 2) * 128 + 1 * q.val
    rw [e1]; omega

/-- An index of the array is in point `t`'s block iff each coordinate is in the block's range on its axis. -/
theorem mem_blk4 (t : Fin cfg2.N) (i : S100000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v52_0).slice (win2_4.rect t)).set ↔ _
  rw [View.set_slice_whole, Rect.mem_set_unit]
  exact Iff.rfl

/-- Every index of the array is in the block of the point its row falls in. -/
theorem cover4 (i : S100000x128.Idx) : ∃ t : Fin cfg2.N, (cfg2.win 4).flush t = true ∧ i ∈ ((cfg2.win 4).blk t).view.set := by
  have hi0 : (i 0).val < 100000 := (i 0).isLt
  have hi1 : (i 1).val < 128 := (i 1).isLt
  have hN : cfg2.N = 20 := N_2
  refine ⟨⟨(i 0).val / 5000, by rw [hN]; omega⟩, flush2_4 _, ?_⟩
  rw [mem_blk4]
  obtain ⟨-, -, -, -, -, -, -, -, e0, e1, -⟩ := idx_facts ⟨(i 0).val / 5000, by rw [hN]; omega⟩
  intro a
  match a with
  | ⟨0, _⟩ =>
    show win2_4.index _ (0 : Fin 2) * 5000 ≤ (i 0).val ∧ (i 0).val < win2_4.index _ (0 : Fin 2) * 5000 + 5000
    rw [e0]; dsimp only; omega
  | ⟨1, _⟩ =>
    show win2_4.index _ (1 : Fin 2) * 128 ≤ (i 1).val ∧ (i 1).val < win2_4.index _ (1 : Fin 2) * 128 + 128
    rw [e1]; omega

/-- The layer's output array after the region is the dense layer of the arrays the region finds. -/
theorem final4 : (dat2 (F := Ideal) V c).arrAt 4 cfg2.N
    = Cert.Spec.linear (V c (Pipeline.arrRef spec2 0)) (V c (Pipeline.arrRef spec2 1)) (V c (Pipeline.arrRef spec2 2)) (V c (Pipeline.arrRef spec2 3)) :=
  (dat2 (F := Ideal) V c).arrAt_eq_of_cover 4 (lin V c) (fun t _ => flushed4_eq V c t) (cover4)

end Cert.KernelIdeal.Region2

end
-- ==== Proof.Region2Acc.lean ====
/-
  The two statistics rows after each grid point. The row of column sums starts, at the first point, from the zero row
  and gains at every point the column sums of that point's 5000 rows of the dense layer; so after point `n` it is the
  sum over the blocks `0 … n` of their column sums, and after the last point the sum over all 100000 rows. The row of sums
  of squares likewise. Both are written back once, after the last point, to an array of one block.
-/
import proofs.«167096_j27393301414235_1_alg».proof.Proof.Gen.KernelIdeal.Frame
import proofs.«167096_j27393301414235_1_alg».proof.Proof.Region2Blocks
import proofs.«167096_j27393301414235_1_alg».proof.Proof.Region2Pieces

noncomputable section

namespace Cert.KernelIdeal.Region2

open Idealize.ShloMosaic Idealize.ShloMosaic.TcCoe Idealize.SL.Sem
open Idealize.ShloMosaic.Pipeline (Dat)
open Cert.KernelIdeal Cert.KernelIdeal.Gen

open Idealize.ShloMosaic.ValueIdx

variable (V : (c : Dev nD) → (b : Ref sig .tc) → Buf (Elt Ideal) ((c : Thread nD τ).loc b)) (c : Dev nD)

/-- The column sums of block `s` of the dense layer, and the column sums of its squares. -/
def blkSum (s : ℕ) (q : Fin 128) : EReal := ∑ y : Fin 5000, lin V c (ix2 (row s y) q)
def blkSumSq (s : ℕ) (q : Fin 128) : EReal := ∑ y : Fin 5000, lin V c (ix2 (row s y) q) * lin V c (ix2 (row s y) q)

/-- The statistics rows a point leaves, by the point's case: from the zero rows at the first point, from the rows the
    point before left at a later one. -/
theorem out5_A_eq (t : Fin cfg2.N) (h0 : t.val % 20 = 0) :
    (outsAt2 (F := Ideal) V c t.val t.isLt).2.1 = k2_pay4 (iblk2 V c 0 t) (iblk2 V c 1 t) (iblk2 V c 2 t) (iblk2 V c 3 t) (k2_pay1 (F := Ideal)) := by
  rw [outsAt2_A V c t h0]
  dsimp only
  exact out5_A (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (iblk2 V c 0 t) (iblk2 V c 1 t) (iblk2 V c 2 t) (iblk2 V c 3 t) ((hcond2_0 t).mpr h0)
theorem out6_A_eq (t : Fin cfg2.N) (h0 : t.val % 20 = 0) :
    (outsAt2 (F := Ideal) V c t.val t.isLt).2.2 = k2_pay5 (iblk2 V c 0 t) (iblk2 V c 1 t) (iblk2 V c 2 t) (iblk2 V c 3 t) (k2_pay2 (F := Ideal)) := by
  rw [outsAt2_A V c t h0]
  dsimp only
  exact out6_A (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (iblk2 V c 0 t) (iblk2 V c 1 t) (iblk2 V c 2 t) (iblk2 V c 3 t) ((hcond2_0 t).mpr h0)
theorem out5_B_eq (t : Fin cfg2.N) (h0 : ¬t.val % 20 = 0) :
    (outsAt2 (F := Ideal) V c t.val t.isLt).2.1
      = k2_pay4 (iblk2 V c 0 t) (iblk2 V c 1 t) (iblk2 V c 2 t) (iblk2 V c 3 t) (outsAt2 (F := Ideal) V c (t.val - 1) (Nat.lt_of_le_of_lt (Nat.sub_le _ _) t.isLt)).2.1 := by
  rw [outsAt2_B V c t h0]
  dsimp only
  exact out5_B (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (iblk2 V c 0 t) (iblk2 V c 1 t) (iblk2 V c 2 t) (iblk2 V c 3 t) (fun h => h0 ((hcond2_0 t).mp h))
    (outsAt2 (F := Ideal) V c (t.val - 1) (Nat.lt_of_le_of_lt (Nat.sub_le _ _) t.isLt)).2.1 (outsAt2 (F := Ideal) V c (t.val - 1) (Nat.lt_of_le_of_lt (Nat.sub_le _ _) t.isLt)).2.2
theorem out6_B_eq (t : Fin cfg2.N) (h0 : ¬t.val % 20 = 0) :
    (outsAt2 (F := Ideal) V c t.val t.isLt).2.2
      = k2_pay5 (iblk2 V c 0 t) (iblk2 V c 1 t) (iblk2 V c 2 t) (iblk2 V c 3 t) (outsAt2 (F := Ideal) V c (t.val - 1) (Nat.lt_of_le_of_lt (Nat.sub_le _ _) t.isLt)).2.2 := by
  rw [outsAt2_B V c t h0]
  dsimp only
  exact out6_B (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (iblk2 V c 0 t) (iblk2 V c 1 t) (iblk2 V c 2 t) (iblk2 V c 3 t) (fun h => h0 ((hcond2_0 t).mp h))
    (outsAt2 (F := Ideal) V c (t.val - 1) (Nat.lt_of_le_of_lt (Nat.sub_le _ _) t.isLt)).2.1 (outsAt2 (F := Ideal) V c (t.val - 1) (Nat.lt_of_le_of_lt (Nat.sub_le _ _) t.isLt)).2.2

/-- After point `n` the row of column sums is the sum of the column sums of blocks `0 … n`. -/
theorem acc5_eq : ∀ (n : ℕ) (h : n < cfg2.N) (q : Fin 128),
    (outsAt2 (F := Ideal) V c n h).2.1 (ix2 (0 : Fin 1) q) = ∑ s ∈ Finset.range (n + 1), blkSum V c s q
  | 0, h, q => by
    refine (congrFun (out5_A_eq V c ⟨0, h⟩ (Nat.zero_mod 20)) (ix2 (0 : Fin 1) q)).trans ?_
    refine (pay4_apply (iblk2 V c 0 ⟨0, h⟩) (iblk2 V c 1 ⟨0, h⟩) (iblk2 V c 2 ⟨0, h⟩) (iblk2 V c 3 ⟨0, h⟩) (k2_pay1 (F := Ideal)) q).trans ?_
    rw [pay1_apply, zero_add, Finset.sum_range_one]
    exact Finset.sum_congr rfl fun y _ => pay3_blk V c ⟨0, h⟩ y q
  | n + 1, h, q => by
    have hN : cfg2.N = 20 := N_2
    have hB : ¬(⟨n + 1, h⟩ : Fin cfg2.N).val % 20 = 0 := by dsimp only; omega
    refine (congrFun (out5_B_eq V c ⟨n + 1, h⟩ hB) (ix2 (0 : Fin 1) q)).trans ?_
    refine (pay4_apply (iblk2 V c 0 ⟨n + 1, h⟩) (iblk2 V c 1 ⟨n + 1, h⟩) (iblk2 V c 2 ⟨n + 1, h⟩) (iblk2 V c 3 ⟨n + 1, h⟩) _ q).trans ?_
    rw [Finset.sum_range_succ _ (n + 1)]
    exact congrArg₂ (· + ·) (acc5_eq n (Nat.lt_of_succ_lt h) q)
      (Finset.sum_congr rfl fun y _ => pay3_blk V c ⟨n + 1, h⟩ y q)

/-- After point `n` the row of sums of squares is the sum of the column sums of squares of blocks `0 … n`. -/
theorem acc6_eq : ∀ (n : ℕ) (h : n < cfg2.N) (q : Fin 128),
    (outsAt2 (F := Ideal) V c n h).2.2 (ix2 (0 : Fin 1) q) = ∑ s ∈ Finset.range (n + 1), blkSumSq V c s q
  | 0, h, q => by
    refine (congrFun (out6_A_eq V c ⟨0, h⟩ (Nat.zero_mod 20)) (ix2 (0 : Fin 1) q)).trans ?_
    refine (pay5_apply (iblk2 V c 0 ⟨0, h⟩) (iblk2 V c 1 ⟨0, h⟩) (iblk2 V c 2 ⟨0, h⟩) (iblk2 V c 3 ⟨0, h⟩) (k2_pay2 (F := Ideal)) q).trans ?_
    rw [pay2_apply, zero_add, Finset.sum_range_one]
    exact Finset.sum_congr rfl fun y _ => congrArg₂ (· * ·) (pay3_blk V c ⟨0, h⟩ y q) (pay3_blk V c ⟨0, h⟩ y q)
  | n + 1, h, q => by
    have hN : cfg2.N = 20 := N_2
    have hB : ¬(⟨n + 1, h⟩ : Fin cfg2.N).val % 20 = 0 := by dsimp only; omega
    refine (congrFun (out6_B_eq V c ⟨n + 1, h⟩ hB) (ix2 (0 : Fin 1) q)).trans ?_
    refine (pay5_apply (iblk2 V c 0 ⟨n + 1, h⟩) (iblk2 V c 1 ⟨n + 1, h⟩) (iblk2 V c 2 ⟨n + 1, h⟩) (iblk2 V c 3 ⟨n + 1, h⟩) _ q).trans ?_
    rw [Finset.sum_range_succ _ (n + 1)]
    exact congrArg₂ (· + ·) (acc6_eq n (Nat.lt_of_succ_lt h) q)
      (Finset.sum_congr rfl fun y _ => congrArg₂ (· * ·) (pay3_blk V c ⟨n + 1, h⟩ y q) (pay3_blk V c ⟨n + 1, h⟩ y q))

end Cert.KernelIdeal.Region2

end
-- ==== Proof.Region2Stats.lean ====
/-
  The two statistics arrays after the region: each is one row, written back once after the last grid point, when the
  running row has gained every block's contribution; the sum over the 20 blocks of the sums over a block's 5000 rows is
  the sum over all 100000 rows.
-/
import proofs.«167096_j27393301414235_1_alg».proof.Proof.Gen.KernelIdeal.Frame
import proofs.«167096_j27393301414235_1_alg».proof.Proof.Region2Acc

noncomputable section

namespace Cert.KernelIdeal.Region2

open Idealize.ShloMosaic Idealize.ShloMosaic.TcCoe Idealize.SL.Sem
open Idealize.ShloMosaic.Pipeline (Dat)
open Cert.KernelIdeal Cert.KernelIdeal.Gen

open Idealize.ShloMosaic.ValueIdx

variable (V : (c : Dev nD) → (b : Ref sig .tc) → Buf (Elt Ideal) ((c : Thread nD τ).loc b)) (c : Dev nD)

/-- The sum over all rows, read at an index of the row array, block by block. -/
theorem colSum_lin_apply (j : S1x128.Idx) (q : Fin 128) (hj : j 1 = q) :
    Cert.Spec.colSum (lin V c) j = ∑ s ∈ Finset.range 20, blkSum V c s q := by
  subst hj
  unfold Cert.Spec.colSum
  exact sum_rows fun r => lin V c (ix2 r (j 1))

/-- After the last point the running row is the sum over all rows. -/
theorem row5_eq (t : Fin cfg2.N) (h19 : t.val = 19) :
    (outsAt2 (F := Ideal) V c t.val t.isLt).2.1 = Cert.Spec.colSum (lin V c) := by
  funext j
  obtain ⟨u, q, rfl⟩ : ∃ (u : Fin 1) (q : Fin 128), j = ix2 u q := ⟨j 0, j 1, eq_ix2 j⟩
  obtain rfl : u = 0 := Subsingleton.elim _ _
  rw [acc5_eq V c t.val t.isLt q, h19]
  exact (colSum_lin_apply V c (ix2 (0 : Fin 1) q) q rfl).symm

/-- The one write-back of window 5, after the last point, writes the whole row (the row array is one block). -/
theorem flushed5_eq (t : Fin cfg2.N) (hf : (cfg2.win 5).flush t = true) :
    (dat2 (F := Ideal) V c).flushed 5 t = ((cfg2.win 5).blk t).view.read (Elt Ideal) (Cert.Spec.colSum (lin V c)) := by
  have hN : cfg2.N = 20 := N_2
  have h19 : t.val = 19 := by have := (flush2_5 t).mp hf; have := t.isLt; omega
  obtain ⟨-, -, -, -, -, -, -, -, -, -, d5, e5, d6, e6⟩ := idx_facts t
  show (cfg2.win 5).cut (grid2.coords t) ((dat2 V c).after 5 t) = _
  rw [after2_5, row5_eq V c t h19]
  have hz' : (fun a => win2_5.index t a * main_v52_1.ty.shape.size a) = fun _ => 0 := funext fun a => by
    match a with
    | ⟨0, _⟩ => show win2_5.index t (0 : Fin 2) * _ = 0; rw [d5, Nat.zero_mul]
    | ⟨1, _⟩ => show win2_5.index t (1 : Fin 2) * _ = 0; rw [e5, Nat.zero_mul]
  exact (Memref.read_access_unit_zero (Elt Ideal) main_v52_1 hz' (fun a => by rw [congrFun hz' a]; simp) (Cert.Spec.colSum (lin V c))).symm

/-- An index of the row is in point `t`'s block iff each coordinate is in the block's range on its axis. -/
theorem mem_blk5 (t : Fin cfg2.N) (i : S1x128.Idx) :
    i ∈ ((cfg2.win 5).blk t).view.set ↔ ∀ a : Fin 2, win2_5.index t a * S1x128.size a ≤ (i a).val ∧ (i a).val < win2_5.index t a * S1x128.size a + S1x128.size a := by
  show i ∈ ((View.whole main_v52_1).slice (win2_5.rect t)).set ↔ _
  rw [View.set_slice_whole, Rect.mem_set_unit]
  exact Iff.rfl

/-- The last point's block is the whole row. -/
theorem cover5 (i : S1x128.Idx) : ∃ t : Fin cfg2.N, (cfg2.win 5).flush t = true ∧ i ∈ ((cfg2.win 5).blk t).view.set := by
  have hi0 : (i 0).val < 1 := (i 0).isLt
  have hi1 : (i 1).val < 128 := (i 1).isLt
  have hN : cfg2.N = 20 := N_2
  refine ⟨⟨19, by rw [hN]; omega⟩, (flush2_5 _).mpr rfl, ?_⟩
  rw [mem_blk5]
  obtain ⟨-, -, -, -, -, -, -, -, -, -, d5, e5, d6, e6⟩ := idx_facts ⟨19, by rw [hN]; omega⟩
  intro a
  match a with
  | ⟨0, _⟩ =>
    show win2_5.index _ (0 : Fin 2) * 1 ≤ (i 0).val ∧ (i 0).val < win2_5.index _ (0 : Fin 2) * 1 + 1
    rw [d5]; omega
  | ⟨1, _⟩ =>
    show win2_5.index _ (1 : Fin 2) * 128 ≤ (i 1).val ∧ (i 1).val < win2_5.index _ (1 : Fin 2) * 128 + 128
    rw [e5]; omega

/-- The array of column sums after the region: the column sums of the dense layer over all rows. -/
theorem final5 : (dat2 (F := Ideal) V c).arrAt 5 cfg2.N
    = Cert.Spec.colSum (Cert.Spec.linear (V c (Pipeline.arrRef spec2 0)) (V c (Pipeline.arrRef spec2 1)) (V c (Pipeline.arrRef spec2 2)) (V c (Pipeline.arrRef spec2 3))) :=
  (dat2 (F := Ideal) V c).arrAt_eq_of_cover 5 (Cert.Spec.colSum (lin V c)) (flushed5_eq V c) cover5

/-- The sum over all rows, read at an index of the row array, block by block. -/
theorem colSumSq_lin_apply (j : S1x128.Idx) (q : Fin 128) (hj : j 1 = q) :
    Cert.Spec.colSumSq (lin V c) j = ∑ s ∈ Finset.range 20, blkSumSq V c s q := by
  subst hj
  unfold Cert.Spec.colSumSq
  exact sum_rows fun r => lin V c (ix2 r (j 1)) * lin V c (ix2 r (j 1))

/-- After the last point the running row is the sum over all rows. -/
theorem row6_eq (t : Fin cfg2.N) (h19 : t.val = 19) :
    (outsAt2 (F := Ideal) V c t.val t.isLt).2.2 = Cert.Spec.colSumSq (lin V c) := by
  funext j
  obtain ⟨u, q, rfl⟩ : ∃ (u : Fin 1) (q : Fin 128), j = ix2 u q := ⟨j 0, j 1, eq_ix2 j⟩
  obtain rfl : u = 0 := Subsingleton.elim _ _
  rw [acc6_eq V c t.val t.isLt q, h19]
  exact (colSumSq_lin_apply V c (ix2 (0 : Fin 1) q) q rfl).symm

/-- The one write-back of window 6, after the last point, writes the whole row (the row array is one block). -/
theorem flushed6_eq (t : Fin cfg2.N) (hf : (cfg2.win 6).flush t = true) :
    (dat2 (F := Ideal) V c).flushed 6 t = ((cfg2.win 6).blk t).view.read (Elt Ideal) (Cert.Spec.colSumSq (lin V c)) := by
  have hN : cfg2.N = 20 := N_2
  have h19 : t.val = 19 := by have := (flush2_6 t).mp hf; have := t.isLt; omega
  obtain ⟨-, -, -, -, -, -, -, -, -, -, d5, e5, d6, e6⟩ := idx_facts t
  show (cfg2.win 6).cut (grid2.coords t) ((dat2 V c).after 6 t) = _
  rw [after2_6, row6_eq V c t h19]
  have hz' : (fun a => win2_6.index t a * main_v52_2.ty.shape.size a) = fun _ => 0 := funext fun a => by
    match a with
    | ⟨0, _⟩ => show win2_6.index t (0 : Fin 2) * _ = 0; rw [d6, Nat.zero_mul]
    | ⟨1, _⟩ => show win2_6.index t (1 : Fin 2) * _ = 0; rw [e6, Nat.zero_mul]
  exact (Memref.read_access_unit_zero (Elt Ideal) main_v52_2 hz' (fun a => by rw [congrFun hz' a]; simp) (Cert.Spec.colSumSq (lin V c))).symm

/-- An index of the row is in point `t`'s block iff each coordinate is in the block's range on its axis. -/
theorem mem_blk6 (t : Fin cfg2.N) (i : S1x128.Idx) :
    i ∈ ((cfg2.win 6).blk t).view.set ↔ ∀ a : Fin 2, win2_6.index t a * S1x128.size a ≤ (i a).val ∧ (i a).val < win2_6.index t a * S1x128.size a + S1x128.size a := by
  show i ∈ ((View.whole main_v52_2).slice (win2_6.rect t)).set ↔ _
  rw [View.set_slice_whole, Rect.mem_set_unit]
  exact Iff.rfl

/-- The last point's block is the whole row. -/
theorem cover6 (i : S1x128.Idx) : ∃ t : Fin cfg2.N, (cfg2.win 6).flush t = true ∧ i ∈ ((cfg2.win 6).blk t).view.set := by
  have hi0 : (i 0).val < 1 := (i 0).isLt
  have hi1 : (i 1).val < 128 := (i 1).isLt
  have hN : cfg2.N = 20 := N_2
  refine ⟨⟨19, by rw [hN]; omega⟩, (flush2_6 _).mpr rfl, ?_⟩
  rw [mem_blk6]
  obtain ⟨-, -, -, -, -, -, -, -, -, -, d5, e5, d6, e6⟩ := idx_facts ⟨19, by rw [hN]; omega⟩
  intro a
  match a with
  | ⟨0, _⟩ =>
    show win2_6.index _ (0 : Fin 2) * 1 ≤ (i 0).val ∧ (i 0).val < win2_6.index _ (0 : Fin 2) * 1 + 1
    rw [d6]; omega
  | ⟨1, _⟩ =>
    show win2_6.index _ (1 : Fin 2) * 128 ≤ (i 1).val ∧ (i 1).val < win2_6.index _ (1 : Fin 2) * 128 + 128
    rw [e6]; omega

/-- The array of column sums of squares after the region. -/
theorem final6 : (dat2 (F := Ideal) V c).arrAt 6 cfg2.N
    = Cert.Spec.colSumSq (Cert.Spec.linear (V c (Pipeline.arrRef spec2 0)) (V c (Pipeline.arrRef spec2 1)) (V c (Pipeline.arrRef spec2 2)) (V c (Pipeline.arrRef spec2 3))) :=
  (dat2 (F := Ideal) V c).arrAt_eq_of_cover 6 (Cert.Spec.colSumSq (lin V c)) (flushed6_eq V c) cover6

end Cert.KernelIdeal.Region2

end
-- ==== Proof.Region3Pay.lean ====
/-
  The value one block of the second normalisation region stores, entry by entry.

  The body takes a `[5000, 128]` block of the layer's output, the `[1, 128]` rows of variance, mean, scale and shift, and
  the `[5000, 1]` column of out-degree factors. Every operation is pointwise after the rows are spread over the 5000 rows
  and the column over the 128 columns, so entry `(p, q)` of the result depends on the block's entry `(p, q)`, the four
  rows' entries of column `q`, and the column's entry of row `p`:
  `max (((x − mean) · rsqrt (var + ε)) · g + be) 0 · n`.
-/
import proofs.«167096_j27393301414235_1_alg».proof.Proof.Gen.KernelIdeal.Skeleton
import proofs.«167096_j27393301414235_1_alg».proof.Proof.Spec
import proofs.«167096_j27393301414235_1_alg».proof.Proof.Region1Col
import Idealize.ShloMosaic.PureOps.Ideal.Laws

noncomputable section

namespace Cert.KernelIdeal.Region3

open Cert.KernelIdeal Cert.KernelIdeal.Gen Idealize.ShloMosaic Idealize.ShloMosaic.ValueIdx

/-- One row, cast to its own shape and spread over the 5000 rows, reads the row's entry of the column. -/
theorem row_apply (v : FVec Ideal S1x128 .f32) (p : Fin 5000) (q : Fin 128) :
    broadcastTo S5000x128 (shapeCast S1x128 v shapeCasts_S1x128_S1x128) broadcasts_S1x128_S5000x128 (ix2 p q)
      = v (ix2 (0 : Fin 1) q) := by
  rw [shapeCast_self]
  exact broadcastTo_1b_ab_apply v broadcasts_S1x128_S5000x128 p q

/-- The column, cast to its own shape and spread over the 128 columns, reads the column's entry of the row. -/
theorem col_apply (v : FVec Ideal S5000x1 .f32) (p : Fin 5000) (q : Fin 128) :
    broadcastTo S5000x128 (shapeCast S5000x1 v shapeCasts_S5000x1_S5000x1) broadcasts_S5000x1_S5000x128 (ix2 p q)
      = v (ix2 p (0 : Fin 1)) := by
  rw [shapeCast_self]
  exact Region1.broadcastTo_col_apply v broadcasts_S5000x1_S5000x128 p q

/-- Entry `(p, q)` of the stored block. -/
theorem pay_apply (x : FVec Ideal S5000x128 .f32) (var mean g be : FVec Ideal S1x128 .f32) (n : FVec Ideal S5000x1 .f32)
    (p : Fin 5000) (q : Fin 128) :
    k3_pay1 (F := Ideal) x var mean g be n (ix2 p q)
      = max (((x (ix2 p q) - mean (ix2 (0 : Fin 1) q)) * Ideal.rsqrt (var (ix2 (0 : Fin 1) q) + Cert.Spec.eps))
          * g (ix2 (0 : Fin 1) q) + be (ix2 (0 : Fin 1) q)) 0 * n (ix2 p (0 : Fin 1)) := by
  have e0 : shapeCast S5000x128 x shapeCasts_S5000x128_S5000x128 = x := shapeCast_self _ _
  have e5 : broadcastTo S5000x128 (rsqrt (F := Ideal) (addf (F := Ideal) (shapeCast S1x128 var shapeCasts_S1x128_S1x128)
        (broadcast S1x128 (Scalar.ofBits (F := Ideal) .f32 0x3727C5AC#32)))) broadcasts_S1x128_S5000x128 (ix2 p q)
      = Ideal.rsqrt (var (ix2 (0 : Fin 1) q) + Cert.Spec.eps) := by
    rw [broadcastTo_1b_ab_apply _ broadcasts_S1x128_S5000x128 p q, shapeCast_self]
    rfl
  unfold k3_pay1
  simp only [mulf_apply, maximumf_apply, addf_apply, subf_apply, broadcast_apply, e0, e5, row_apply mean p q, row_apply g p q,
    row_apply be p q, col_apply n p q]
  show max _ (Ideal.ofBits .f32 0x00000000#32) * _ = _
  rw [Ideal.ofBits_zero_f32]

end Cert.KernelIdeal.Region3

end
-- ==== Proof.Region3.lean ====
/-
  Region 3 (the second normalise, rectify and scale by rows) as one function of the arrays the region finds.

  The grid has 20 points. Point `t` holds rows `5000 t … 5000 t + 4999` of the layer's output and of the out-degree
  column, and the whole `[1, 128]` rows of mean, variance, scale and shift; it writes back the same rows of the result.
  Entry `(p, q)` of what point `t` writes is the pointwise formula at row `5000 t + p`, column `q` of the whole arrays,
  so every block written back is a block of ONE function of the arrays, `Cert.Spec.bnReluScale`; the 20 blocks cover
  the 100000 rows (row `r` lies in block `r / 5000`), so the array ends holding that function.
-/
import proofs.«167096_j27393301414235_1_alg».proof.Proof.Gen.KernelIdeal.Frame
import proofs.«167096_j27393301414235_1_alg».proof.Proof.Spec
import proofs.«167096_j27393301414235_1_alg».proof.Proof.Region3Pay
import Idealize.ShloMosaic.Lib.Pipeline.Value

set_option maxRecDepth 16384

noncomputable section

namespace Cert.KernelIdeal.Region3

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the 20 points: the block windows (0, 5, 6) sit at block `(t, 0)`, the row windows (1 … 4) at
    block `(0, 0)`. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

/-- Entry `(p, q)` of point `t`'s block of the layer's output is entry `(5000 t + p, q)` of the array. -/
theorem blk0_apply (c : Dev nD) (t : Fin cfg3.N) (p : Fin 5000) (q : Fin 128) (i : S100000x128.Idx)
    (hi0 : (i 0).val = t.val * 5000 + p.val) (hi1 : (i 1).val = q.val) :
    (iblk3 V c 0 t : Vec Ideal S5000x128 .f32) (ix2 p q) = (V c (Pipeline.arrRef spec3 0) : S100000x128.Idx → EReal) i := by
  obtain ⟨e0, e1, -⟩ := idx_facts t
  unfold iblk3
  rw [View.read_apply]
  refine congrArg (V c (Pipeline.arrRef spec3 0) : S100000x128.Idx → EReal) (funext fun a => Fin.ext ?_)
  match a with
  | ⟨0, _⟩ => show win3_0.index t (0 : Fin 2) * 5000 + 1 * p.val = (i 0).val; rw [e0, hi0]; omega
  | ⟨1, _⟩ => show win3_0.index t (1 : Fin 2) * 128 + 1 * q.val = (i 1).val; rw [e1, hi1]; omega

/-- Entry `(p, 0)` of point `t`'s block of the out-degree column is entry `(5000 t + p, 0)` of the column. -/
theorem blk5_apply (c : Dev nD) (t : Fin cfg3.N) (p : Fin 5000) (i : S100000x1.Idx)
    (hi0 : (i 0).val = t.val * 5000 + p.val) :
    (iblk3 V c 5 t : Vec Ideal S5000x1 .f32) (ix2 p (0 : Fin 1)) = (V c (Pipeline.arrRef spec3 5) : S100000x1.Idx → EReal) i := by
  obtain ⟨-, -, -, -, -, -, -, -, -, -, e0, e1, -⟩ := idx_facts t
  unfold iblk3
  rw [View.read_apply]
  refine congrArg (V c (Pipeline.arrRef spec3 5) : S100000x1.Idx → EReal) (funext fun a => Fin.ext ?_)
  match a with
  | ⟨0, _⟩ => show win3_5.index t (0 : Fin 2) * 5000 + 1 * p.val = (i 0).val; rw [e0, hi0]; omega
  | ⟨1, _⟩ => show win3_5.index t (1 : Fin 2) * 1 + 1 * (0 : Fin 1).val = (i 1).val; rw [e1]; have hlt : (i 1).val < 1 := (i 1).isLt; show 0 * 1 + 1 * 0 = (i 1).val; omega

/-- A row window's block at any point is the whole row array. -/
theorem blk1_apply (c : Dev nD) (t : Fin cfg3.N) (q : Fin 128) (i : S1x128.Idx) (hi1 : (i 1).val = q.val) :
    (iblk3 V c 1 t : Vec Ideal S1x128 .f32) (ix2 (0 : Fin 1) q) = (V c (Pipeline.arrRef spec3 1) : S1x128.Idx → EReal) i := by
  obtain ⟨-, -, e0, e1, -⟩ := idx_facts t
  unfold iblk3
  rw [View.read_apply]
  refine congrArg (V c (Pipeline.arrRef spec3 1) : S1x128.Idx → EReal) (funext fun a => Fin.ext ?_)
  match a with
  | ⟨0, _⟩ => show win3_1.index t (0 : Fin 2) * 1 + 1 * (0 : Fin 1).val = (i 0).val; rw [e0]; have hlt : (i 0).val < 1 := (i 0).isLt; show 0 * 1 + 1 * 0 = (i 0).val; omega
  | ⟨1, _⟩ => show win3_1.index t (1 : Fin 2) * 128 + 1 * q.val = (i 1).val; rw [e1, hi1]; omega

theorem blk2_apply (c : Dev nD) (t : Fin cfg3.N) (q : Fin 128) (i : S1x128.Idx) (hi1 : (i 1).val = q.val) :
    (iblk3 V c 2 t : Vec Ideal S1x128 .f32) (ix2 (0 : Fin 1) q) = (V c (Pipeline.arrRef spec3 2) : S1x128.Idx → EReal) i := by
  obtain ⟨-, -, -, -, e0, e1, -⟩ := idx_facts t
  unfold iblk3
  rw [View.read_apply]
  refine congrArg (V c (Pipeline.arrRef spec3 2) : S1x128.Idx → EReal) (funext fun a => Fin.ext ?_)
  match a with
  | ⟨0, _⟩ => show win3_2.index t (0 : Fin 2) * 1 + 1 * (0 : Fin 1).val = (i 0).val; rw [e0]; have hlt : (i 0).val < 1 := (i 0).isLt; show 0 * 1 + 1 * 0 = (i 0).val; omega
  | ⟨1, _⟩ => show win3_2.index t (1 : Fin 2) * 128 + 1 * q.val = (i 1).val; rw [e1, hi1]; omega

theorem blk3_apply (c : Dev nD) (t : Fin cfg3.N) (q : Fin 128) (i : S1x128.Idx) (hi1 : (i 1).val = q.val) :
    (iblk3 V c 3 t : Vec Ideal S1x128 .f32) (ix2 (0 : Fin 1) q) = (V c (Pipeline.arrRef spec3 3) : S1x128.Idx → EReal) i := by
  obtain ⟨-, -, -, -, -, -, e0, e1, -⟩ := idx_facts t
  unfold iblk3
  rw [View.read_apply]
  refine congrArg (V c (Pipeline.arrRef spec3 3) : S1x128.Idx → EReal) (funext fun a => Fin.ext ?_)
  match a with
  | ⟨0, _⟩ => show win3_3.index t (0 : Fin 2) * 1 + 1 * (0 : Fin 1).val = (i 0).val; rw [e0]; have hlt : (i 0).val < 1 := (i 0).isLt; show 0 * 1 + 1 * 0 = (i 0).val; omega
  | ⟨1, _⟩ => show win3_3.index t (1 : Fin 2) * 128 + 1 * q.val = (i 1).val; rw [e1, hi1]; omega

theorem blk4_apply (c : Dev nD) (t : Fin cfg3.N) (q : Fin 128) (i : S1x128.Idx) (hi1 : (i 1).val = q.val) :
    (iblk3 V c 4 t : Vec Ideal S1x128 .f32) (ix2 (0 : Fin 1) q) = (V c (Pipeline.arrRef spec3 4) : S1x128.Idx → EReal) i := by
  obtain ⟨-, -, -, -, -, -, -, -, e0, e1, -⟩ := idx_facts t
  unfold iblk3
  rw [View.read_apply]
  refine congrArg (V c (Pipeline.arrRef spec3 4) : S1x128.Idx → EReal) (funext fun a => Fin.ext ?_)
  match a with
  | ⟨0, _⟩ => show win3_4.index t (0 : Fin 2) * 1 + 1 * (0 : Fin 1).val = (i 0).val; rw [e0]; have hlt : (i 0).val < 1 := (i 0).isLt; show 0 * 1 + 1 * 0 = (i 0).val; omega
  | ⟨1, _⟩ => show win3_4.index t (1 : Fin 2) * 128 + 1 * q.val = (i 1).val; rw [e1, hi1]; omega

set_option maxHeartbeats 1000000 in
/-- WHAT POINT `t` WRITES BACK is block `t` of the specification of the arrays as the region finds them: the body's
    entry `(p, q)` reads every block where the output's block sits in its array. -/
theorem flushed_eq (c : Dev nD) (t : Fin cfg3.N) :
    (dat3 (F := Ideal) V c).flushed 6 t = ((cfg3.win 6).blk t).view.read (Elt Ideal)
      (Cert.Spec.bnReluScale (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5))) := by
  show (cfg3.win 6).cut (grid3.coords t) ((dat3 V c).after 6 t) = _
  rw [after3_6]
  unfold out3_6
  rw [View.canon_unit_zero hz]
  simp only [View.ld_unit_zero (S := S5000x128) hz, View.ld_unit_zero (S := S1x128) hz, View.ld_unit_zero (S := S5000x1) hz]
  obtain ⟨-, -, -, -, -, -, -, -, -, -, -, -, e0, e1⟩ := idx_facts t
  funext j
  obtain ⟨p, q, rfl⟩ : ∃ (p : Fin 5000) (q : Fin 128), j = ix2 p q := ⟨j 0, j 1, eq_ix2 j⟩
  have hi0 : ((((cfg3.win 6).blk t).view.emb (ix2 p q)) 0).val = t.val * 5000 + p.val := by
    show win3_6.index t (0 : Fin 2) * 5000 + 1 * p.val = _; rw [e0]; omega
  have hi1 : ((((cfg3.win 6).blk t).view.emb (ix2 p q)) 1).val = q.val := by
    show win3_6.index t (1 : Fin 2) * 128 + 1 * q.val = _; rw [e1]; omega
  show k3_pay1 (F := Ideal) (iblk3 V c 0 t) (iblk3 V c 2 t) (iblk3 V c 1 t) (iblk3 V c 3 t) (iblk3 V c 4 t) (iblk3 V c 5 t) (ix2 p q)
    = Cert.Spec.bnReluScale (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5)) (((cfg3.win 6).blk t).view.emb (ix2 p q))
  refine (pay_apply (iblk3 V c 0 t) (iblk3 V c 2 t) (iblk3 V c 1 t) (iblk3 V c 3 t) (iblk3 V c 4 t) (iblk3 V c 5 t) p q).trans ?_
  rw [blk0_apply V c t p q (((cfg3.win 6).blk t).view.emb (ix2 p q)) hi0 hi1,
    blk1_apply V c t q (ix2 (0 : Fin 1) ((((cfg3.win 6).blk t).view.emb (ix2 p q)) 1)) hi1,
    blk2_apply V c t q (ix2 (0 : Fin 1) ((((cfg3.win 6).blk t).view.emb (ix2 p q)) 1)) hi1,
    blk3_apply V c t q (ix2 (0 : Fin 1) ((((cfg3.win 6).blk t).view.emb (ix2 p q)) 1)) hi1,
    blk4_apply V c t q (ix2 (0 : Fin 1) ((((cfg3.win 6).blk t).view.emb (ix2 p q)) 1)) hi1,
    blk5_apply V c t p (ix2 ((((cfg3.win 6).blk t).view.emb (ix2 p q)) 0) (0 : Fin 1)) hi0]
  rfl

/-- An index of the array is in point `t`'s block iff each coordinate is in the block's range on its axis. -/
theorem mem_blk (t : Fin cfg3.N) (i : S100000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v59).slice (win3_6.rect t)).set ↔ _
  rw [View.set_slice_whole, Rect.mem_set_unit]
  exact Iff.rfl

/-- Every index of the array is in the block of the point its row selects: row `r` lies in block `r / 5000`. -/
theorem cover (i : S100000x128.Idx) : ∃ t : Fin cfg3.N, (cfg3.win 6).flush t = true ∧ i ∈ ((cfg3.win 6).blk t).view.set := by
  have hi0 : (i 0).val < 100000 := (i 0).isLt
  have hi1 : (i 1).val < 128 := (i 1).isLt
  have hN : cfg3.N = 20 := N_3
  let t : Fin cfg3.N := ⟨(i 0).val / 5000, by rw [hN]; omega⟩
  obtain ⟨-, -, -, -, -, -, -, -, -, -, -, -, e0, e1⟩ := idx_facts t
  have ht : t.val = (i 0).val / 5000 := rfl
  refine ⟨t, flush3_6 t, ?_⟩
  rw [mem_blk]
  intro a
  match a with
  | ⟨0, _⟩ => show win3_6.index t (0 : Fin 2) * 5000 ≤ (i 0).val ∧ (i 0).val < win3_6.index t (0 : Fin 2) * 5000 + 5000; rw [e0, ht]; omega
  | ⟨1, _⟩ => show win3_6.index t (1 : Fin 2) * 128 ≤ (i 1).val ∧ (i 1).val < win3_6.index t (1 : Fin 2) * 128 + 128; rw [e1]; omega

/-- THE ARRAY after the region: the specification of the arrays as the region finds them. -/
theorem final6 (c : Dev nD) : (dat3 (F := Ideal) V c).arrAt 6 cfg3.N
    = Cert.Spec.bnReluScale (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5)) :=
  (dat3 (F := Ideal) V c).arrAt_eq_of_cover 6 _ (fun t _ => flushed_eq V c t) cover

end Cert.KernelIdeal.Region3

end
-- ==== Proof.Region4Pay.lean ====
/-
  The value one block of the last dense layer stores, entry by entry.

  The body takes a `[5000, 128]` block of aggregated features, the `[5000, 1]` column of in-degree factors, the
  `[128, 64]` weight matrix and the `[1, 64]` bias row. It scales row `p` of the block by the column's entry of row
  `p`, multiplies by the weights (a product accumulated into zeros: at the exact instance the plain sum over the
  contracted index, and the narrowing casts of the operands change nothing) and adds the bias row to every row:
  entry `(p, q)` is `∑ k, (x (p, k) · n (p, 0)) · W (k, q) + b (0, q)`.
-/
import proofs.«167096_j27393301414235_1_alg».proof.Proof.Gen.KernelIdeal.Skeleton
import proofs.«167096_j27393301414235_1_alg».proof.Proof.Region1Col
import Idealize.ShloMosaic.PureOps.Ideal.Laws

noncomputable section

namespace Cert.KernelIdeal.Region4

open Cert.KernelIdeal Cert.KernelIdeal.Gen Idealize.ShloMosaic Idealize.ShloMosaic.ValueIdx

/-- The product's left operand is read at the output's row and the contracted index, -/
theorem lhs_0 (i : S5000x64.Idx) (k : dot_S5000x128_S128x64_S5000x64_1_0_0_1_n_n.contr.Idx) : (dot_S5000x128_S128x64_S5000x64_1_0_0_1_n_n.lhsIdx i k 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_1 (i : S5000x64.Idx) (k : dot_S5000x128_S128x64_S5000x64_1_0_0_1_n_n.contr.Idx) : (dot_S5000x128_S128x64_S5000x64_1_0_0_1_n_n.lhsIdx i k 1).val = (k ⟨0, by decide⟩).val :=
  dot_S5000x128_S128x64_S5000x64_1_0_0_1_n_n.lhsIdx_val_of_single rfl i k
/-- and the right operand at the contracted index and the output's column. -/
theorem rhs_0 (i : S5000x64.Idx) (k : dot_S5000x128_S128x64_S5000x64_1_0_0_1_n_n.contr.Idx) : (dot_S5000x128_S128x64_S5000x64_1_0_0_1_n_n.rhsIdx i k 0).val = (k ⟨0, by decide⟩).val :=
  dot_S5000x128_S128x64_S5000x64_1_0_0_1_n_n.rhsIdx_val_of_single rfl i k
theorem rhs_1 (i : S5000x64.Idx) (k : dot_S5000x128_S128x64_S5000x64_1_0_0_1_n_n.contr.Idx) : (dot_S5000x128_S128x64_S5000x64_1_0_0_1_n_n.rhsIdx i k 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The product accumulated into zeros, at entry `(p, q)`: the sum over the 128 contracted indices. -/
theorem matmul_apply (l : FVec Ideal S5000x128 .bf16) (r : FVec Ideal S128x64 .bf16) (p : Fin 5000) (q : Fin 64) :
    matmul dot_S5000x128_S128x64_S5000x64_1_0_0_1_n_n none l r (constant (F := Ideal) S5000x64 .f32 0x00000000#32) (ix2 p q)
      = ∑ k : Fin 128, l (ix2 p k) * r (ix2 k q) := by
  simp only [matmul]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The bias row, cast to its own shape and spread over the 5000 rows, reads the row's entry of the column. -/
theorem row_apply (v : FVec Ideal S1x64 .f32) (p : Fin 5000) (q : Fin 64) :
    broadcastTo S5000x64 (shapeCast S1x64 v shapeCasts_S1x64_S1x64) broadcasts_S1x64_S5000x64 (ix2 p q)
      = v (ix2 (0 : Fin 1) q) := by
  rw [shapeCast_self]
  exact broadcastTo_1b_ab_apply v broadcasts_S1x64_S5000x64 p q

/-- The column, cast to its own shape and spread over the 128 columns, reads the column's entry of the row. -/
theorem col_apply (v : FVec Ideal S5000x1 .f32) (p : Fin 5000) (k : Fin 128) :
    broadcastTo S5000x128 (shapeCast S5000x1 v shapeCasts_S5000x1_S5000x1) broadcasts_S5000x1_S5000x128 (ix2 p k)
      = v (ix2 p (0 : Fin 1)) := by
  rw [shapeCast_self]
  exact Region1.broadcastTo_col_apply v broadcasts_S5000x1_S5000x128 p k

/-- Entry `(p, q)` of the stored block. -/
theorem pay_apply (x : FVec Ideal S5000x128 .f32) (n : FVec Ideal S5000x1 .f32) (W : FVec Ideal S128x64 .f32) (b : FVec Ideal S1x64 .f32)
    (p : Fin 5000) (q : Fin 64) :
    k4_pay1 (F := Ideal) x n W b (ix2 p q)
      = (∑ k : Fin 128, (x (ix2 p k) * n (ix2 p (0 : Fin 1))) * W (ix2 k q)) + b (ix2 (0 : Fin 1) q) := by
  have e0 : shapeCast S5000x128 x shapeCasts_S5000x128_S5000x128 = x := shapeCast_self _ _
  unfold k4_pay1
  simp only [addf_apply, row_apply b p q, matmul_apply, truncf_apply, mulf_apply, e0, col_apply n p]

end Cert.KernelIdeal.Region4

end
-- ==== Proof.Region4Out.lean ====
/-
  The last dense layer's output array after its region. Point `t` loads rows `5000·t … 5000·t + 4999` of the aggregated
  features and of the in-degree factors, and the whole weight matrix and bias row; the block it stores and writes back
  is rows `5000·t …` of the dense layer of the whole arrays; the 20 blocks tile the 100000 rows (row `r` is in block
  `r / 5000`), so the array ends holding the dense layer.
-/
import proofs.«167096_j27393301414235_1_alg».proof.Proof.Gen.KernelIdeal.Frame
import proofs.«167096_j27393301414235_1_alg».proof.Proof.Spec
import proofs.«167096_j27393301414235_1_alg».proof.Proof.Region0Rows
import proofs.«167096_j27393301414235_1_alg».proof.Proof.Region4Pay
import Idealize.ShloMosaic.Lib.Pipeline.Value

noncomputable section

namespace Cert.KernelIdeal.Region4

open Idealize.ShloMosaic Idealize.ShloMosaic.TcCoe Idealize.SL.Sem Idealize.ShloMosaic.ValueIdx
open Idealize.ShloMosaic.Pipeline (Dat)
open Cert.KernelIdeal Cert.KernelIdeal.Gen
open Cert.KernelIdeal.Region0 (row row_val)

theorem hz2 : (![0, 0] : Fin 2 → Nat) = fun _ => 0 := funext fun a => by fin_cases a <;> rfl

/-- What a point leaves in its output block: the one stored block, the dense layer of the loaded blocks. -/
theorem out_eq {F : FTy → Type} [FloatOps F] (x0 : Vec F S5000x128 .f32) (x1 : Vec F S5000x1 .f32) (x2 : Vec F S128x64 .f32)
    (x3 : Vec F S1x64 .f32) : out4_4 x0 x1 x2 x3 = k4_pay1 x0 x1 x2 x3 := by
  unfold out4_4
  rw [View.canon_unit_zero hz2]
  simp only [View.ld_unit_zero (S := S5000x128) hz2, View.ld_unit_zero (S := S5000x1) hz2,
    View.ld_unit_zero (S := S128x64) hz2, View.ld_unit_zero (S := S1x64) hz2]

variable (V : (c : Dev nD) → (b : Ref sig .tc) → Buf (Elt Ideal) ((c : Thread nD τ).loc b)) (c : Dev nD)

/-- The four arrays the region reads, as it finds them: aggregated features, in-degree factors, weights, bias. -/
abbrev arr0 : Cert.Spec.Arr 100000 128 := V c (Pipeline.arrRef spec4 0)
abbrev arr1 : Cert.Spec.Arr 100000 1 := V c (Pipeline.arrRef spec4 1)
abbrev arr2 : Cert.Spec.Arr 128 64 := V c (Pipeline.arrRef spec4 2)
abbrev arr3 : Cert.Spec.Arr 1 64 := V c (Pipeline.arrRef spec4 3)

/-- The dense layer of those arrays. -/
abbrev lin : Cert.Spec.Arr 100000 64 := Cert.Spec.linear (arr0 V c) (arr1 V c) (arr2 V c) (arr3 V c)

/-- The index maps over the grid: the row windows (features, degree factors, output) move with the point, the others stay. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

theorem blk0_apply (t : Fin cfg4.N) (p : Fin 5000) (k : Fin 128) :
    iblk4 (F := Ideal) V c 0 t (ix2 p k) = arr0 V c (ix2 (row t.val p) k) := by
  have hN : t.val < 20 := lt_of_lt_of_eq t.isLt (show cfg4.N = 20 from N_4)
  obtain ⟨e0, e1, -⟩ := idx_facts t
  unfold iblk4
  rw [View.read_apply]
  refine congrArg (V c (Pipeline.arrRef spec4 0)) (funext fun a => Fin.ext ?_)
  match a with
  | ⟨0, _⟩ =>
    show win4_0.index t (0 : Fin 2) * 5000 + 1 * p.val = (row t.val p).val
    rw [row_val t.val hN p, e0]; omega
  | ⟨1, _⟩ =>
    show win4_0.index t (1 : Fin 2) * 128 + 1 * k.val = k.val
    rw [e1]; omega

theorem blk1_apply (t : Fin cfg4.N) (p : Fin 5000) :
    iblk4 (F := Ideal) V c 1 t (ix2 p (0 : Fin 1)) = arr1 V c (ix2 (row t.val p) (0 : Fin 1)) := by
  have hN : t.val < 20 := lt_of_lt_of_eq t.isLt (show cfg4.N = 20 from N_4)
  obtain ⟨-, -, e0, e1, -⟩ := idx_facts t
  unfold iblk4
  rw [View.read_apply]
  refine congrArg (V c (Pipeline.arrRef spec4 1)) (funext fun a => Fin.ext ?_)
  match a with
  | ⟨0, _⟩ =>
    show win4_1.index t (0 : Fin 2) * 5000 + 1 * p.val = (row t.val p).val
    rw [row_val t.val hN p, e0]; omega
  | ⟨1, _⟩ =>
    show win4_1.index t (1 : Fin 2) * 1 + 1 * 0 = 0
    rw [e1]

theorem blk2_apply (t : Fin cfg4.N) (k : Fin 128) (q : Fin 64) :
    iblk4 (F := Ideal) V c 2 t (ix2 k q) = arr2 V c (ix2 k q) := by
  obtain ⟨-, -, -, -, e0, e1, -⟩ := idx_facts t
  unfold iblk4
  rw [View.read_apply]
  refine congrArg (V c (Pipeline.arrRef spec4 2)) (funext fun a => Fin.ext ?_)
  match a with
  | ⟨0, _⟩ =>
    show win4_2.index t (0 : Fin 2) * 128 + 1 * k.val = k.val
    rw [e0]; omega
  | ⟨1, _⟩ =>
    show win4_2.index t (1 : Fin 2) * 64 + 1 * q.val = q.val
    rw [e1]; omega

theorem blk3_apply (t : Fin cfg4.N) (q : Fin 64) :
    iblk4 (F := Ideal) V c 3 t (ix2 (0 : Fin 1) q) = arr3 V c (ix2 (0 : Fin 1) q) := by
  obtain ⟨-, -, -, -, -, -, e0, e1, -⟩ := idx_facts t
  unfold iblk4
  rw [View.read_apply]
  refine congrArg (V c (Pipeline.arrRef spec4 3)) (funext fun a => Fin.ext ?_)
  match a with
  | ⟨0, _⟩ =>
    show win4_3.index t (0 : Fin 2) * 1 + 1 * 0 = 0
    rw [e0]
  | ⟨1, _⟩ =>
    show win4_3.index t (1 : Fin 2) * 64 + 1 * q.val = q.val
    rw [e1]; omega

/-- The block point `t` stores is rows `5000·t …` of the dense layer of the whole arrays. -/
theorem pay_blk (t : Fin cfg4.N) (p : Fin 5000) (q : Fin 64) :
    k4_pay1 (F := Ideal) (iblk4 V c 0 t) (iblk4 V c 1 t) (iblk4 V c 2 t) (iblk4 V c 3 t) (ix2 p q)
      = lin V c (ix2 (row t.val p) q) := by
  refine (pay_apply (iblk4 V c 0 t) (iblk4 V c 1 t) (iblk4 V c 2 t) (iblk4 V c 3 t) p q).trans ?_
  show _ = (∑ k : Fin 128, (arr0 V c (ix2 (row t.val p) k) * arr1 V c (ix2 (row t.val p) (0 : Fin 1))) * arr2 V c (ix2 k q))
    + arr3 V c (ix2 (0 : Fin 1) q)
  rw [blk1_apply, blk3_apply]
  refine congrArg (· + _) (Finset.sum_congr rfl fun k _ => ?_)
  rw [blk0_apply, blk2_apply]

/-- What point `t` writes back is block `t` of the dense layer of the whole arrays. -/
theorem flushed4_eq (t : Fin cfg4.N) :
    (dat4 (F := Ideal) V c).flushed 4 t = ((cfg4.win 4).blk t).view.read (Elt Ideal) (lin V c) := by
  have hN : t.val < 20 := lt_of_lt_of_eq t.isLt (show cfg4.N = 20 from N_4)
  obtain ⟨-, -, -, -, -, -, -, -, e0, e1⟩ := idx_facts t
  show (cfg4.win 4).cut (grid4.coords t) ((dat4 V c).after 4 t) = _
  rw [after4_4, out_eq]
  funext j
  obtain ⟨p, q, rfl⟩ : ∃ (p : Fin 5000) (q : Fin 64), j = ix2 p q := ⟨j 0, j 1, eq_ix2 j⟩
  show k4_pay1 (F := Ideal) (iblk4 V c 0 t) (iblk4 V c 1 t) (iblk4 V c 2 t) (iblk4 V c 3 t) (ix2 p q)
    = lin V c (((cfg4.win 4).blk t).view.emb (ix2 p q))
  rw [pay_blk]
  refine congrArg (lin V c) (funext fun a => Fin.ext ?_)
  match a with
  | ⟨0, _⟩ =>
    show (row t.val p).val = win4_4.index t (0 : Fin 2) * 5000 + 1 * p.val
    rw [row_val t.val hN p, e0]; omega
  | ⟨1, _⟩ =>
    show q.val = win4_4.index t (1 : Fin 2) * 64 + 1 * q.val
    rw [e1]; omega

/-- An index of the array is in point `t`'s block iff each coordinate is in the block's range on its axis. -/
theorem mem_blk4 (t : Fin cfg4.N) (i : S100000x64.Idx) :
    i ∈ ((cfg4.win 4).blk t).view.set ↔ ∀ a : Fin 2, win4_4.index t a * S5000x64.size a ≤ (i a).val ∧ (i a).val < win4_4.index t a * S5000x64.size a + S5000x64.size a := by
  show i ∈ ((View.whole main_v70).slice (win4_4.rect t)).set ↔ _
  rw [View.set_slice_whole, Rect.mem_set_unit]
  exact Iff.rfl

/-- Every index of the array is in the block of the point its row falls in. -/
theorem cover4 (i : S100000x64.Idx) : ∃ t : Fin cfg4.N, (cfg4.win 4).flush t = true ∧ i ∈ ((cfg4.win 4).blk t).view.set := by
  have hi0 : (i 0).val < 100000 := (i 0).isLt
  have hi1 : (i 1).val < 64 := (i 1).isLt
  have hN : cfg4.N = 20 := N_4
  refine ⟨⟨(i 0).val / 5000, by rw [hN]; omega⟩, flush4_4 _, ?_⟩
  rw [mem_blk4]
  obtain ⟨-, -, -, -, -, -, -, -, e0, e1⟩ := idx_facts ⟨(i 0).val / 5000, by rw [hN]; omega⟩
  intro a
  match a with
  | ⟨0, _⟩ =>
    show win4_4.index _ (0 : Fin 2) * 5000 ≤ (i 0).val ∧ (i 0).val < win4_4.index _ (0 : Fin 2) * 5000 + 5000
    rw [e0]; dsimp only; omega
  | ⟨1, _⟩ =>
    show win4_4.index _ (1 : Fin 2) * 64 ≤ (i 1).val ∧ (i 1).val < win4_4.index _ (1 : Fin 2) * 64 + 64
    rw [e1]; omega

/-- The output array after the region is the dense layer of the arrays the region finds. -/
theorem final4 : (dat4 (F := Ideal) V c).arrAt 4 cfg4.N
    = Cert.Spec.linear (V c (Pipeline.arrRef spec4 0)) (V c (Pipeline.arrRef spec4 1)) (V c (Pipeline.arrRef spec4 2)) (V c (Pipeline.arrRef spec4 3)) :=
  (dat4 (F := Ideal) V c).arrAt_eq_of_cover 4 (lin V c) (fun t _ => flushed4_eq V c t) (cover4)

end Cert.KernelIdeal.Region4

end
-- ==== Proof.KernelValue.lean ====
/-
  The idealized kernel's result array as one function of the launch memory. The program is five block-pipelined
  regions with stretches of whole-array operations between them. Region by region: the first dense layer of the
  aggregated, degree-scaled features and its column sums and sums of squares; the one-pass column mean and variance
  from those sums and the row count; normalisation, rectification and row scaling; the same for the second layer; the
  last dense layer. Reading each region's arrays as what the stretch and region before left, back to the launch
  memory, composes these into the network's one-pass arrangement.
-/
import proofs.«167096_j27393301414235_1_alg».proof.Proof.Gen.KernelIdeal.Frame
import proofs.«167096_j27393301414235_1_alg».proof.Proof.Spec
import proofs.«167096_j27393301414235_1_alg».proof.Proof.Net
import proofs.«167096_j27393301414235_1_alg».proof.Proof.KernelStages
import proofs.«167096_j27393301414235_1_alg».proof.Proof.Region0Out
import proofs.«167096_j27393301414235_1_alg».proof.Proof.Region0Stats
import proofs.«167096_j27393301414235_1_alg».proof.Proof.Region1
import proofs.«167096_j27393301414235_1_alg».proof.Proof.Region2Out
import proofs.«167096_j27393301414235_1_alg».proof.Proof.Region2Stats
import proofs.«167096_j27393301414235_1_alg».proof.Proof.Region3
import proofs.«167096_j27393301414235_1_alg».proof.Proof.Region4Out

noncomputable section

namespace Cert.KernelIdeal.Whole

open Cert.KernelIdeal Cert.KernelIdeal.Gen
open Idealize.ShloMosaic Idealize.ShloMosaic.TcCoe Idealize.SL.Sem
open Idealize.ShloMosaic.ValueIdx
open Cert.Spec Cert.Net Cert.KernelIdeal.Stages

/-! ## Small readings -/

/-- A one-column array spread over 128 columns reads its row's entry. -/
theorem bcast_col_apply (v : FVec Ideal S100000x1 .f32) (i : S100000x128.Idx) :
    broadcastInDim S100000x128 ![0, 1] bcast_S100000x1_S100000x128_0_1 v i = v (ix2 (i 0) (0 : Fin 1)) :=
  broadcastInDim_apply ![0, 1] bcast_S100000x1_S100000x128_0_1 v i (ix2 (i 0) (0 : Fin 1)) (fun a => by
    match a with
    | ⟨0, _⟩ => show (i 0).val = if (100000 : Nat) = 1 then 0 else (i 0).val; rw [if_neg (by decide)]
    | ⟨1, _⟩ => show 0 = if (1 : Nat) = 1 then 0 else (i 1).val; rw [if_pos rfl])

/-- The features with every row scaled by its degree factor. -/
theorem scaled_eq (x : FVec Ideal S100000x128 .f32) (v : FVec Ideal S100000x1 .f32) :
    mulf x (broadcastInDim S100000x128 ![0, 1] bcast_S100000x1_S100000x128_0_1 v) = Net.scaleRows x v := by
  unfold Net.scaleRows
  funext i
  exact (mulf_apply _ _ i).trans (congrArg (x i * ·) (bcast_col_apply v i))

/-- A scalar literal spread over an array reads the literal's value at every index. -/
theorem splat_apply {t : Shape} (dims : Fin 0 → Fin t.rank) (h : S_.BroadcastsInDim t dims) (b : BitVec 32) (j : t.Idx) :
    broadcastInDim t dims h (constant (F := Ideal) S_ .f32 b) j = Ideal.ofBits .f32 b := rfl

/-- The row count spread over a row reads the row count. -/
theorem rowsRow_apply (j : S1x128.Idx) : rowsRow j = Net.rows := by
  unfold rowsRow Net.rows
  exact splat_apply ![] bcast_S_S1x128 0x47C35000#32 j

/-- The host's division of two rows, entry by entry. -/
theorem hostDivf_apply (s r : FVec Ideal S1x128 .f32) (j : S1x128.Idx) : Host.divf s r j = Ideal.div (s j) (r j) := rfl

/-- Column sums divided by the row count are the one-pass means. -/
theorem mean_eq (h : Arr 100000 128) :
    Host.divf (F := Ideal) (Spec.colSum h : FVec Ideal S1x128 .f32) rowsRow = Net.meanOne h := by
  unfold Net.meanOne
  funext j
  exact (hostDivf_apply _ _ j).trans (congrArg (Ideal.div (Spec.colSum h j)) (rowsRow_apply j))

/-- Mean of squares minus squared mean is the one-pass variance. -/
theorem var_eq (h : Arr 100000 128) :
    subf (Host.divf (F := Ideal) (Spec.colSumSq h : FVec Ideal S1x128 .f32) rowsRow)
      (mulf (Host.divf (F := Ideal) (Spec.colSum h : FVec Ideal S1x128 .f32) rowsRow) (Host.divf (F := Ideal) (Spec.colSum h : FVec Ideal S1x128 .f32) rowsRow))
    = Net.varOne h := by
  rw [mean_eq]
  unfold Net.varOne
  funext j
  refine (subf_apply _ _ j).trans (congrArg₂ (· - ·) ?_ (mulf_apply _ _ j))
  exact (hostDivf_apply _ _ j).trans (congrArg (Ideal.div (Spec.colSumSq h j)) (rowsRow_apply j))

/-! ## The network's parameters, read off the launch memory -/

variable (m : (ℓ : Loc nD τ sig) → Buf (Elt Ideal) ℓ) (ρ : Dev nD → PrngReg) (c : Dev nD)

/-- The aggregation along the launch memory's edge lists, and the two degree factors. -/
abbrev agg : Arr 100000 128 → Arr 100000 128 := aggK (m ((c : Thread nD τ).loc main_arg1)) (m ((c : Thread nD τ).loc main_arg2))
abbrev nout : Arr 100000 1 := col (degFactor (m ((c : Thread nD τ).loc main_arg1)))
abbrev nin : Arr 100000 1 := col (degFactor (m ((c : Thread nD τ).loc main_arg2)))
/-- The features, and the three layers' weights, biases, scales and shifts. -/
abbrev x0 : Arr 100000 128 := (m ((c : Thread nD τ).loc main_arg0))
abbrev w1 : Arr 128 128 := (m ((c : Thread nD τ).loc main_arg3))
abbrev b1 : Arr 1 128 := rowK (m ((c : Thread nD τ).loc main_arg4))
abbrev g1 : Arr 1 128 := rowK (m ((c : Thread nD τ).loc main_arg5))
abbrev be1 : Arr 1 128 := rowK (m ((c : Thread nD τ).loc main_arg6))
abbrev w2 : Arr 128 128 := (m ((c : Thread nD τ).loc main_arg7))
abbrev b2 : Arr 1 128 := rowK (m ((c : Thread nD τ).loc main_arg8))
abbrev g2 : Arr 1 128 := rowK (m ((c : Thread nD τ).loc main_arg9))
abbrev be2 : Arr 1 128 := rowK (m ((c : Thread nD τ).loc main_arg10))
abbrev w3 : Arr 128 64 := (m ((c : Thread nD τ).loc main_arg11))
abbrev b3 : Arr 1 64 := rowK64 (m ((c : Thread nD τ).loc main_arg12))
/-- The first layer before normalisation, the input of the second aggregation, the second layer before normalisation,
    the input of the third aggregation (one-pass arrangement). -/
abbrev hd1 : Arr 100000 128 := Net.hid1 (agg m c) (nout m c) (nin m c) (x0 m c) (w1 m c) (b1 m c)
abbrev ac1 : Arr 100000 128 := Net.actOne1 (agg m c) (nout m c) (nin m c) (x0 m c) (w1 m c) (b1 m c) (g1 m c) (be1 m c)
abbrev hd2 : Arr 100000 128 := Net.hidOne2 (agg m c) (nout m c) (nin m c) (x0 m c) (w1 m c) (b1 m c) (g1 m c) (be1 m c) (w2 m c) (b2 m c)
abbrev ac2 : Arr 100000 128 := Net.actOne2 (agg m c) (nout m c) (nin m c) (x0 m c) (w1 m c) (b1 m c) (g1 m c) (be1 m c) (w2 m c) (b2 m c) (g2 m c) (be2 m c)

/-! ## The first dense layer and its column statistics -/

theorem in0_0 : V1 m ρ c (Pipeline.arrRef spec0 0) = agg m c (Net.scaleRows (x0 m c) (nout m c)) :=
  (w1_v33 m ρ c).trans (congrArg (aggK (m ((c : Thread nD τ).loc main_arg1)) (m ((c : Thread nD τ).loc main_arg2))) (scaled_eq _ _))
theorem in0_1 : V1 m ρ c (Pipeline.arrRef spec0 1) = nin m c := w1_v14 m ρ c
theorem in0_2 : V1 m ρ c (Pipeline.arrRef spec0 2) = w1 m c := w1_arg3 m ρ c
theorem in0_3 : V1 m ρ c (Pipeline.arrRef spec0 3) = b1 m c := w1_v15 m ρ c

theorem lin0 : Spec.linear (V1 m ρ c (Pipeline.arrRef spec0 0)) (V1 m ρ c (Pipeline.arrRef spec0 1))
    (V1 m ρ c (Pipeline.arrRef spec0 2)) (V1 m ρ c (Pipeline.arrRef spec0 3)) = hd1 m c := by
  rw [in0_0 m ρ c, in0_1 m ρ c, in0_2 m ρ c, in0_3 m ρ c]
  rfl

theorem out0_4 : W2 m ρ c (Proc.devRef .tc main_v34_0) = hd1 m c :=
  (W2_arr m ρ c 4).trans ((Region0.final4 (V1 m ρ) c).trans (lin0 m ρ c))
theorem out0_5 : W2 m ρ c (Proc.devRef .tc main_v34_1) = Spec.colSum (hd1 m c) :=
  (W2_arr m ρ c 5).trans ((Region0.final5 (V1 m ρ) c).trans (congrArg Spec.colSum (lin0 m ρ c)))
theorem out0_6 : W2 m ρ c (Proc.devRef .tc main_v34_2) = Spec.colSumSq (hd1 m c) :=
  (W2_arr m ρ c 6).trans ((Region0.final6 (V1 m ρ) c).trans (congrArg Spec.colSumSq (lin0 m ρ c)))

/-! ## The first normalisation -/

theorem in1_0 : V3 m ρ c (Pipeline.arrRef spec1 0) = hd1 m c := (w3_v34_0 m ρ c).trans (out0_4 m ρ c)
theorem in1_1 : V3 m ρ c (Pipeline.arrRef spec1 1) = Net.meanOne (hd1 m c) :=
  (w3_v36 m ρ c).trans ((congrArg (fun s => Host.divf (F := Ideal) s rowsRow) (out0_5 m ρ c)).trans (mean_eq _))
theorem in1_2 : V3 m ρ c (Pipeline.arrRef spec1 2) = Net.varOne (hd1 m c) :=
  (w3_v40 m ρ c).trans ((congrArg₂ (fun s q => subf (Host.divf (F := Ideal) q rowsRow)
    (mulf (Host.divf (F := Ideal) s rowsRow) (Host.divf (F := Ideal) s rowsRow))) (out0_5 m ρ c) (out0_6 m ρ c)).trans (var_eq _))
theorem in1_3 : V3 m ρ c (Pipeline.arrRef spec1 3) = g1 m c := (w3_v18 m ρ c).trans (w1_v18 m ρ c)
theorem in1_4 : V3 m ρ c (Pipeline.arrRef spec1 4) = be1 m c := (w3_v20 m ρ c).trans (w1_v20 m ρ c)
theorem in1_5 : V3 m ρ c (Pipeline.arrRef spec1 5) = nout m c := (w3_v13 m ρ c).trans (w1_v13 m ρ c)

theorem bn1 : Spec.bnReluScale (V3 m ρ c (Pipeline.arrRef spec1 0)) (V3 m ρ c (Pipeline.arrRef spec1 1)) (V3 m ρ c (Pipeline.arrRef spec1 2))
    (V3 m ρ c (Pipeline.arrRef spec1 3)) (V3 m ρ c (Pipeline.arrRef spec1 4)) (V3 m ρ c (Pipeline.arrRef spec1 5)) = ac1 m c := by
  rw [in1_0 m ρ c, in1_1 m ρ c, in1_2 m ρ c, in1_3 m ρ c, in1_4 m ρ c, in1_5 m ρ c]
  rfl

theorem out1_6 : W4 m ρ c (Proc.devRef .tc main_v41) = ac1 m c :=
  (W4_arr m ρ c 6).trans ((Region1.final6 (V3 m ρ) c).trans (bn1 m ρ c))

/-! ## The second dense layer and its column statistics -/

theorem in2_0 : V5 m ρ c (Pipeline.arrRef spec2 0) = agg m c (ac1 m c) :=
  (w5_v51 m ρ c).trans (congr (congr (congrArg aggK (w4_arg1 m ρ c)) (w4_arg2 m ρ c)) (out1_6 m ρ c))
theorem in2_1 : V5 m ρ c (Pipeline.arrRef spec2 1) = nin m c := (w5_v14 m ρ c).trans (w1_v14 m ρ c)
theorem in2_2 : V5 m ρ c (Pipeline.arrRef spec2 2) = w2 m c := w5_arg7 m ρ c
theorem in2_3 : V5 m ρ c (Pipeline.arrRef spec2 3) = b2 m c := (w5_v16 m ρ c).trans (w1_v16 m ρ c)

theorem lin2 : Spec.linear (V5 m ρ c (Pipeline.arrRef spec2 0)) (V5 m ρ c (Pipeline.arrRef spec2 1))
    (V5 m ρ c (Pipeline.arrRef spec2 2)) (V5 m ρ c (Pipeline.arrRef spec2 3)) = hd2 m c := by
  rw [in2_0 m ρ c, in2_1 m ρ c, in2_2 m ρ c, in2_3 m ρ c]
  rfl

theorem out2_4 : W6 m ρ c (Proc.devRef .tc main_v52_0) = hd2 m c :=
  (W6_arr m ρ c 4).trans ((Region2.final4 (V5 m ρ) c).trans (lin2 m ρ c))
theorem out2_5 : W6 m ρ c (Proc.devRef .tc main_v52_1) = Spec.colSum (hd2 m c) :=
  (W6_arr m ρ c 5).trans ((Region2.final5 (V5 m ρ) c).trans (congrArg Spec.colSum (lin2 m ρ c)))
theorem out2_6 : W6 m ρ c (Proc.devRef .tc main_v52_2) = Spec.colSumSq (hd2 m c) :=
  (W6_arr m ρ c 6).trans ((Region2.final6 (V5 m ρ) c).trans (congrArg Spec.colSumSq (lin2 m ρ c)))

/-! ## The second normalisation -/

theorem in3_0 : V7 m ρ c (Pipeline.arrRef spec3 0) = hd2 m c := (w7_v52_0 m ρ c).trans (out2_4 m ρ c)
theorem in3_1 : V7 m ρ c (Pipeline.arrRef spec3 1) = Net.meanOne (hd2 m c) :=
  (w7_v54 m ρ c).trans ((congrArg (fun s => Host.divf (F := Ideal) s rowsRow) (out2_5 m ρ c)).trans (mean_eq _))
theorem in3_2 : V7 m ρ c (Pipeline.arrRef spec3 2) = Net.varOne (hd2 m c) :=
  (w7_v58 m ρ c).trans ((congrArg₂ (fun s q => subf (Host.divf (F := Ideal) q rowsRow)
    (mulf (Host.divf (F := Ideal) s rowsRow) (Host.divf (F := Ideal) s rowsRow))) (out2_5 m ρ c) (out2_6 m ρ c)).trans (var_eq _))
theorem in3_3 : V7 m ρ c (Pipeline.arrRef spec3 3) = g2 m c := (w7_v19 m ρ c).trans (w1_v19 m ρ c)
theorem in3_4 : V7 m ρ c (Pipeline.arrRef spec3 4) = be2 m c := (w7_v21 m ρ c).trans (w1_v21 m ρ c)
theorem in3_5 : V7 m ρ c (Pipeline.arrRef spec3 5) = nout m c := (w7_v13 m ρ c).trans (w1_v13 m ρ c)

theorem bn3 : Spec.bnReluScale (V7 m ρ c (Pipeline.arrRef spec3 0)) (V7 m ρ c (Pipeline.arrRef spec3 1)) (V7 m ρ c (Pipeline.arrRef spec3 2))
    (V7 m ρ c (Pipeline.arrRef spec3 3)) (V7 m ρ c (Pipeline.arrRef spec3 4)) (V7 m ρ c (Pipeline.arrRef spec3 5)) = ac2 m c := by
  rw [in3_0 m ρ c, in3_1 m ρ c, in3_2 m ρ c, in3_3 m ρ c, in3_4 m ρ c, in3_5 m ρ c]
  rfl

theorem out3_6 : W8 m ρ c (Proc.devRef .tc main_v59) = ac2 m c :=
  (W8_arr m ρ c 6).trans ((Region3.final6 (V7 m ρ) c).trans (bn3 m ρ c))

/-! ## The last dense layer -/

theorem in4_0 : V9 m ρ c (Pipeline.arrRef spec4 0) = agg m c (ac2 m c) :=
  (w9_v69 m ρ c).trans (congr (congr (congrArg aggK (w8_arg1 m ρ c)) (w8_arg2 m ρ c)) (out3_6 m ρ c))
theorem in4_1 : V9 m ρ c (Pipeline.arrRef spec4 1) = nin m c := (w9_v14 m ρ c).trans (w1_v14 m ρ c)
theorem in4_2 : V9 m ρ c (Pipeline.arrRef spec4 2) = w3 m c := w9_arg11 m ρ c
theorem in4_3 : V9 m ρ c (Pipeline.arrRef spec4 3) = b3 m c := (w9_v17 m ρ c).trans (w1_v17 m ρ c)

theorem lin4 : Spec.linear (V9 m ρ c (Pipeline.arrRef spec4 0)) (V9 m ρ c (Pipeline.arrRef spec4 1))
    (V9 m ρ c (Pipeline.arrRef spec4 2)) (V9 m ρ c (Pipeline.arrRef spec4 3))
    = Net.outOne (agg m c) (nout m c) (nin m c) (x0 m c) (w1 m c) (b1 m c) (g1 m c) (be1 m c) (w2 m c) (b2 m c) (g2 m c) (be2 m c) (w3 m c) (b3 m c) := by
  rw [in4_0 m ρ c, in4_1 m ρ c, in4_2 m ρ c, in4_3 m ρ c]
  rfl

/-- The kernel's result array: the network's one-pass arrangement of the launch memory. -/
theorem kernel_value : W10 m ρ c (Proc.devRef .tc main_v70)
    = Net.outOne (aggK (m ((c : Thread nD τ).loc main_arg1)) (m ((c : Thread nD τ).loc main_arg2))) (col (degFactor (m ((c : Thread nD τ).loc main_arg1)))) (col (degFactor (m ((c : Thread nD τ).loc main_arg2)))) (m ((c : Thread nD τ).loc main_arg0)) (m ((c : Thread nD τ).loc main_arg3))
        (rowK (m ((c : Thread nD τ).loc main_arg4))) (rowK (m ((c : Thread nD τ).loc main_arg5))) (rowK (m ((c : Thread nD τ).loc main_arg6))) (m ((c : Thread nD τ).loc main_arg7)) (rowK (m ((c : Thread nD τ).loc main_arg8))) (rowK (m ((c : Thread nD τ).loc main_arg9))) (rowK (m ((c : Thread nD τ).loc main_arg10))) (m ((c : Thread nD τ).loc main_arg11)) (rowK64 (m ((c : Thread nD τ).loc main_arg12))) :=
  (W10_arr m ρ c 4).trans ((Region4.final4 (V9 m ρ) c).trans (lin4 m ρ c))

end Cert.KernelIdeal.Whole

end
-- ==== Proof.RealValued.lean ====
/-
  Real-valued extended reals: an extended real that is the coercion of a real number, and arrays all of whose
  entries are such. Sums, products, differences, maxima and finite sums of real-valued entries are real-valued;
  so are a quotient by a nonzero real and the reciprocal square root of a positive real. The three
  single-precision literals the network uses denote the reals 100000, 1 and a positive rational close to 1e-5.
-/
import Mathlib.Data.EReal.Basic
import Mathlib.Data.EReal.Operations
import Mathlib.Algebra.BigOperators.Group.Finset.Basic
import Idealize.ShloMosaic.PureOps.Ideal

noncomputable section

namespace Cert.RealValued

open Idealize.ShloMosaic

/-- An extended real that is a real number. -/
def IsReal (x : EReal) : Prop := ∃ r : ℝ, x = (r : EReal)

/-- An array all of whose entries are real numbers. -/
def AllReal {ι : Type*} (a : ι → EReal) : Prop := ∀ i, IsReal (a i)

theorem isReal_coe (r : ℝ) : IsReal (r : EReal) := ⟨r, rfl⟩

theorem isReal_zero : IsReal 0 := ⟨0, rfl⟩

theorem isReal_one : IsReal 1 := ⟨1, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.neg {x : EReal} (hx : IsReal x) : IsReal (-x) := by
  obtain ⟨a, rfl⟩ := hx
  exact ⟨-a, (EReal.coe_neg a).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

/-- A maximum is one of its two arguments. -/
theorem isReal_max {x y : EReal} (hx : IsReal x) (hy : IsReal y) : IsReal (max x y) := by
  rcases max_choice x y with h | h
  · rw [h]; exact hx
  · rw [h]; exact hy

/-- The coercion commutes with the maximum (it is monotone). -/
theorem coe_max (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The coercion commutes with finite sums. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of real numbers is a real number. -/
theorem isReal_sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

theorem isReal_sum_univ {ι : Type*} [Fintype ι] (f : ι → EReal) (h : ∀ i, IsReal (f i)) :
    IsReal (∑ i, f i) :=
  isReal_sum Finset.univ f fun i _ => h i

/-- A quotient by a nonzero real number. -/
theorem IsReal.div_coe {x : EReal} (hx : IsReal x) {y : ℝ} (hy : y ≠ 0) : IsReal (Ideal.div x (y : EReal)) := by
  rw [Ideal.div_coe hy]
  exact hx.mul (isReal_coe _)

/-- The reciprocal square root of a positive real number. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

theorem isReal_rsqrt_coe {r : ℝ} (hr : 0 < r) : IsReal (Ideal.rsqrt (r : EReal)) := by
  rw [rsqrt_coe_pos hr]
  exact isReal_coe _

/-- The reciprocal square root of a real number clamped below by one. -/
theorem isReal_rsqrt_max_one {x : EReal} (hx : IsReal x) : IsReal (Ideal.rsqrt (max x 1)) := by
  obtain ⟨a, rfl⟩ := hx
  have h1 : (1 : EReal) = ((1 : ℝ) : EReal) := rfl
  rw [h1, coe_max]
  exact isReal_rsqrt_coe (lt_of_lt_of_le one_pos (le_max_right a 1))

/-! ### The single-precision literals -/

/-- The pattern `0x47C35000` denotes `(2^23 + 4411392) · 2^(143 - 127 - 23) = 100000`. -/
theorem ofBits_rows : Ideal.ofBits .f32 0x47C35000#32 = ((100000 : ℝ) : EReal) := by
  simp [Ideal.ofBits, Ideal.ieee, -EReal.coe_mul]; norm_num

/-- The pattern `0x3F800000` denotes `1`. -/
theorem ofBits_one : Ideal.ofBits .f32 0x3F800000#32 = 1 := by
  simp [Ideal.ofBits, Ideal.ieee, -EReal.coe_mul]; norm_num

/-- The pattern `0x3727C5AC` denotes `(2^23 + 2606508) · 2^(110 - 127 - 23) = 10995116 / 2^40`. -/
theorem ofBits_eps : Ideal.ofBits .f32 0x3727C5AC#32 = ((10995116 / 1099511627776 : ℝ) : EReal) := by
  simp [Ideal.ofBits, Ideal.ieee, -EReal.coe_mul]; norm_num

theorem ofBits_eps_pos : ∃ e : ℝ, 0 < e ∧ Ideal.ofBits .f32 0x3727C5AC#32 = (e : EReal) :=
  ⟨10995116 / 1099511627776, by norm_num, ofBits_eps⟩

end Cert.RealValued

end
-- ==== Proof.NetEq.lean ====
/-
  The two arrangements of the network agree on real-valued arguments.

  Over the extended reals the one-pass variance `E[y²] − E[y]²` and the two-pass variance `E[(y − E[y])²]` of a
  column agree as soon as every entry of the column is a real number: both are then coercions of real numbers, and
  over the reals the identity is elementary algebra. (At an infinite entry it fails: `∞ − ∞` is not `0`.) So
  real-valuedness is carried through the layers: every layer maps real-valued arrays to real-valued arrays, because
  the two-pass variance of a real column is a nonnegative real and the additive constant is positive, which keeps
  the reciprocal square root real.
-/
import proofs.«167096_j27393301414235_1_alg».proof.Proof.Net
import proofs.«167096_j27393301414235_1_alg».proof.Proof.RealValued

noncomputable section

namespace Cert.Net

open Idealize.ShloMosaic Idealize.ShloMosaic.ValueIdx Cert.Spec Cert.RealValued

/-! ### The variance identity over the reals -/

/-- With `c` the reciprocal of the number of terms: `c·∑x² − (c·∑x)² = c·∑(x − c·∑x)²`. -/
theorem real_var_identity {ι : Type*} [Fintype ι] (x : ι → ℝ) (c : ℝ) (hc : c * (Fintype.card ι : ℝ) = 1) :
    (∑ i, x i * x i) * c - ((∑ i, x i) * c) * ((∑ i, x i) * c)
      = (∑ i, (x i - (∑ k, x k) * c) * (x i - (∑ k, x k) * c)) * c := by
  have h1 : ∑ i, (x i - (∑ k, x k) * c) * (x i - (∑ k, x k) * c)
      = ∑ i, x i * x i - 2 * ((∑ k, x k) * c) * ∑ i, x i
        + (Fintype.card ι : ℝ) * (((∑ k, x k) * c) * ((∑ k, x k) * c)) := by
    have h2 : ∀ i, (x i - (∑ k, x k) * c) * (x i - (∑ k, x k) * c)
        = x i * x i - 2 * ((∑ k, x k) * c) * x i + ((∑ k, x k) * c) * ((∑ k, x k) * c) := fun i => by ring
    simp_rw [h2]
    rw [Finset.sum_add_distrib, Finset.sum_sub_distrib, ← Finset.mul_sum, Finset.sum_const, Finset.card_univ,
      nsmul_eq_mul]
  rw [h1]
  linear_combination (-((∑ k, x k) * c) * ((∑ k, x k) * c)) * hc

/-! ### Means and variances -/

/-- The two spellings of the column mean are the same sum divided by the same number. -/
theorem meanOne_eq_meanTwo (h : Arr 100000 128) : meanOne h = meanTwo h := rfl

/-- The number of rows is the real number `100000`. -/
theorem rows_eq : rows = ((100000 : ℝ) : EReal) := ofBits_rows

theorem div_rows (x : EReal) : Ideal.div x rows = x * ((1 / 100000 : ℝ) : EReal) := by
  rw [rows_eq, Ideal.div_coe (by norm_num)]

/-- On a real-valued array the one-pass and the two-pass column variances agree. -/
theorem varOne_eq_varTwo (h : Arr 100000 128) (hh : AllReal h) : varOne h = varTwo h := by
  choose f hf using hh
  funext j
  simp only [varOne, varTwo, meanOne, meanTwo, colSum, colSumSq, div_rows, hf]
  simp only [← EReal.coe_mul, coe_sum, ← EReal.coe_sub]
  rw [EReal.coe_eq_coe_iff]
  exact real_var_identity (fun r => f (ix2 r (j 1))) (1 / 100000) (by rw [Fintype.card_fin]; norm_num)

/-! ### Every layer keeps arrays real-valued -/

theorem allReal_scaleRows {x : Arr 100000 128} {n : Arr 100000 1} (hx : AllReal x) (hn : AllReal n) :
    AllReal (scaleRows x n) := fun i => (hx i).mul (hn _)

theorem allReal_linear {fo : Nat} {a : Arr 100000 128} {n : Arr 100000 1} {W : Arr 128 fo} {b : Arr 1 fo}
    (ha : AllReal a) (hn : AllReal n) (hW : AllReal W) (hb : AllReal b) : AllReal (linear a n W b) :=
  fun _ => (isReal_sum_univ _ fun _ => ((ha _).mul (hn _)).mul (hW _)).add (hb _)

/-- The normalised layer is real-valued as soon as the variance plus the additive constant is a positive real. -/
theorem allReal_bnReluScale {h : Arr 100000 128} {mean var g be : Arr 1 128} {n : Arr 100000 1}
    (hh : AllReal h) (hm : AllReal mean) (hv : ∀ j, ∃ r : ℝ, 0 < r ∧ var j + eps = (r : EReal))
    (hg : AllReal g) (hbe : AllReal be) (hn : AllReal n) : AllReal (bnReluScale h mean var g be n) := by
  intro i
  obtain ⟨r, hr, hv'⟩ := hv (ix2 (0 : Fin 1) (i 1))
  have hrs : IsReal (Ideal.rsqrt (var (ix2 (0 : Fin 1) (i 1)) + eps)) := by
    rw [hv']; exact isReal_rsqrt_coe hr
  exact (isReal_max (((((hh i).sub (hm _)).mul hrs).mul (hg _)).add (hbe _)) isReal_zero).mul (hn _)

theorem allReal_meanTwo {h : Arr 100000 128} (hh : AllReal h) : AllReal (meanTwo h) := fun j => by
  show IsReal (Ideal.div _ rows)
  rw [div_rows]
  exact (isReal_sum_univ _ fun _ => hh _).mul (isReal_coe _)

/-- The two-pass variance of a real column is a nonnegative real, so adding the positive constant gives a
    positive real. -/
theorem varTwo_add_eps_pos {h : Arr 100000 128} (hh : AllReal h) (j : (⟨2, ![1, 128]⟩ : Shape).Idx) :
    ∃ r : ℝ, 0 < r ∧ varTwo h j + eps = (r : EReal) := by
  obtain ⟨m, hm⟩ := allReal_meanTwo hh j
  choose f hf using hh
  obtain ⟨e, he, hee⟩ := ofBits_eps_pos
  refine ⟨(∑ r : Fin 100000, (f (ix2 r (j 1)) - m) * (f (ix2 r (j 1)) - m)) * (1 / 100000) + e, ?_, ?_⟩
  · have h0 : 0 ≤ ∑ r : Fin 100000, (f (ix2 r (j 1)) - m) * (f (ix2 r (j 1)) - m) :=
      Finset.sum_nonneg fun r _ => mul_self_nonneg _
    exact add_pos_of_nonneg_of_pos (mul_nonneg h0 (by norm_num)) he
  · simp only [varTwo, div_rows, hm, hf, eps, hee]
    simp only [← EReal.coe_sub, ← EReal.coe_mul, coe_sum, ← EReal.coe_add]

theorem bnReluScale_one_eq_two {h : Arr 100000 128} (hh : AllReal h) (g be : Arr 1 128) (n : Arr 100000 1) :
    bnReluScale h (meanOne h) (varOne h) g be n = bnReluScale h (meanTwo h) (varTwo h) g be n := by
  rw [meanOne_eq_meanTwo, varOne_eq_varTwo h hh]

theorem allReal_bnReluScale_two {h : Arr 100000 128} {g be : Arr 1 128} {n : Arr 100000 1} (hh : AllReal h)
    (hg : AllReal g) (hbe : AllReal be) (hn : AllReal n) :
    AllReal (bnReluScale h (meanTwo h) (varTwo h) g be n) :=
  allReal_bnReluScale hh (allReal_meanTwo hh) (varTwo_add_eps_pos hh) hg hbe hn

/-! ### The whole network -/

section
variable (Agg : Arr 100000 128 → Arr 100000 128) (nout nin : Arr 100000 1)
variable (a0 : Arr 100000 128) (W1 : Arr 128 128) (b1 g1 be1 : Arr 1 128) (W2 : Arr 128 128) (b2 g2 be2 : Arr 1 128)
  (W3 : Arr 128 64) (b3 : Arr 1 64)

/-- On real-valued arguments, with an aggregation that keeps arrays real-valued, the one-pass and the two-pass
    arrangements of the network compute the same output. -/
theorem outOne_eq_outTwo (hAgg : ∀ x, AllReal x → AllReal (Agg x)) (hnout : AllReal nout) (hnin : AllReal nin)
    (ha0 : AllReal a0) (hW1 : AllReal W1) (hb1 : AllReal b1) (hg1 : AllReal g1) (hbe1 : AllReal be1)
    (hW2 : AllReal W2) (hb2 : AllReal b2) (hg2 : AllReal g2) (hbe2 : AllReal be2) :
    outOne Agg nout nin a0 W1 b1 g1 be1 W2 b2 g2 be2 W3 b3
      = outTwo Agg nout nin a0 W1 b1 g1 be1 W2 b2 g2 be2 W3 b3 := by
  have h1 : AllReal (hid1 Agg nout nin a0 W1 b1) :=
    allReal_linear (hAgg _ (allReal_scaleRows ha0 hnout)) hnin hW1 hb1
  have e1 : actOne1 Agg nout nin a0 W1 b1 g1 be1 = actTwo1 Agg nout nin a0 W1 b1 g1 be1 :=
    bnReluScale_one_eq_two h1 g1 be1 nout
  have r1 : AllReal (actTwo1 Agg nout nin a0 W1 b1 g1 be1) := allReal_bnReluScale_two h1 hg1 hbe1 hnout
  have e2 : hidOne2 Agg nout nin a0 W1 b1 g1 be1 W2 b2 = hidTwo2 Agg nout nin a0 W1 b1 g1 be1 W2 b2 := by
    unfold hidOne2 hidTwo2; rw [e1]
  have h2 : AllReal (hidTwo2 Agg nout nin a0 W1 b1 g1 be1 W2 b2) := allReal_linear (hAgg _ r1) hnin hW2 hb2
  have e3 : actOne2 Agg nout nin a0 W1 b1 g1 be1 W2 b2 g2 be2
      = actTwo2 Agg nout nin a0 W1 b1 g1 be1 W2 b2 g2 be2 := by
    unfold actOne2 actTwo2; rw [e2]; exact bnReluScale_one_eq_two h2 g2 be2 nout
  unfold outOne outTwo; rw [e3]
end

end Cert.Net

end
-- ==== Proof.RealHost.lean ====
/-
  The host's gather and accumulating scatter keep arrays real-valued: every entry of a gather is an entry of
  its operand, and every entry of an accumulating scatter is an operand entry plus a finite sum of update entries.
-/
import Idealize.ShloMosaic.PureOps.Contract
import Idealize.ShloMosaic.PureOps.Ideal
import proofs.«167096_j27393301414235_1_alg».proof.Proof.RealValued

noncomputable section

namespace Cert.RealValued

open Idealize.ShloMosaic

/-- Every entry of a gather is an entry of its operand. -/
theorem gather_mem {s si t : Shape} {w : Nat} (d : GatherDims s si t) (x : s.Idx → EReal) (idx : IVec si w)
    (j : t.Idx) : ∃ i, Host.gather d x idx j = x i := ⟨_, rfl⟩

theorem allReal_gather {s si t : Shape} {w : Nat} (d : GatherDims s si t) {x : s.Idx → EReal} (idx : IVec si w)
    (hx : AllReal x) : AllReal (Host.gather d x idx) := fun _ => hx _

theorem allReal_scatterAdd {s si u : Shape} {w : Nat} {φ : FTy} (d : ScatterDims s si u) {x : FVec Ideal s φ}
    (idx : IVec si w) {upd : FVec Ideal u φ} (hx : AllReal x) (hu : AllReal upd) :
    AllReal (Host.scatterAdd (F := Ideal) d x idx upd) := fun i => by
  show IsReal (Ideal.hostScatterAdd d x idx upd i)
  unfold Ideal.hostScatterAdd
  exact (hx i).add (isReal_sum _ _ fun j _ => hu j)

end Cert.RealValued

end
-- ==== Proof.ParamReal.lean ====
/-
  The kernel's host-side arrays are real-valued.

  The degree factor of a node is the reciprocal square root of a count clamped below by one; the aggregation gathers
  rows and scatter-adds them from zero; a vector becomes a one-column or a one-row array by a shape cast, which only
  re-indexes. So each of these is real-valued as soon as its floating-point operand is (the degree factor always),
  whatever the integer edge lists are.
-/
import proofs.«167096_j27393301414235_1_alg».proof.Proof.KernelStages
import proofs.«167096_j27393301414235_1_alg».proof.Proof.RealValued
import proofs.«167096_j27393301414235_1_alg».proof.Proof.RealHost
import Idealize.ShloMosaic.Lib.ValueLayout
import Idealize.ShloMosaic.Lib.Pipeline.Value
import Idealize.ShloMosaic.PureOps.Ideal.Laws

noncomputable section

namespace Cert.KernelIdeal.ParamReal

open Cert.KernelIdeal Cert.KernelIdeal.Gen Cert.KernelIdeal.Stages
open Idealize.ShloMosaic Idealize.ShloMosaic.TcCoe Idealize.SL.Sem
open Idealize.ShloMosaic.ValueIdx Cert.RealValued

/-! ### Re-indexings and pointwise operations keep arrays real-valued -/

/-- A shape cast reads its operand at some index. -/
theorem allReal_shapeCast {s t : Shape} {x : s.Idx → EReal} (h : s.ShapeCasts t) (hx : AllReal x) :
    AllReal (shapeCast t x h) := fun _ => hx _

/-- A broadcast reads its operand at some index. -/
theorem allReal_broadcastInDim {s t : Shape} (dims : Fin s.rank → Fin t.rank) (h : s.BroadcastsInDim t dims)
    {x : s.Idx → EReal} (hx : AllReal x) : AllReal (broadcastInDim t dims h x) := fun _ => hx _

/-- A constant array of a real literal. -/
theorem allReal_constant (s : Shape) (φ : FTy) (b : BitVec φ.bits) (hb : IsReal (Ideal.ofBits φ b)) :
    AllReal (constant (F := Ideal) s φ b) := fun _ => hb

theorem isReal_ofBits_zero : IsReal (Ideal.ofBits .f32 0x00000000#32) := by
  rw [Ideal.ofBits_zero_f32]; exact isReal_zero

theorem isReal_ofBits_one : IsReal (Ideal.ofBits .f32 0x3F800000#32) := by
  rw [ofBits_one]; exact isReal_one

/-! ### A vector as a one-column or a one-row array -/

/-- An `[a]` array cast to `[a, 1]` reads, at `(i, u)`, the operand at `i`. -/
theorem shapeCast_a_a1_eq {α : Type} {a : ℕ} (x : (⟨1, ![a]⟩ : Shape).Idx → α)
    (h : (⟨1, ![a]⟩ : Shape).ShapeCasts ⟨2, ![a, 1]⟩) :
    shapeCast ⟨2, ![a, 1]⟩ x h = fun i => x (ix1 (i 0)) := by
  funext i
  refine shapeCast_apply x h i (ix1 (i 0)) ?_
  have h1 : (i 1).val < 1 := (i 1).isLt
  rw [Shape.rowMajor_val_one, Shape.rowMajor_val_two]
  show (i 0).val = (i 0).val * 1 + (i 1).val
  omega

/-- An `[a]` array cast to `[1, a]` reads, at `(u, j)`, the operand at `j`. -/
theorem shapeCast_a_1a_eq {α : Type} {a : ℕ} (x : (⟨1, ![a]⟩ : Shape).Idx → α)
    (h : (⟨1, ![a]⟩ : Shape).ShapeCasts ⟨2, ![1, a]⟩) :
    shapeCast ⟨2, ![1, a]⟩ x h = fun j => x (ix1 (j 1)) := by
  funext j
  refine shapeCast_apply x h j (ix1 (j 1)) ?_
  have h0 : (j 0).val < 1 := (j 0).isLt
  have h0' : (j 0).val = 0 := by omega
  rw [Shape.rowMajor_val_one, Shape.rowMajor_val_two]
  show (j 1).val = (j 0).val * a + (j 1).val
  rw [h0', Nat.zero_mul, Nat.zero_add]

theorem col_eq (v : FVec Ideal S100000 .f32) : col v = fun i => v (ix1 (i 0)) := shapeCast_a_a1_eq v _

theorem rowK_eq (b : FVec Ideal S128 .f32) : rowK b = fun j => b (ix1 (j 1)) := shapeCast_a_1a_eq b _

theorem rowK64_eq (b : FVec Ideal S64 .f32) : rowK64 b = fun j => b (ix1 (j 1)) := shapeCast_a_1a_eq b _

theorem allReal_col {v : FVec Ideal S100000 .f32} (hv : AllReal v) : AllReal (col v) := allReal_shapeCast _ hv

theorem allReal_rowK {b : FVec Ideal S128 .f32} (hb : AllReal b) : AllReal (rowK b) := allReal_shapeCast _ hb

theorem allReal_rowK64 {b : FVec Ideal S64 .f32} (hb : AllReal b) : AllReal (rowK64 b) := allReal_shapeCast _ hb

/-! ### The degree factor and the aggregation -/

/-- A scalar literal spread over an array reads the literal's value at every index. -/
theorem splat_apply {t : Shape} (dims : Fin 0 → Fin t.rank) (h : S_.BroadcastsInDim t dims) (b : BitVec 32) (j : t.Idx) :
    broadcastInDim t dims h (constant (F := Ideal) S_ .f32 b) j = Ideal.ofBits .f32 b := rfl

/-- The reciprocal square root of a real-valued array clamped below by an array of ones. -/
theorem allReal_rsqrt_max_one {s : Shape} {φ : FTy} {y o : FVec Ideal s φ} (hy : AllReal y) (ho : ∀ i, o i = 1) :
    AllReal (Host.rsqrt (maximumf y o)) := fun i => by
  show IsReal (Ideal.rsqrt (max (y i) (o i)))
  rw [ho i]
  exact isReal_rsqrt_max_one (hy i)

/-- The degree factor is the reciprocal square root of a count (a finite sum of ones from zero) clamped below by
    one: a real number at every node, whatever the edge list. -/
theorem allReal_degFactor (x : IVec S1600000 32) : AllReal (degFactor x) := by
  unfold degFactor
  exact allReal_rsqrt_max_one
    (allReal_scatterAdd _ _ (allReal_broadcastInDim _ _ (allReal_constant _ _ _ isReal_ofBits_zero))
      (allReal_broadcastInDim _ _ (allReal_constant _ _ _ isReal_ofBits_one)))
    (fun i => (splat_apply _ _ _ i).trans ofBits_one)

/-- The aggregation gathers rows of its operand and scatter-adds them from zero: real-valued operands give a
    real-valued result, whatever the edge lists. -/
theorem allReal_aggK (x1 x2 : IVec S1600000 32) {x : FVec Ideal S100000x128 .f32} (hx : AllReal x) :
    AllReal (aggK x1 x2 x) := by
  unfold aggK
  exact allReal_scatterAdd _ _ (allReal_broadcastInDim _ _ (allReal_constant _ _ _ isReal_ofBits_zero))
    (allReal_gather _ _ hx)

end Cert.KernelIdeal.ParamReal

end
-- ==== Proof.PreReal.lean ====
/-
  The precondition decoded: when the finiteness predicate of the thirteen arguments evaluates to 1, every entry of
  each of the eleven floating-point arguments is a real number. The predicate is the conjunction, over those
  arguments, of "every entry x has |x| < +∞"; at the exact instance |x| is max x (-x) and the bit pattern
  0x7F800000 denotes ⊤, and an extended real whose absolute value is below ⊤ is neither ⊤ nor ⊥.
-/
import proofs.«167096_j27393301414235_1_alg».proof.Pre_finite_inputs
import Idealize.ShloMosaic.Lib.ReduceAll
import Idealize.ShloMosaic.PureOps.Ideal
import Idealize.ShloMosaic.PureOps.Ideal.Laws
import Idealize.ShloMosaic.Lib.ValueIdx

noncomputable section

namespace Cert.PreReal

open Idealize.ShloMosaic Cert.Pre_finite_inputs

/-- The rank-0 shape has one index. -/
instance subsingleton_S_ : Subsingleton S_.Idx := ⟨fun a b => funext fun d => d.elim0⟩

/-- An extended real whose absolute value max x (-x) is below ⊤ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- A comparison word that is 1 is a true comparison. -/
theorem ofBool_eq_one (b : Bool) : BitVec.ofBool b = 1#1 ↔ b = true := by cases b <;> decide

/-- The single-precision pattern 0x7F800000 denotes ⊤. -/
theorem inf_bits : Ideal.ofBits .f32 0x7F800000#32 = (⊤ : EReal) := by simp [Ideal.ofBits, Ideal.ieee]

/-- One conjunct: all(|a| < +∞) = 1 gives every entry of a real. -/
theorem real_of_all {s : Shape} {axes : List (Fin s.rank)} (a : FVec Ideal s .f32)
    (hb : S_.BroadcastsInDim s (![] : Fin 0 → Fin s.rank)) (hr : s.ReducesTo axes S_) (hu : 0 < S_.numel)
    (j : S_.Idx)
    (e : Host.reduce IntOp.andi (cmpf .olt (Host.absf a) (broadcastInDim s ![] hb (constant S_ .f32 0x7F800000#32)))
          (constantI S_ 1 1#1) hr hu j = 1#1) (i : s.Idx) : ∃ r : ℝ, a i = (r : EReal) := by
  have h1 := Host.reduce_andi_all _ _ hr hu j e i
  apply real_of_abs_lt_top
  have h2 : Ideal.cmp .olt (max (a i) (-(a i))) (Ideal.ofBits .f32 0x7F800000#32) = 1#1 := h1
  rw [inf_bits] at h2
  unfold Ideal.cmp at h2
  rw [ofBool_eq_one] at h2
  simpa using h2

/-- THE PRECONDITION DECODED: the finiteness predicate being 1 makes every entry of each of the eleven
    floating-point arguments a real number (arguments 0, 3, 4, …, 12 in order; 1 and 2 are the integer edge lists). -/
theorem real_of_pre [Cert.Pre_finite_inputs.Facts]
    (a0 : FVec Ideal S100000x128 .f32) (a1 : IVec S1600000 32) (a2 : IVec S1600000 32)
    (a3 : FVec Ideal S128x128 .f32) (a4 : FVec Ideal S128 .f32) (a5 : FVec Ideal S128 .f32) (a6 : FVec Ideal S128 .f32)
    (a7 : FVec Ideal S128x128 .f32) (a8 : FVec Ideal S128 .f32) (a9 : FVec Ideal S128 .f32) (a10 : FVec Ideal S128 .f32)
    (a11 : FVec Ideal S128x64 .f32) (a12 : FVec Ideal S64 .f32)
    (h : Cert.Pre_finite_inputs.fn (F := Ideal) a0 a1 a2 a3 a4 a5 a6 a7 a8 a9 a10 a11 a12 = fun _ => 1#1) :
    (∀ i, ∃ r : ℝ, a0 i = (r : EReal)) ∧ (∀ i, ∃ r : ℝ, a3 i = (r : EReal)) ∧ (∀ i, ∃ r : ℝ, a4 i = (r : EReal))
      ∧ (∀ i, ∃ r : ℝ, a5 i = (r : EReal)) ∧ (∀ i, ∃ r : ℝ, a6 i = (r : EReal)) ∧ (∀ i, ∃ r : ℝ, a7 i = (r : EReal))
      ∧ (∀ i, ∃ r : ℝ, a8 i = (r : EReal)) ∧ (∀ i, ∃ r : ℝ, a9 i = (r : EReal)) ∧ (∀ i, ∃ r : ℝ, a10 i = (r : EReal))
      ∧ (∀ i, ∃ r : ℝ, a11 i = (r : EReal)) ∧ (∀ i, ∃ r : ℝ, a12 i = (r : EReal)) := by
  have e := congrFun h ValueIdx.ix0
  dsimp only [fn, fn_part1, fn_part2, fn_part3, andi] at e
  simp only [IntOp.andi_eq_one] at e
  obtain ⟨⟨⟨⟨⟨⟨⟨⟨⟨⟨h0, h3⟩, h4⟩, h5⟩, h6⟩, h7⟩, h8⟩, h9⟩, h10⟩, h11⟩, h12⟩ := e
  exact ⟨real_of_all a0 _ _ _ _ h0, real_of_all a3 _ _ _ _ h3, real_of_all a4 _ _ _ _ h4, real_of_all a5 _ _ _ _ h5,
    real_of_all a6 _ _ _ _ h6, real_of_all a7 _ _ _ _ h7, real_of_all a8 _ _ _ _ h8, real_of_all a9 _ _ _ _ h9,
    real_of_all a10 _ _ _ _ h10, real_of_all a11 _ _ _ _ h11, real_of_all a12 _ _ _ _ h12⟩

end Cert.PreReal

end
-- ==== Proof.LibIdealLayout.lean ====
/-
  General facts about array operations read at the exact (extended-real) instance, for any shapes.

  * A matrix product accumulated into the zero array is the host's `dot_general` of the same operands: both are, entry by
    entry, the plain sum over the contracted index (there is no rounding and no accumulation order at this instance).
  * One row `v : [b]` spread over all rows of an `[a, b]` array reads, at `(p, c)`, `v c` — in the two spellings programs
    use: a cast to `[1, b]` followed by a vector broadcast, and two `broadcast_in_dim`s (`[b] → [1, b] → [a, b]`).
  * A scalar spread over an array reads the scalar at every index.
-/
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.IdealLayout

open Idealize.ShloMosaic Idealize.ShloMosaic.ValueIdx

/-- At the exact instance a `tpu.matmul` into the zero accumulator IS the host's `dot_general` with the same dimension
    numbers: entry `j` of either is `∑ k, lhs (lhsIdx j k) * rhs (rhsIdx j k)`. -/
theorem matmul_zero_eq_dotGeneral {sl sr so : Shape} {φ₁ φ₂ : FTy} (d : DotDims sl sr so) (prec : Option ContractPrecision)
    (l : FVec Ideal sl φ₁) (r : FVec Ideal sr φ₂) :
    matmul d prec l r (constant (F := Ideal) so .f32 0x00000000#32) = Host.dotGeneral d prec l r := by
  funext j
  simp only [matmul, Host.dotGeneral]
  rw [Ideal.matmul_constant_zero_apply, Ideal.dotGeneral_apply]

/-- The same with the operands' float formats free: a matrix product into zeros of one pair of arrays is the host's
    `dot_general` of any pair with the same entries (at the exact instance an entry is an extended real whatever its
    format, so a body's bf16 casts change nothing). -/
theorem matmul_zero_eq_dotGeneral_of_eq {sl sr so : Shape} {φ₁ φ₂ ψ₁ ψ₂ : FTy} (d : DotDims sl sr so) (prec : Option ContractPrecision)
    (l : FVec Ideal sl φ₁) (r : FVec Ideal sr φ₂) (l' : FVec Ideal sl ψ₁) (r' : FVec Ideal sr ψ₂)
    (hl : ∀ i, (l i : EReal) = l' i) (hr : ∀ i, (r i : EReal) = r' i) :
    (matmul d prec l r (constant (F := Ideal) so .f32 0x00000000#32) : so.Idx → EReal) = Host.dotGeneral d prec l' r' := by
  funext j
  simp only [matmul, Host.dotGeneral]
  rw [Ideal.matmul_constant_zero_apply, Ideal.dotGeneral_apply]
  exact Finset.sum_congr rfl fun k _ => by rw [hl, hr]

/-- A row cast `[b] → [1, b]` and broadcast over `a` rows reads the row's entry of the column. -/
theorem broadcastTo_row_apply {α : Type} {a b : ℕ} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- Two `broadcast_in_dim`s, `[b] → [1, b]` along the last axis and `[1, b] → [a, b]`, read the row's entry of the column. -/
theorem broadcastInDim_row_apply {α : Type} {a b : ℕ} (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1])
    (p : Fin a) (c : Fin b) :
    broadcastInDim ⟨2, ![a, b]⟩ ![0, 1] h2 (broadcastInDim ⟨2, ![1, b]⟩ ![1] h1 v) (ix2 p c) = v (ix1 c) := by
  have hc : c.val = if b = 1 then 0 else c.val := by
    split
    · have := c.isLt; omega
    · rfl
  refine (broadcastInDim_apply ![0, 1] h2 _ (ix2 p c) (ix2 (0 : Fin 1) c) (fun ax => ?_)).trans
    (broadcastInDim_apply ![1] h1 v (ix2 (0 : Fin 1) c) (ix1 c) (fun ax => ?_))
  · match ax with
    | ⟨0, _⟩ => show 0 = if (1 : Nat) = 1 then 0 else p.val; rw [if_pos rfl]
    | ⟨1, _⟩ => exact hc
  · match ax with
    | ⟨0, _⟩ => exact hc

/-- A scalar spread over an array by `broadcast_in_dim` reads the scalar everywhere. -/
theorem broadcastInDim_scalar_apply {α : Type} {t : Shape} (dims : Fin 0 → Fin t.rank)
    (h : (⟨0, ![]⟩ : Shape).BroadcastsInDim t dims) (x : (⟨0, ![]⟩ : Shape).Idx → α) (j : t.Idx) :
    broadcastInDim t dims h x j = x (fun a => a.elim0) :=
  broadcastInDim_apply dims h x j (fun a => a.elim0) (fun a => a.elim0)

end Idealize.ShloMosaic.IdealLayout

end
-- ==== Proof.RefDefs.lean ====
/-
  The reference network's building blocks as whole-array functions over the extended reals: a vector read as a
  one-row array, the two degree factors as columns, and the neighbourhood aggregation (a gather of rows along the
  edges' sources followed by a scatter-add into the edges' targets), written with the reference's own operations.
-/
import proofs.«167096_j27393301414235_1_alg».proof.Proof.Gen.ReferenceIdeal.Read
import proofs.«167096_j27393301414235_1_alg».proof.Proof.Spec
import proofs.«167096_j27393301414235_1_alg».proof.Proof.Net
import proofs.«167096_j27393301414235_1_alg».proof.Proof.LibIdealLayout

noncomputable section

namespace Cert.ReferenceIdeal.RefNet

open Cert.ReferenceIdeal Cert.ReferenceIdeal.Gen Cert.ReferenceIdeal.Read Cert.Spec Cert.Net
open Idealize.ShloMosaic Idealize.ShloMosaic.ValueIdx Idealize.ShloMosaic.StableHlo

/-- A float vector of the reference at the exact instance. -/
abbrev FV (s : Shape) : Type := (⟨s, .f32⟩ : BufTy).Contents (Elt Ideal)
/-- An index vector of the reference. -/
abbrev IV (s : Shape) : Type := (⟨s, .i32⟩ : BufTy).Contents (Elt Ideal)

/-- A length-`n` vector as a `1 × n` row. -/
def row {n : Nat} (b : (⟨1, ![n]⟩ : Shape).Idx → EReal) : Arr 1 n := fun j => b (ix1 (j 1))

/-- The out-degree factor `rsqrt (max degree 1)` of every node, as a column. -/
def noutR (x1 : IV S1600000) : Arr 100000 1 := fun i => val_main_v9 (F := Ideal) x1 (ix1 (i 0))

/-- The in-degree factor of every node, as a column. -/
def ninR (x2 : IV S1600000) : Arr 100000 1 := fun i => val_main_v12 (F := Ideal) x2 (ix1 (i 0))

/-- The aggregation of an array of node rows: row `src e` of `x` is added into row `dst e`, for every edge `e`. -/
def AggR (x1 x2 : IV S1600000) (x : Arr 100000 128) : Arr 100000 128 :=
  (Host.scatterAdd (F := Ideal) (φ := .f32) scatter_S100000x128_S1600000x1_S1600000x128_1_0_0_1 (val_main_v23 (F := Ideal))
    (val_main_v24 (F := Ideal) x2)
    (Host.gather gather_S100000x128_S1600000x1_S1600000x128_1_0_n_n_0_1_1128 (x : FV S100000x128)
      (val_main_v21 (F := Ideal) x1)) : FV S100000x128)

/-- The three aggregations of the reference are `AggR` of their operands. -/
theorem v25_eq (x0 : FV S100000x128) (x1 x2 : IV S1600000) :
    val_main_v25 (F := Ideal) x0 x1 x2 = AggR x1 x2 (val_main_v15 (F := Ideal) x0 x1) := rfl

theorem v71_eq (x0 : FV S100000x128) (x1 x2 : IV S1600000) (x3 : FV S128x128) (x4 x5 x6 : FV S128) :
    val_main_v71 (F := Ideal) x0 x1 x2 x3 x4 x5 x6 = AggR x1 x2 (val_main_v61 (F := Ideal) x0 x1 x2 x3 x4 x5 x6) := rfl

theorem v117_eq (x0 : FV S100000x128) (x1 x2 : IV S1600000) (x3 : FV S128x128) (x4 x5 x6 : FV S128) (x7 : FV S128x128)
    (x8 x9 x10 : FV S128) :
    val_main_v117 (F := Ideal) x0 x1 x2 x3 x4 x5 x6 x7 x8 x9 x10
      = AggR x1 x2 (val_main_v107 (F := Ideal) x0 x1 x2 x3 x4 x5 x6 x7 x8 x9 x10) := rfl

end Cert.ReferenceIdeal.RefNet

end
-- ==== Proof.Glue.lean ====
/-
  The kernel's and the reference's spellings of the same parameters agree: the degree factors as columns, the
  neighbourhood aggregation, and a vector read as a one-row array. The degree factor and the aggregation are the same
  terms on both sides by unfolding; a length-a vector cast to an a × 1 column (or a 1 × a row) reads the vector at
  the index with the same row-major position.
-/
import proofs.«167096_j27393301414235_1_alg».proof.Proof.KernelStages
import proofs.«167096_j27393301414235_1_alg».proof.Proof.RefDefs
import Idealize.ShloMosaic.Lib.ValueLayout

noncomputable section

namespace Cert.Glue

open Idealize.ShloMosaic Idealize.ShloMosaic.ValueIdx Cert.Spec

/-- A length-a vector cast to an a × 1 column reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The kernel's degree factor of the first edge list is the reference's, as whole vectors. -/
theorem degFactor_out (x1 : IVec Cert.KernelIdeal.S1600000 32) :
    Cert.KernelIdeal.Stages.degFactor x1 = Cert.ReferenceIdeal.Read.val_main_v9 (F := Ideal) x1 := rfl

/-- The kernel's degree factor of the second edge list is the reference's. -/
theorem degFactor_in (x2 : IVec Cert.KernelIdeal.S1600000 32) :
    Cert.KernelIdeal.Stages.degFactor x2 = Cert.ReferenceIdeal.Read.val_main_v12 (F := Ideal) x2 := rfl

/-- (1) The kernel's out-degree column is the reference's. -/
theorem col_degFactor_out (x1 : IVec Cert.KernelIdeal.S1600000 32) :
    Cert.KernelIdeal.Stages.col (Cert.KernelIdeal.Stages.degFactor x1) = Cert.ReferenceIdeal.RefNet.noutR x1 := by
  funext i
  rw [eq_ix2 i]
  refine (shapeCast_a_a1_apply (Cert.KernelIdeal.Stages.degFactor x1) _ (i 0) (i 1)).trans ?_
  exact congrFun (degFactor_out x1) (ix1 (i 0))

/-- (1) The kernel's in-degree column is the reference's. -/
theorem col_degFactor_in (x2 : IVec Cert.KernelIdeal.S1600000 32) :
    Cert.KernelIdeal.Stages.col (Cert.KernelIdeal.Stages.degFactor x2) = Cert.ReferenceIdeal.RefNet.ninR x2 := by
  funext i
  rw [eq_ix2 i]
  refine (shapeCast_a_a1_apply (Cert.KernelIdeal.Stages.degFactor x2) _ (i 0) (i 1)).trans ?_
  exact congrFun (degFactor_in x2) (ix1 (i 0))

/-- (2) The kernel's aggregation is the reference's. -/
theorem aggK_eq (x1 x2 : IVec Cert.KernelIdeal.S1600000 32) :
    Cert.KernelIdeal.Stages.aggK x1 x2 = Cert.ReferenceIdeal.RefNet.AggR x1 x2 := rfl

/-- (3) A 128-vector as a one-row array, in both spellings. -/
theorem rowK_eq (b : FVec Ideal Cert.KernelIdeal.S128 .f32) : Cert.KernelIdeal.Stages.rowK b = Cert.ReferenceIdeal.RefNet.row b := by
  funext j
  rw [eq_ix2 j]
  exact shapeCast_a_1a_apply b _ (j 0) (j 1)

/-- (3) A 64-vector as a one-row array, in both spellings. -/
theorem rowK64_eq (b : FVec Ideal Cert.KernelIdeal.S64 .f32) : Cert.KernelIdeal.Stages.rowK64 b = Cert.ReferenceIdeal.RefNet.row b := by
  funext j
  rw [eq_ix2 j]
  exact shapeCast_a_1a_apply b _ (j 0) (j 1)

end Cert.Glue

end
-- ==== Proof.Ref1.lean ====
/-
  The reference's first layer, stage by stage, as the whole-array functions of the two-pass arrangement: the row
  scaling, the dense layer, the column means and variances, and the normalised, rectified and rescaled layer.
-/
import proofs.«167096_j27393301414235_1_alg».proof.Proof.RefDefs

noncomputable section

namespace Cert.ReferenceIdeal.RefNet

open Cert.ReferenceIdeal Cert.ReferenceIdeal.Gen Cert.ReferenceIdeal.Read Cert.Spec Cert.Net
open Idealize.ShloMosaic Idealize.ShloMosaic.ValueIdx Idealize.ShloMosaic.StableHlo

/-- The features with every row scaled by its out-degree factor. -/
theorem v15_eq (x0 : FV S100000x128) (x1 : IV S1600000) :
    val_main_v15 (F := Ideal) x0 x1 = scaleRows x0 (noutR x1) := by
  funext i
  obtain ⟨p, q, rfl⟩ : ∃ (p : Fin 100000) (q : Fin 128), i = ix2 p q := ⟨i 0, i 1, eq_ix2 i⟩
  have e : idx_main_v13 (idx_main_v14 (ix2 p q)) = ix1 p := funext fun a => Fin.ext (by match a with | ⟨0, _⟩ => rfl)
  rw [val_main_v15_apply, val_main_v14_apply, val_main_v13_apply, e]
  rfl

/-- The first dense layer. -/
theorem v32_eq (x0 : FV S100000x128) (x1 x2 : IV S1600000) (x3 : FV S128x128) (x4 : FV S128) :
    val_main_v32 (F := Ideal) x0 x1 x2 x3 x4 = hid1 (AggR x1 x2) (noutR x1) (ninR x2) x0 x3 (row x4) := by
  funext i
  obtain ⟨p, q, rfl⟩ : ∃ (p : Fin 100000) (q : Fin 128), i = ix2 p q := ⟨i 0, i 1, eq_ix2 i⟩
  have el : ∀ k : Fin 128, lidx_main_v29 (ix2 p q) k = ix2 p k := fun k =>
    funext fun a => Fin.ext (by match a with | ⟨0, _⟩ => rfl | ⟨1, _⟩ => rfl)
  have er : ∀ k : Fin 128, ridx_main_v29 (ix2 p q) k = ix2 k q := fun k =>
    funext fun a => Fin.ext (by match a with | ⟨0, _⟩ => rfl | ⟨1, _⟩ => rfl)
  have en : ∀ k : Fin 128, idx_main_v26 (idx_main_v27 (ix2 p k)) = ix1 p := fun k =>
    funext fun a => Fin.ext (by match a with | ⟨0, _⟩ => rfl)
  have eb : idx_main_v30 (idx_main_v31 (ix2 p q)) = ix1 q := funext fun a => Fin.ext (by match a with | ⟨0, _⟩ => rfl)
  rw [val_main_v32_apply, val_main_v29_apply, val_main_v31_apply, val_main_v30_apply, eb, Ideal.addf_def]
  show _ = (∑ k : Fin 128, (AggR x1 x2 (scaleRows x0 (noutR x1)) (ix2 p k) * ninR x2 (ix2 p (0 : Fin 1))) * x3 (ix2 k q))
    + row x4 (ix2 (0 : Fin 1) q)
  refine congrArg₂ (· + ·) (Finset.sum_congr rfl fun k _ => ?_) rfl
  rw [el, er, val_main_v28_apply, val_main_v27_apply, val_main_v26_apply, en, v25_eq, v15_eq, Ideal.mulf_def]
  rfl

/-- The column means of the first layer. -/
theorem v35_eq (x0 : FV S100000x128) (x1 x2 : IV S1600000) (x3 : FV S128x128) (x4 : FV S128) :
    row (val_main_v35 (F := Ideal) x0 x1 x2 x3 x4) = meanTwo (hid1 (AggR x1 x2) (noutR x1) (ninR x2) x0 x3 (row x4)) := by
  funext j
  obtain ⟨p, q, rfl⟩ : ∃ (p : Fin 1) (q : Fin 128), j = ix2 p q := ⟨j 0, j 1, eq_ix2 j⟩
  have e : ∀ k : Fin 100000, idx_main_v33 (ix1 q) k = ix2 k q := fun k =>
    funext fun a => Fin.ext (by match a with | ⟨0, _⟩ => rfl | ⟨1, _⟩ => rfl)
  show val_main_v35 (F := Ideal) x0 x1 x2 x3 x4 (ix1 q)
    = Ideal.div (∑ r : Fin 100000, hid1 (AggR x1 x2) (noutR x1) (ninR x2) x0 x3 (row x4) (ix2 r q)) rows
  rw [val_main_v35_apply, val_main_v33_apply, val_main_v34_apply, val_main_cst_7_apply, val_main_cst_6_apply,
    Ideal.hostDivf_def, Ideal.ofBits_def (φ := .f32) 0x00000000#32, Ideal.ofBits_zero_f32, zero_add]
  refine congrArg₂ Ideal.div (Finset.sum_congr rfl fun k _ => ?_) rfl
  rw [e, v32_eq]

/-- The column mean read at a column. -/
theorem v35_at (x0 : FV S100000x128) (x1 x2 : IV S1600000) (x3 : FV S128x128) (x4 : FV S128) (p : Fin 1) (q : Fin 128) :
    val_main_v35 (F := Ideal) x0 x1 x2 x3 x4 (ix1 q) = meanTwo (hid1 (AggR x1 x2) (noutR x1) (ninR x2) x0 x3 (row x4)) (ix2 p q) :=
  congrFun (v35_eq x0 x1 x2 x3 x4) (ix2 p q)

/-- The column variances of the first layer. -/
theorem v42_eq (x0 : FV S100000x128) (x1 x2 : IV S1600000) (x3 : FV S128x128) (x4 : FV S128) :
    row (val_main_v42 (F := Ideal) x0 x1 x2 x3 x4) = varTwo (hid1 (AggR x1 x2) (noutR x1) (ninR x2) x0 x3 (row x4)) := by
  funext j
  obtain ⟨p, q, rfl⟩ : ∃ (p : Fin 1) (q : Fin 128), j = ix2 p q := ⟨j 0, j 1, eq_ix2 j⟩
  have e : ∀ k : Fin 100000, idx_main_v40 (ix1 q) k = ix2 k q := fun k =>
    funext fun a => Fin.ext (by match a with | ⟨0, _⟩ => rfl | ⟨1, _⟩ => rfl)
  have em : ∀ k : Fin 100000, idx_main_v36 (idx_main_v37 (ix2 k q)) = ix1 q := fun k =>
    funext fun a => Fin.ext (by match a with | ⟨0, _⟩ => rfl)
  show val_main_v42 (F := Ideal) x0 x1 x2 x3 x4 (ix1 q)
    = Ideal.div (∑ r : Fin 100000, (hid1 (AggR x1 x2) (noutR x1) (ninR x2) x0 x3 (row x4) (ix2 r q) - meanTwo (hid1 (AggR x1 x2) (noutR x1) (ninR x2) x0 x3 (row x4)) (ix2 p q))
        * (hid1 (AggR x1 x2) (noutR x1) (ninR x2) x0 x3 (row x4) (ix2 r q) - meanTwo (hid1 (AggR x1 x2) (noutR x1) (ninR x2) x0 x3 (row x4)) (ix2 p q))) rows
  rw [val_main_v42_apply, val_main_v40_apply, val_main_v41_apply, val_main_cst_9_apply, val_main_cst_8_apply,
    Ideal.hostDivf_def, Ideal.ofBits_def (φ := .f32) 0x00000000#32, Ideal.ofBits_zero_f32, zero_add]
  refine congrArg₂ Ideal.div (Finset.sum_congr rfl fun k _ => ?_) rfl
  rw [e, val_main_v39_apply, val_main_v38_apply, val_main_v37_apply, val_main_v36_apply, em,
    v35_at x0 x1 x2 x3 x4 p q, v32_eq, Ideal.mulf_def, Ideal.subf_def]

/-- The column variance read at a column. -/
theorem v42_at (x0 : FV S100000x128) (x1 x2 : IV S1600000) (x3 : FV S128x128) (x4 : FV S128) (p : Fin 1) (q : Fin 128) :
    val_main_v42 (F := Ideal) x0 x1 x2 x3 x4 (ix1 q) = varTwo (hid1 (AggR x1 x2) (noutR x1) (ninR x2) x0 x3 (row x4)) (ix2 p q) :=
  congrFun (v42_eq x0 x1 x2 x3 x4) (ix2 p q)

/-- The first layer normalised, rectified and scaled by the out-degree factor: the operand of the next aggregation. -/
theorem v61_eq (x0 : FV S100000x128) (x1 x2 : IV S1600000) (x3 : FV S128x128) (x4 x5 x6 : FV S128) :
    val_main_v61 (F := Ideal) x0 x1 x2 x3 x4 x5 x6
      = actTwo1 (AggR x1 x2) (noutR x1) (ninR x2) x0 x3 (row x4) (row x5) (row x6) := by
  funext i
  obtain ⟨p, q, rfl⟩ : ∃ (p : Fin 100000) (q : Fin 128), i = ix2 p q := ⟨i 0, i 1, eq_ix2 i⟩
  have e44 : idx_main_v43 (idx_main_v44 (ix2 p q)) = ix1 q := funext fun a => Fin.ext (by match a with | ⟨0, _⟩ => rfl)
  have e50 : idx_main_v49 (idx_main_v50 (ix2 p q)) = ix1 q := funext fun a => Fin.ext (by match a with | ⟨0, _⟩ => rfl)
  have e53 : idx_main_v52 (idx_main_v53 (ix2 p q)) = ix1 q := funext fun a => Fin.ext (by match a with | ⟨0, _⟩ => rfl)
  have e56 : idx_main_v55 (idx_main_v56 (ix2 p q)) = ix1 q := funext fun a => Fin.ext (by match a with | ⟨0, _⟩ => rfl)
  have e60 : idx_main_v59 (idx_main_v60 (ix2 p q)) = ix1 p := funext fun a => Fin.ext (by match a with | ⟨0, _⟩ => rfl)
  show _ = max ((hid1 (AggR x1 x2) (noutR x1) (ninR x2) x0 x3 (row x4) (ix2 p q) - meanTwo (hid1 (AggR x1 x2) (noutR x1) (ninR x2) x0 x3 (row x4)) (ix2 (0 : Fin 1) q))
      * Ideal.rsqrt (varTwo (hid1 (AggR x1 x2) (noutR x1) (ninR x2) x0 x3 (row x4)) (ix2 (0 : Fin 1) q) + eps) * row x5 (ix2 (0 : Fin 1) q) + row x6 (ix2 (0 : Fin 1) q)) 0
    * noutR x1 (ix2 p (0 : Fin 1))
  rw [val_main_v61_apply, val_main_v58_apply, val_main_v57_apply, val_main_v54_apply, val_main_v51_apply, val_main_v45_apply,
    val_main_v44_apply, val_main_v43_apply, e44, val_main_v50_apply, val_main_v49_apply, e50, val_main_v48_apply,
    val_main_v47_apply, val_main_v46_apply, val_main_cst_10_apply, val_main_v53_apply, val_main_v52_apply, e53,
    val_main_v56_apply, val_main_v55_apply, e56, val_main_call0_v0_apply, val_main_call0_cst_apply, val_main_v60_apply,
    val_main_v59_apply, e60, v35_at x0 x1 x2 x3 x4 0 q, v42_at x0 x1 x2 x3 x4 0 q, v32_eq,
    Ideal.ofBits_def (φ := .f32) 0x00000000#32, Ideal.ofBits_zero_f32]
  rfl

end Cert.ReferenceIdeal.RefNet

end
-- ==== Proof.Ref2.lean ====
/-
  The reference's second layer, stage by stage, as the whole-array functions of the two-pass arrangement.
-/
import proofs.«167096_j27393301414235_1_alg».proof.Proof.Ref1

noncomputable section

namespace Cert.ReferenceIdeal.RefNet

open Cert.ReferenceIdeal Cert.ReferenceIdeal.Gen Cert.ReferenceIdeal.Read Cert.Spec Cert.Net
open Idealize.ShloMosaic Idealize.ShloMosaic.ValueIdx Idealize.ShloMosaic.StableHlo

/-- The second dense layer. -/
theorem v78_eq (x0 : FV S100000x128) (x1 x2 : IV S1600000) (x3 : FV S128x128) (x4 x5 x6 : FV S128) (x7 : FV S128x128) (x8 : FV S128) :
    val_main_v78 (F := Ideal) x0 x1 x2 x3 x4 x5 x6 x7 x8 = hidTwo2 (AggR x1 x2) (noutR x1) (ninR x2) x0 x3 (row x4) (row x5) (row x6) x7 (row x8) := by
  funext i
  obtain ⟨p, q, rfl⟩ : ∃ (p : Fin 100000) (q : Fin 128), i = ix2 p q := ⟨i 0, i 1, eq_ix2 i⟩
  have el : ∀ k : Fin 128, lidx_main_v75 (ix2 p q) k = ix2 p k := fun k =>
    funext fun a => Fin.ext (by match a with | ⟨0, _⟩ => rfl | ⟨1, _⟩ => rfl)
  have er : ∀ k : Fin 128, ridx_main_v75 (ix2 p q) k = ix2 k q := fun k =>
    funext fun a => Fin.ext (by match a with | ⟨0, _⟩ => rfl | ⟨1, _⟩ => rfl)
  have en : ∀ k : Fin 128, idx_main_v72 (idx_main_v73 (ix2 p k)) = ix1 p := fun k =>
    funext fun a => Fin.ext (by match a with | ⟨0, _⟩ => rfl)
  have eb : idx_main_v76 (idx_main_v77 (ix2 p q)) = ix1 q := funext fun a => Fin.ext (by match a with | ⟨0, _⟩ => rfl)
  rw [val_main_v78_apply, val_main_v75_apply, val_main_v77_apply, val_main_v76_apply, eb, Ideal.addf_def]
  show _ = (∑ k : Fin 128, (AggR x1 x2 (actTwo1 (AggR x1 x2) (noutR x1) (ninR x2) x0 x3 (row x4) (row x5) (row x6)) (ix2 p k)
      * ninR x2 (ix2 p (0 : Fin 1))) * x7 (ix2 k q)) + row x8 (ix2 (0 : Fin 1) q)
  refine congrArg₂ (· + ·) (Finset.sum_congr rfl fun k _ => ?_) rfl
  rw [el, er, val_main_v74_apply, val_main_v73_apply, val_main_v72_apply, en, v71_eq, v61_eq, Ideal.mulf_def]
  rfl

/-- The column means of the second layer. -/
theorem v81_eq (x0 : FV S100000x128) (x1 x2 : IV S1600000) (x3 : FV S128x128) (x4 x5 x6 : FV S128) (x7 : FV S128x128) (x8 : FV S128) :
    row (val_main_v81 (F := Ideal) x0 x1 x2 x3 x4 x5 x6 x7 x8) = meanTwo (hidTwo2 (AggR x1 x2) (noutR x1) (ninR x2) x0 x3 (row x4) (row x5) (row x6) x7 (row x8)) := by
  funext j
  obtain ⟨p, q, rfl⟩ : ∃ (p : Fin 1) (q : Fin 128), j = ix2 p q := ⟨j 0, j 1, eq_ix2 j⟩
  have e : ∀ k : Fin 100000, idx_main_v79 (ix1 q) k = ix2 k q := fun k =>
    funext fun a => Fin.ext (by match a with | ⟨0, _⟩ => rfl | ⟨1, _⟩ => rfl)
  show val_main_v81 (F := Ideal) x0 x1 x2 x3 x4 x5 x6 x7 x8 (ix1 q)
    = Ideal.div (∑ r : Fin 100000, hidTwo2 (AggR x1 x2) (noutR x1) (ninR x2) x0 x3 (row x4) (row x5) (row x6) x7 (row x8) (ix2 r q)) rows
  rw [val_main_v81_apply, val_main_v79_apply, val_main_v80_apply, val_main_cst_15_apply, val_main_cst_14_apply,
    Ideal.hostDivf_def, Ideal.ofBits_def (φ := .f32) 0x00000000#32, Ideal.ofBits_zero_f32, zero_add]
  refine congrArg₂ Ideal.div (Finset.sum_congr rfl fun k _ => ?_) rfl
  rw [e, v78_eq]

/-- The column mean read at a column. -/
theorem v81_at (x0 : FV S100000x128) (x1 x2 : IV S1600000) (x3 : FV S128x128) (x4 x5 x6 : FV S128) (x7 : FV S128x128) (x8 : FV S128) (p : Fin 1) (q : Fin 128) :
    val_main_v81 (F := Ideal) x0 x1 x2 x3 x4 x5 x6 x7 x8 (ix1 q) = meanTwo (hidTwo2 (AggR x1 x2) (noutR x1) (ninR x2) x0 x3 (row x4) (row x5) (row x6) x7 (row x8)) (ix2 p q) :=
  congrFun (v81_eq x0 x1 x2 x3 x4 x5 x6 x7 x8) (ix2 p q)

/-- The column variances of the second layer. -/
theorem v88_eq (x0 : FV S100000x128) (x1 x2 : IV S1600000) (x3 : FV S128x128) (x4 x5 x6 : FV S128) (x7 : FV S128x128) (x8 : FV S128) :
    row (val_main_v88 (F := Ideal) x0 x1 x2 x3 x4 x5 x6 x7 x8) = varTwo (hidTwo2 (AggR x1 x2) (noutR x1) (ninR x2) x0 x3 (row x4) (row x5) (row x6) x7 (row x8)) := by
  funext j
  obtain ⟨p, q, rfl⟩ : ∃ (p : Fin 1) (q : Fin 128), j = ix2 p q := ⟨j 0, j 1, eq_ix2 j⟩
  have e : ∀ k : Fin 100000, idx_main_v86 (ix1 q) k = ix2 k q := fun k =>
    funext fun a => Fin.ext (by match a with | ⟨0, _⟩ => rfl | ⟨1, _⟩ => rfl)
  have em : ∀ k : Fin 100000, idx_main_v82 (idx_main_v83 (ix2 k q)) = ix1 q := fun k =>
    funext fun a => Fin.ext (by match a with | ⟨0, _⟩ => rfl)
  show val_main_v88 (F := Ideal) x0 x1 x2 x3 x4 x5 x6 x7 x8 (ix1 q)
    = Ideal.div (∑ r : Fin 100000, (hidTwo2 (AggR x1 x2) (noutR x1) (ninR x2) x0 x3 (row x4) (row x5) (row x6) x7 (row x8) (ix2 r q) - meanTwo (hidTwo2 (AggR x1 x2) (noutR x1) (ninR x2) x0 x3 (row x4) (row x5) (row x6) x7 (row x8)) (ix2 p q))
        * (hidTwo2 (AggR x1 x2) (noutR x1) (ninR x2) x0 x3 (row x4) (row x5) (row x6) x7 (row x8) (ix2 r q) - meanTwo (hidTwo2 (AggR x1 x2) (noutR x1) (ninR x2) x0 x3 (row x4) (row x5) (row x6) x7 (row x8)) (ix2 p q))) rows
  rw [val_main_v88_apply, val_main_v86_apply, val_main_v87_apply, val_main_cst_17_apply, val_main_cst_16_apply,
    Ideal.hostDivf_def, Ideal.ofBits_def (φ := .f32) 0x00000000#32, Ideal.ofBits_zero_f32, zero_add]
  refine congrArg₂ Ideal.div (Finset.sum_congr rfl fun k _ => ?_) rfl
  rw [e, val_main_v85_apply, val_main_v84_apply, val_main_v83_apply, val_main_v82_apply, em,
    v81_at x0 x1 x2 x3 x4 x5 x6 x7 x8 p q, v78_eq, Ideal.mulf_def, Ideal.subf_def]

/-- The column variance read at a column. -/
theorem v88_at (x0 : FV S100000x128) (x1 x2 : IV S1600000) (x3 : FV S128x128) (x4 x5 x6 : FV S128) (x7 : FV S128x128) (x8 : FV S128) (p : Fin 1) (q : Fin 128) :
    val_main_v88 (F := Ideal) x0 x1 x2 x3 x4 x5 x6 x7 x8 (ix1 q) = varTwo (hidTwo2 (AggR x1 x2) (noutR x1) (ninR x2) x0 x3 (row x4) (row x5) (row x6) x7 (row x8)) (ix2 p q) :=
  congrFun (v88_eq x0 x1 x2 x3 x4 x5 x6 x7 x8) (ix2 p q)

/-- The second layer normalised, rectified and scaled by the out-degree factor: the operand of the next aggregation. -/
theorem v107_eq (x0 : FV S100000x128) (x1 x2 : IV S1600000) (x3 : FV S128x128) (x4 x5 x6 : FV S128) (x7 : FV S128x128) (x8 x9 x10 : FV S128) :
    val_main_v107 (F := Ideal) x0 x1 x2 x3 x4 x5 x6 x7 x8 x9 x10
      = actTwo2 (AggR x1 x2) (noutR x1) (ninR x2) x0 x3 (row x4) (row x5) (row x6) x7 (row x8) (row x9) (row x10) := by
  funext i
  obtain ⟨p, q, rfl⟩ : ∃ (p : Fin 100000) (q : Fin 128), i = ix2 p q := ⟨i 0, i 1, eq_ix2 i⟩
  have e44 : idx_main_v89 (idx_main_v90 (ix2 p q)) = ix1 q := funext fun a => Fin.ext (by match a with | ⟨0, _⟩ => rfl)
  have e50 : idx_main_v95 (idx_main_v96 (ix2 p q)) = ix1 q := funext fun a => Fin.ext (by match a with | ⟨0, _⟩ => rfl)
  have e53 : idx_main_v98 (idx_main_v99 (ix2 p q)) = ix1 q := funext fun a => Fin.ext (by match a with | ⟨0, _⟩ => rfl)
  have e56 : idx_main_v101 (idx_main_v102 (ix2 p q)) = ix1 q := funext fun a => Fin.ext (by match a with | ⟨0, _⟩ => rfl)
  have e60 : idx_main_v105 (idx_main_v106 (ix2 p q)) = ix1 p := funext fun a => Fin.ext (by match a with | ⟨0, _⟩ => rfl)
  show _ = max ((hidTwo2 (AggR x1 x2) (noutR x1) (ninR x2) x0 x3 (row x4) (row x5) (row x6) x7 (row x8) (ix2 p q) - meanTwo (hidTwo2 (AggR x1 x2) (noutR x1) (ninR x2) x0 x3 (row x4) (row x5) (row x6) x7 (row x8)) (ix2 (0 : Fin 1) q))
      * Ideal.rsqrt (varTwo (hidTwo2 (AggR x1 x2) (noutR x1) (ninR x2) x0 x3 (row x4) (row x5) (row x6) x7 (row x8)) (ix2 (0 : Fin 1) q) + eps) * row x9 (ix2 (0 : Fin 1) q) + row x10 (ix2 (0 : Fin 1) q)) 0
    * noutR x1 (ix2 p (0 : Fin 1))
  rw [val_main_v107_apply, val_main_v104_apply, val_main_v103_apply, val_main_v100_apply, val_main_v97_apply, val_main_v91_apply,
    val_main_v90_apply, val_main_v89_apply, e44, val_main_v96_apply, val_main_v95_apply, e50, val_main_v94_apply,
    val_main_v93_apply, val_main_v92_apply, val_main_cst_18_apply, val_main_v99_apply, val_main_v98_apply, e53,
    val_main_v102_apply, val_main_v101_apply, e56, val_main_call1_v0_apply, val_main_call1_cst_apply, val_main_v106_apply,
    val_main_v105_apply, e60, v81_at x0 x1 x2 x3 x4 x5 x6 x7 x8 0 q, v88_at x0 x1 x2 x3 x4 x5 x6 x7 x8 0 q, v78_eq,
    Ideal.ofBits_def (φ := .f32) 0x00000000#32, Ideal.ofBits_zero_f32]
  rfl

end Cert.ReferenceIdeal.RefNet

end
-- ==== Proof.Ref3.lean ====
/-
  The reference's output layer and the whole reference as the two-pass arrangement of the network.
-/
import proofs.«167096_j27393301414235_1_alg».proof.Proof.Ref2

noncomputable section

namespace Cert.ReferenceIdeal.RefNet

open Cert.ReferenceIdeal Cert.ReferenceIdeal.Gen Cert.ReferenceIdeal.Read Cert.Spec Cert.Net
open Idealize.ShloMosaic Idealize.ShloMosaic.ValueIdx Idealize.ShloMosaic.StableHlo

/-- The reference's result is the two-pass arrangement of the network applied to its arguments. -/
theorem result_eq (x0 : FV S100000x128) (x1 x2 : IV S1600000) (x3 : FV S128x128) (x4 x5 x6 : FV S128) (x7 : FV S128x128) (x8 x9 x10 : FV S128) (x11 : FV S128x64) (x12 : FV S64) :
    val_main_v124 (F := Ideal) x0 x1 x2 x3 x4 x5 x6 x7 x8 x9 x10 x11 x12
      = outTwo (AggR x1 x2) (noutR x1) (ninR x2) x0 x3 (row x4) (row x5) (row x6) x7 (row x8) (row x9) (row x10) x11 (row x12) := by
  funext i
  obtain ⟨p, q, rfl⟩ : ∃ (p : Fin 100000) (q : Fin 64), i = ix2 p q := ⟨i 0, i 1, eq_ix2 i⟩
  have el : ∀ k : Fin 128, lidx_main_v121 (ix2 p q) k = ix2 p k := fun k =>
    funext fun a => Fin.ext (by match a with | ⟨0, _⟩ => rfl | ⟨1, _⟩ => rfl)
  have er : ∀ k : Fin 128, ridx_main_v121 (ix2 p q) k = ix2 k q := fun k =>
    funext fun a => Fin.ext (by match a with | ⟨0, _⟩ => rfl | ⟨1, _⟩ => rfl)
  have en : ∀ k : Fin 128, idx_main_v118 (idx_main_v119 (ix2 p k)) = ix1 p := fun k =>
    funext fun a => Fin.ext (by match a with | ⟨0, _⟩ => rfl)
  have eb : idx_main_v122 (idx_main_v123 (ix2 p q)) = ix1 q := funext fun a => Fin.ext (by match a with | ⟨0, _⟩ => rfl)
  rw [val_main_v124_apply, val_main_v121_apply, val_main_v123_apply, val_main_v122_apply, eb, Ideal.addf_def]
  show _ = (∑ k : Fin 128, (AggR x1 x2 (actTwo2 (AggR x1 x2) (noutR x1) (ninR x2) x0 x3 (row x4) (row x5) (row x6) x7 (row x8)
      (row x9) (row x10)) (ix2 p k) * ninR x2 (ix2 p (0 : Fin 1))) * x11 (ix2 k q)) + row x12 (ix2 (0 : Fin 1) q)
  refine congrArg₂ (· + ·) (Finset.sum_congr rfl fun k _ => ?_) rfl
  rw [el, er, val_main_v120_apply, val_main_v119_apply, val_main_v118_apply, en, v117_eq, v107_eq, Ideal.mulf_def]
  rfl

end Cert.ReferenceIdeal.RefNet

end
-- ==== Proof.Agree.lean ====
/-
  The kernel's network and the reference's result agree on finite inputs.

  The kernel computes the one-pass arrangement of the network on its own spellings of the parameters (the degree
  factors as columns, the aggregation, the bias and scale vectors as one-row arrays); the reference's result is the
  two-pass arrangement on its spellings of the same parameters. The spellings are equal; the precondition makes
  every floating-point argument real-valued; the degree factors are always real-valued and the aggregation keeps
  arrays real-valued; so the two arrangements agree.
-/
import proofs.«167096_j27393301414235_1_alg».proof.Proof.NetEq
import proofs.«167096_j27393301414235_1_alg».proof.Proof.ParamReal
import proofs.«167096_j27393301414235_1_alg».proof.Proof.PreReal
import proofs.«167096_j27393301414235_1_alg».proof.Proof.Glue
import proofs.«167096_j27393301414235_1_alg».proof.Proof.Ref3

noncomputable section

namespace Cert.Agree

open Idealize.ShloMosaic Cert.RealValued Cert.KernelIdeal Cert.KernelIdeal.ParamReal Cert.ReferenceIdeal.RefNet

/-- With the reference's result read as the two-pass arrangement (`hres`), the kernel's one-pass arrangement of the
    network on its own parameters equals the reference's result whenever the finiteness predicate holds. -/
theorem agree_of [Cert.Pre_finite_inputs.Facts]
    (hres : ∀ (x0 : FVec Ideal S100000x128 .f32) (x1 x2 : IVec S1600000 32) (x3 : FVec Ideal S128x128 .f32)
      (x4 x5 x6 : FVec Ideal S128 .f32) (x7 : FVec Ideal S128x128 .f32) (x8 x9 x10 : FVec Ideal S128 .f32)
      (x11 : FVec Ideal S128x64 .f32) (x12 : FVec Ideal S64 .f32),
      Cert.ReferenceIdeal.Read.val_main_v124 (F := Ideal) x0 x1 x2 x3 x4 x5 x6 x7 x8 x9 x10 x11 x12
        = Cert.Net.outTwo (AggR x1 x2) (noutR x1) (ninR x2) x0 x3 (row x4) (row x5) (row x6) x7 (row x8) (row x9)
            (row x10) x11 (row x12))
    (a0 : FVec Ideal S100000x128 .f32) (a1 a2 : IVec S1600000 32) (a3 : FVec Ideal S128x128 .f32)
    (a4 a5 a6 : FVec Ideal S128 .f32) (a7 : FVec Ideal S128x128 .f32) (a8 a9 a10 : FVec Ideal S128 .f32)
    (a11 : FVec Ideal S128x64 .f32) (a12 : FVec Ideal S64 .f32)
    (hpre : Cert.Pre_finite_inputs.fn (F := Ideal) a0 a1 a2 a3 a4 a5 a6 a7 a8 a9 a10 a11 a12 = fun _ => 1#1) :
    Cert.Net.outOne (Stages.aggK a1 a2) (Stages.col (Stages.degFactor a1)) (Stages.col (Stages.degFactor a2)) a0 a3
        (Stages.rowK a4) (Stages.rowK a5) (Stages.rowK a6) a7 (Stages.rowK a8) (Stages.rowK a9) (Stages.rowK a10) a11
        (Stages.rowK64 a12)
      = Cert.ReferenceIdeal.Read.val_main_v124 (F := Ideal) a0 a1 a2 a3 a4 a5 a6 a7 a8 a9 a10 a11 a12 := by
  obtain ⟨h0, h3, h4, h5, h6, h7, h8, h9, h10, h11, h12⟩ :=
    Cert.PreReal.real_of_pre a0 a1 a2 a3 a4 a5 a6 a7 a8 a9 a10 a11 a12 hpre
  have e := Cert.Net.outOne_eq_outTwo (Stages.aggK a1 a2) (Stages.col (Stages.degFactor a1))
    (Stages.col (Stages.degFactor a2)) a0 a3 (Stages.rowK a4) (Stages.rowK a5) (Stages.rowK a6) a7 (Stages.rowK a8)
    (Stages.rowK a9) (Stages.rowK a10) a11 (Stages.rowK64 a12)
    (fun x hx => allReal_aggK a1 a2 hx) (allReal_col (allReal_degFactor a1)) (allReal_col (allReal_degFactor a2))
    h0 h3 (allReal_rowK h4) (allReal_rowK h5) (allReal_rowK h6) h7 (allReal_rowK h8) (allReal_rowK h9)
    (allReal_rowK h10)
  rw [e, hres, Cert.Glue.aggK_eq, Cert.Glue.col_degFactor_out, Cert.Glue.col_degFactor_in]
  simp only [Cert.Glue.rowK_eq, Cert.Glue.rowK64_eq]

/-- The kernel's one-pass arrangement of the network on its own parameters equals the reference's result whenever
    the finiteness predicate holds. -/
theorem agree [Cert.Pre_finite_inputs.Facts]
    (a0 : FVec Ideal S100000x128 .f32) (a1 a2 : IVec S1600000 32) (a3 : FVec Ideal S128x128 .f32)
    (a4 a5 a6 : FVec Ideal S128 .f32) (a7 : FVec Ideal S128x128 .f32) (a8 a9 a10 : FVec Ideal S128 .f32)
    (a11 : FVec Ideal S128x64 .f32) (a12 : FVec Ideal S64 .f32)
    (hpre : Cert.Pre_finite_inputs.fn (F := Ideal) a0 a1 a2 a3 a4 a5 a6 a7 a8 a9 a10 a11 a12 = fun _ => 1#1) :
    Cert.Net.outOne (Stages.aggK a1 a2) (Stages.col (Stages.degFactor a1)) (Stages.col (Stages.degFactor a2)) a0 a3
        (Stages.rowK a4) (Stages.rowK a5) (Stages.rowK a6) a7 (Stages.rowK a8) (Stages.rowK a9) (Stages.rowK a10) a11
        (Stages.rowK64 a12)
      = Cert.ReferenceIdeal.Read.val_main_v124 (F := Ideal) a0 a1 a2 a3 a4 a5 a6 a7 a8 a9 a10 a11 a12 :=
  agree_of Cert.ReferenceIdeal.RefNet.result_eq a0 a1 a2 a3 a4 a5 a6 a7 a8 a9 a10 a11 a12 hpre

end Cert.Agree

end
-- ==== Proof.lean ====
/-
  The certificate of a three-layer graph convolution over 100000 nodes and 1600000 edges.

  Both programs compute, from the node features, the edge lists and the layers' weights: the degree factors
  `rsqrt (max (degree) 1)` of every node; three times, the features scaled by the out-degree factor, gathered along the
  edges' sources and scatter-added into their destinations, scaled by the in-degree factor, multiplied by the weights
  and shifted by the bias; and after the first two layers a batch normalisation over the nodes, a rectification and the
  next layer's out-degree scaling. The kernel does the dense part in five blocked regions (20 blocks of 5000 rows) and
  accumulates each column's sum and sum of squares over the blocks, from which it takes the variance as
  `E[y²] − E[y]²`; the reference takes the variance as `E[(y − E[y])²]`.

  Over the extended reals a sum may be regrouped freely, a change of float format is the identity and a matrix product
  is a plain sum, so block by block the kernel's regions are the layers of `Cert.Spec` (the `Region` modules), the host
  operations between them are the reference's own (`KernelStages`, `Glue`), and the kernel's result is the network
  `Cert.Net.outOne` of the launch memory (`KernelValue`); the reference's is `Cert.Net.outTwo` (`Ref1`–`Ref3`). The two
  variances agree where every entry that enters them is a real number; the inputs are real by the precondition
  (`PreReal`), the degree factors are real and positive, gathering, scatter-adding, the dense layer and the normalised
  layer keep entries real (`RealValued`, `RealHost`, `ParamReal`), so the two networks agree (`NetEq`, `Agree`).
  The frames are the generated ones; the reference, a line of host operations, has its frame from its run. The
  idealization rewrote nothing, so its conjunct is trivial.
-/
import proofs.«167096_j27393301414235_1_alg».proof.Defs
import proofs.«167096_j27393301414235_1_alg».proof.Proof.Gen.Kernel
import proofs.«167096_j27393301414235_1_alg».proof.Proof.Gen.Kernel.Skeleton
import proofs.«167096_j27393301414235_1_alg».proof.Proof.Gen.Kernel.Launch
import proofs.«167096_j27393301414235_1_alg».proof.Proof.Gen.Kernel.Points
import proofs.«167096_j27393301414235_1_alg».proof.Proof.Gen.Kernel.Frame
import proofs.«167096_j27393301414235_1_alg».proof.Proof.Gen.KernelIdeal
import proofs.«167096_j27393301414235_1_alg».proof.Proof.Gen.KernelIdeal.Skeleton
import proofs.«167096_j27393301414235_1_alg».proof.Proof.Gen.KernelIdeal.Launch
import proofs.«167096_j27393301414235_1_alg».proof.Proof.Gen.KernelIdeal.Points
import proofs.«167096_j27393301414235_1_alg».proof.Proof.Gen.KernelIdeal.Frame
import proofs.«167096_j27393301414235_1_alg».proof.Proof.Gen.ReferenceIdeal
import proofs.«167096_j27393301414235_1_alg».proof.Proof.Gen.Pre_finite_inputs
import proofs.«167096_j27393301414235_1_alg».proof.Proof.Gen.ReferenceIdeal.Run
import proofs.«167096_j27393301414235_1_alg».proof.Proof.Gen.ReferenceIdeal.Read
import proofs.«167096_j27393301414235_1_alg».proof.Proof.KernelRun
import proofs.«167096_j27393301414235_1_alg».proof.Proof.KernelValue
import proofs.«167096_j27393301414235_1_alg».proof.Proof.Agree
import Idealize.ShloMosaic.Adequacy
import Idealize.ShloMosaic.Init

noncomputable section

namespace Cert.Proof

open Idealize.ShloMosaic Idealize.ShloMosaic.TcCoe Idealize.SL.Sem

/-- The word-level kernel runs to the end without a fault and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Over the extended reals both programs end with the same result: the kernel's is the network with every layer's
    variance taken in one pass, the reference's the network with the variance taken in two passes, of the same
    aggregation and degree factors; every entry that enters a variance is a real number because the inputs are. -/
theorem algebraic : Cert.algebraic_KernelIdeal_ReferenceIdeal := by
  intro m ρ m' ρ' hpre hagree
  refine ⟨fun c => Cert.KernelIdeal.Gen.W10 (F := Ideal) m ρ c (Proc.devRef .tc Cert.KernelIdeal.main_v70),
    Cert.KernelIdeal.Result.run_result (F := Ideal) m ρ, ?_⟩
  refine (θ_run Cert.ReferenceIdeal.defs _ _).mono (fun r h c => ⟨(h c).1.trans ?_, (h c).2⟩)
    (Cert.ReferenceIdeal.Value.run (F := Ideal) m' ρ')
  obtain ⟨e0, e1, e2, e3, e4, e5, e6, e7, e8, e9, e10, e11, e12⟩ := hagree c
  rw [Cert.ReferenceIdeal.Read.val_main_v124_eq, e0, e1, e2, e3, e4, e5, e6, e7, e8, e9, e10, e11, e12]
  exact (Cert.Agree.agree _ _ _ _ _ _ _ _ _ _ _ _ _ (hpre c)).symm.trans (Cert.KernelIdeal.Whole.kernel_value m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
